-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S256x128 .f32) (main_arg4 : FVec F S256 .f32) (main_arg5 : FVec F S128x256 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩
abbrev S50000 : Shape := ⟨1, ![50000]⟩
abbrev S1x800000 : Shape := ⟨2, ![1, 800000]⟩
abbrev S850000 : Shape := ⟨1, ![850000]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 112
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S_, .f32⟩
  | .hbm, ⟨8, _⟩ => ⟨S50000x128, .i1⟩
  | .hbm, ⟨9, _⟩ => ⟨S_, .f32⟩
  | .hbm, ⟨10, _⟩ => ⟨S50000x128, .f32⟩
  | .hbm, ⟨11, _⟩ => ⟨S50000x128, .f32⟩
  | .hbm, ⟨12, _⟩ => ⟨S_, .f32⟩
  | .hbm, ⟨13, _⟩ => ⟨S50000x128, .f32⟩
  | .hbm, ⟨14, _⟩ => ⟨S50000x128, .i1⟩
  | .hbm, ⟨15, _⟩ => ⟨S_, .f32⟩
  | .hbm, ⟨16, _⟩ => ⟨S50000x128, .f32⟩
  | .hbm, ⟨17, _⟩ => ⟨S50000x128, .f32⟩
  | .hbm, ⟨18, _⟩ => ⟨S_, .f32⟩
  | .hbm, ⟨19, _⟩ => ⟨S50000x128, .f32⟩
  | .hbm, ⟨20, _⟩ => ⟨S50000x128, .i1⟩
  | .hbm, ⟨21, _⟩ => ⟨S_, .f32⟩
  | .hbm, ⟨22, _⟩ => ⟨S50000x128, .f32⟩
  | .hbm, ⟨23, _⟩ => ⟨S50000x128, .f32⟩
  | .hbm, ⟨24, _⟩ => ⟨S50000, .i32⟩
  | .hbm, ⟨25, _⟩ => ⟨S1x800000, .i32⟩
  | .hbm, ⟨26, _⟩ => ⟨S800000, .i32⟩
  | .hbm, ⟨27, _⟩ => ⟨S850000, .i32⟩
  | .hbm, ⟨28, _⟩ => ⟨S1x800000, .i32⟩
  | .hbm, ⟨29, _⟩ => ⟨S800000, .i32⟩
  | .hbm, ⟨30, _⟩ => ⟨S850000, .i32⟩
  | .hbm, ⟨31, _⟩ => ⟨S_, .f32⟩
  | .hbm, ⟨32, _⟩ => ⟨S50000, .f32⟩
  | .hbm, ⟨33, _⟩ => ⟨S850000, .f32⟩
  | .hbm, ⟨34, _⟩ => ⟨S_, .f32⟩
  | .hbm, ⟨35, _⟩ => ⟨S50000, .f32⟩
  | .hbm, ⟨36, _⟩ => ⟨S850000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .i1⟩
  | .hbm, ⟨41, _⟩ => ⟨S50000, .f32⟩
  | .hbm, ⟨42, _⟩ => ⟨S_, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000, .f32⟩
  | .hbm, ⟨55, _⟩ => ⟨S850000, .f32⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000, .f32⟩
  | .hbm, ⟨65, _⟩ => ⟨S850000, .f32⟩
  | .hbm, ⟨66, _⟩ => ⟨S128x256, .f32⟩
  | .hbm, ⟨67, _⟩ => ⟨S50000x256, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x256, .f32⟩
  | .hbm, ⟨77, _⟩ => ⟨S850000x1, .f32⟩
  | .hbm, ⟨78, _⟩ => ⟨S850000x256, .f32⟩
  | .hbm, ⟨79, _⟩ => ⟨S850000x256, .f32⟩
  | .hbm, ⟨80, _⟩ => ⟨S_, .f32⟩
  | .hbm, ⟨81, _⟩ => ⟨S50000x256, .f32⟩
  | .hbm, ⟨82, _⟩ => ⟨S850000x1, .i32⟩
  | .hbm, ⟨83, _⟩ => ⟨S50000x256, .f32⟩
  | .hbm, ⟨84, _⟩ => ⟨S256x128, .f32⟩
  | .hbm, ⟨85, _⟩ => ⟨S1x256, .f32⟩
  | .hbm, ⟨86, _⟩ => ⟨S50000x128, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x128, .f32⟩
  | .hbm, ⟨96, _⟩ => ⟨S850000x1, .f32⟩
  | .hbm, ⟨97, _⟩ => ⟨S850000x128, .f32⟩
  | .hbm, ⟨98, _⟩ => ⟨S850000x128, .f32⟩
  | .hbm, ⟨99, _⟩ => ⟨S_, .f32⟩
  | .hbm, ⟨100, _⟩ => ⟨S50000x128, .f32⟩
  | .hbm, ⟨101, _⟩ => ⟨S850000x1, .i32⟩
  | .hbm, ⟨102, _⟩ => ⟨S50000x128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S128, .f32⟩
  | .hbm, ⟨107, _⟩ => ⟨S128, .f32⟩
  | .hbm, ⟨108, _⟩ => ⟨S_, .f32⟩
  | .hbm, ⟨109, _⟩ => ⟨S128, .f32⟩
  | .hbm, ⟨110, _⟩ => ⟨S128, .f32⟩
  | .hbm, ⟨111, _⟩ => ⟨S256, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S256x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_call0_call0_v0 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_call1_v0 : Ref sig .tc := ⟨.hbm, 16, rfl⟩
abbrev main_call0_v5 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_call0_cst_2 : Ref sig .tc := ⟨.hbm, 21, rfl⟩
abbrev main_call0_call2_v0 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_cst_1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_v16 : Ref sig .tc := ⟨.hbm, 45, rfl⟩
abbrev main_c : Ref sig .tc := ⟨.hbm, 46, rfl⟩
abbrev main_v17 : Ref sig .tc := ⟨.hbm, 47, rfl⟩
abbrev main_v18 : Ref sig .tc := ⟨.hbm, 48, rfl⟩
abbrev main_c_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_5 : Ref sig .tc := ⟨.hbm, 56, rfl⟩
abbrev main_v25 : Ref sig .tc := ⟨.hbm, 57, rfl⟩
abbrev main_v26 : Ref sig .tc := ⟨.hbm, 58, rfl⟩
abbrev main_c_6 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_c_7 : Ref sig .tc := ⟨.hbm, 68, rfl⟩
abbrev main_v35 : Ref sig .tc := ⟨.hbm, 69, rfl⟩
abbrev main_v36 : Ref sig .tc := ⟨.hbm, 70, rfl⟩
abbrev main_c_8 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_9 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_10 : Ref sig .tc := ⟨.hbm, 87, rfl⟩
abbrev main_v51 : Ref sig .tc := ⟨.hbm, 88, rfl⟩
abbrev main_v52 : Ref sig .tc := ⟨.hbm, 89, rfl⟩
abbrev main_c_11 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_12 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65_0 : Ref sig .tc := ⟨.hbm, 104, rfl⟩
abbrev main_v65_1 : Ref sig .tc := ⟨.hbm, 105, rfl⟩
abbrev main_v66 : Ref sig .tc := ⟨.hbm, 106, rfl⟩
abbrev main_v67 : Ref sig .tc := ⟨.hbm, 107, rfl⟩
abbrev main_cst_13 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  transposes_S256x128_S128x256_1_0 : S256x128.Transposes [1, 0] S128x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  transposes_S128x256_S256x128_1_0 : S128x256.Transposes [1, 0] S256x128
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S850000x1_S850000x128_0_1 : S850000x1.BroadcastsInDim S850000x128 (![0, 1] : Fin 2 → Fin S850000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  concatenates_S128_S128_S256_d0 : Shape.Concatenates [S128, S128] S256 0
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65_0) S1x128.size cc2_transform_2 reads2_2 true true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65_1) S1x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩
abbrev S50000 : Shape := ⟨1, ![50000]⟩
abbrev S1x800000 : Shape := ⟨2, ![1, 800000]⟩
abbrev S850000 : Shape := ⟨1, ![850000]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 148
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S256x128, .f32⟩
  | 4 => ⟨S256, .f32⟩
  | 5 => ⟨S128x256, .f32⟩
  | 6 => ⟨S128, .f32⟩
  | 7 => ⟨S_, .f32⟩
  | 8 => ⟨S50000x128, .i1⟩
  | 9 => ⟨S_, .f32⟩
  | 10 => ⟨S50000x128, .f32⟩
  | 11 => ⟨S50000x128, .f32⟩
  | 12 => ⟨S_, .f32⟩
  | 13 => ⟨S50000x128, .f32⟩
  | 14 => ⟨S50000x128, .i1⟩
  | 15 => ⟨S_, .f32⟩
  | 16 => ⟨S50000x128, .f32⟩
  | 17 => ⟨S50000x128, .f32⟩
  | 18 => ⟨S_, .f32⟩
  | 19 => ⟨S50000x128, .f32⟩
  | 20 => ⟨S50000x128, .i1⟩
  | 21 => ⟨S_, .f32⟩
  | 22 => ⟨S50000x128, .f32⟩
  | 23 => ⟨S50000x128, .f32⟩
  | 24 => ⟨S50000, .i32⟩
  | 25 => ⟨S1x800000, .i32⟩
  | 26 => ⟨S800000, .i32⟩
  | 27 => ⟨S850000, .i32⟩
  | 28 => ⟨S1x800000, .i32⟩
  | 29 => ⟨S800000, .i32⟩
  | 30 => ⟨S850000, .i32⟩
  | 31 => ⟨S_, .f32⟩
  | 32 => ⟨S50000, .f32⟩
  | 33 => ⟨S850000, .f32⟩
  | 34 => ⟨S_, .f32⟩
  | 35 => ⟨S50000, .f32⟩
  | 36 => ⟨S850000x1, .i32⟩
  | 37 => ⟨S50000, .f32⟩
  | 38 => ⟨S_, .f32⟩
  | 39 => ⟨S50000, .f32⟩
  | 40 => ⟨S50000, .i1⟩
  | 41 => ⟨S50000, .f32⟩
  | 42 => ⟨S_, .f32⟩
  | 43 => ⟨S_, .f32⟩
  | 44 => ⟨S50000, .f32⟩
  | 45 => ⟨S50000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000, .f32⟩
  | 65 => ⟨S850000, .f32⟩
  | 66 => ⟨S128x256, .f32⟩
  | 67 => ⟨S50000x256, .f32⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000x256, .f32⟩
  | 77 => ⟨S850000x1, .f32⟩
  | 78 => ⟨S850000x256, .f32⟩
  | 79 => ⟨S850000x256, .f32⟩
  | 80 => ⟨S_, .f32⟩
  | 81 => ⟨S50000x256, .f32⟩
  | 82 => ⟨S850000x1, .i32⟩
  | 83 => ⟨S50000x256, .f32⟩
  | 84 => ⟨S1x256, .f32⟩
  | 85 => ⟨S50000x256, .f32⟩
  | 86 => ⟨S50000x256, .f32⟩
  | 87 => ⟨S_, .f32⟩
  | 88 => ⟨S50000, .f32⟩
  | 89 => ⟨S850000x1, .i32⟩
  | 90 => ⟨S50000, .f32⟩
  | 91 => ⟨S_, .f32⟩
  | 92 => ⟨S50000, .f32⟩
  | 93 => ⟨S50000, .i1⟩
  | 94 => ⟨S50000, .f32⟩
  | 95 => ⟨S_, .f32⟩
  | 96 => ⟨S_, .f32⟩
  | 97 => ⟨S50000, .f32⟩
  | 98 => ⟨S50000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S850000, .f32⟩
  | 119 => ⟨S256x128, .f32⟩
  | 120 => ⟨S50000x128, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x128, .f32⟩

abbrev hbmTy0_1 (i : Nat) : BufTy := match i % 128 with
  | 0 => ⟨S850000x1, .i32⟩
  | 1 => ⟨S850000x128, .f32⟩
  | 2 => ⟨S850000x1, .f32⟩
  | 3 => ⟨S850000x128, .f32⟩
  | 4 => ⟨S850000x128, .f32⟩
  | 5 => ⟨S_, .f32⟩
  | 6 => ⟨S50000x128, .f32⟩
  | 7 => ⟨S850000x1, .i32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S128, .f32⟩
  | 14 => ⟨S_, .f32⟩
  | 15 => ⟨S128, .f32⟩
  | 16 => ⟨S128, .f32⟩
  | 17 => ⟨S_, .f32⟩
  | 18 => ⟨S128, .f32⟩
  | 19 => ⟨S256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_call0_call0_v0 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_call1_v0 : Ref sig .tc := ⟨.hbm, 16, rfl⟩
abbrev main_call0_v5 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_call0_cst_2 : Ref sig .tc := ⟨.hbm, 21, rfl⟩
abbrev main_call0_call2_v0 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_cst_1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_v16 : Ref sig .tc := ⟨.hbm, 45, rfl⟩
abbrev main_c : Ref sig .tc := ⟨.hbm, 46, rfl⟩
abbrev main_v17 : Ref sig .tc := ⟨.hbm, 47, rfl⟩
abbrev main_v18 : Ref sig .tc := ⟨.hbm, 48, rfl⟩
abbrev main_c_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_5 : Ref sig .tc := ⟨.hbm, 56, rfl⟩
abbrev main_v25 : Ref sig .tc := ⟨.hbm, 57, rfl⟩
abbrev main_v26 : Ref sig .tc := ⟨.hbm, 58, rfl⟩
abbrev main_c_6 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_c_7 : Ref sig .tc := ⟨.hbm, 68, rfl⟩
abbrev main_v35 : Ref sig .tc := ⟨.hbm, 69, rfl⟩
abbrev main_v36 : Ref sig .tc := ⟨.hbm, 70, rfl⟩
abbrev main_c_8 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_9 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_10 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_11 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_12 : Ref sig .tc := ⟨.hbm, 95, rfl⟩
abbrev main_call2_v0 : Ref sig .tc := ⟨.hbm, 96, rfl⟩
abbrev main_call2_v1 : Ref sig .tc := ⟨.hbm, 97, rfl⟩
abbrev main_v57 : Ref sig .tc := ⟨.hbm, 98, rfl⟩
abbrev main_c_13 : Ref sig .tc := ⟨.hbm, 99, rfl⟩
abbrev main_v58 : Ref sig .tc := ⟨.hbm, 100, rfl⟩
abbrev main_v59 : Ref sig .tc := ⟨.hbm, 101, rfl⟩
abbrev main_c_14 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_c_15 : Ref sig .tc := ⟨.hbm, 109, rfl⟩
abbrev main_v66 : Ref sig .tc := ⟨.hbm, 110, rfl⟩
abbrev main_v67 : Ref sig .tc := ⟨.hbm, 111, rfl⟩
abbrev main_c_16 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_c_17 : Ref sig .tc := ⟨.hbm, 121, rfl⟩
abbrev main_v76 : Ref sig .tc := ⟨.hbm, 122, rfl⟩
abbrev main_v77 : Ref sig .tc := ⟨.hbm, 123, rfl⟩
abbrev main_c_18 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_19 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_20 : Ref sig .tc := ⟨.hbm, 140, rfl⟩
abbrev main_v92 : Ref sig .tc := ⟨.hbm, 141, rfl⟩
abbrev main_cst_21 : Ref sig .tc := ⟨.hbm, 142, rfl⟩
abbrev main_v93 : Ref sig .tc := ⟨.hbm, 143, rfl⟩
abbrev main_v94 : Ref sig .tc := ⟨.hbm, 144, rfl⟩
abbrev main_cst_22 : Ref sig .tc := ⟨.hbm, 145, rfl⟩
abbrev main_v95 : Ref sig .tc := ⟨.hbm, 146, rfl⟩
abbrev main_v96 : Ref sig .tc := ⟨.hbm, 147, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  transposes_S256x128_S128x256_1_0 : S256x128.Transposes [1, 0] S128x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S128x256_S256x128_1_0 : S128x256.Transposes [1, 0] S256x128
  bcast_S850000x1_S850000x128_0_1 : S850000x1.BroadcastsInDim S850000x128 (![0, 1] : Fin 2 → Fin S850000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  concatenates_S128_S128_S256_d0 : Shape.Concatenates [S128, S128] S256 0
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KRun.lean ====
/-
  The idealized kernel's run with its RESULT named: every weakly fair execution of @main ends with the result
  buffer at the last boundary's contents, the fold of the eleven segments (eight stretches of host operations
  and the three kernel regions) over the launch memory, and the seven argument arrays as launched.
-/
import proofs.«130542_j80358838108317_1_alg».proof.Proof.Gen.KernelIdeal.Frame

set_option maxRecDepth 16384

noncomputable section

namespace Cert.KernelIdeal.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the idealized kernel, the result read: the last thread state holds every unscoped buffer at the last
    boundary's contents; the result buffer is one of them, and each argument walks back to the launch memory. -/
theorem run_value : θ_run defs (onTc (τ := τ) (main (F := F))) ⟨m, fun _ => 0, ρ⟩ (fun r => ∀ c : Dev nD,
      r.2.mem ((c.tc : Thread nD τ).loc main_v70) = W11 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v70 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.Bridge

end
-- ==== Proof.Shapes.lean ====
/-
  Shapes, dimension records and shape facts shared by the modules that read the three kernel regions as whole-array
  functions: the two matrix products x·W1ᵀ ([50000,128]·[128,256]) and (h+b1)·W2ᵀ ([50000,256]·[256,128]) as
  host dot_general records over the full arrays, the row broadcasts of the two biases and the column reduction
  [50000,128] → [128] of the pooling stage.
-/
import proofs.«130542_j80358838108317_1_alg».proof.Proof.Gen.KernelIdeal.Frame
import Idealize.ShloMosaic.PureOps.Ideal

noncomputable section

namespace Cert.KernelIdeal.Bridge

open Idealize.ShloMosaic Idealize.ShloMosaic.TcCoe Idealize.SL.Sem Cert.KernelIdeal Cert.KernelIdeal.Gen

theorem dot0_wf : DotDims.WF S50000x128 S128x256 S50000x256 [1] [0] [0] [1] [] [] := by decide
/-- x·W1ᵀ over the whole arrays: contract axis 1 of [50000,128] with axis 0 of [128,256]. -/
def dot0 : DotDims S50000x128 S128x256 S50000x256 where
  lhsContracting := [1]
  rhsContracting := [0]
  lhsNonContracting := [0]
  rhsNonContracting := [1]
  lhsBatch := []
  rhsBatch := []
  wf := dot0_wf

theorem dot1_wf : DotDims.WF S50000x256 S256x128 S50000x128 [1] [0] [0] [1] [] [] := by decide
/-- (h+b1)·W2ᵀ over the whole arrays: contract axis 1 of [50000,256] with axis 0 of [256,128]. -/
def dot1 : DotDims S50000x256 S256x128 S50000x128 where
  lhsContracting := [1]
  rhsContracting := [0]
  lhsNonContracting := [0]
  rhsNonContracting := [1]
  lhsBatch := []
  rhsBatch := []
  wf := dot1_wf

theorem bcastRow256 : S1x256.BroadcastsInDim S50000x256 (![0, 1] : Fin 2 → Fin S50000x256.rank) := by decide
theorem bcastRow128 : S1x128.BroadcastsInDim S50000x128 (![0, 1] : Fin 2 → Fin S50000x128.rank) := by decide
theorem redRows : S50000x128.ReducesTo [0] S128 := by decide
theorem posScalar : 0 < S_.numel := by decide
theorem cast128 : S128.ShapeCasts S1x128 := by decide

end Cert.KernelIdeal.Bridge

end
-- ==== Proof.Spec.lean ====
/-
  THE SPECIFICATION both programs compute, as one function of the seven argument arrays, over any float instance.

  A two-layer graph convolution with symmetric normalisation over an edge list with self loops, then column pooling:
    x'   = x with NaN, +inf, -inf replaced (three selects),
    src, dst = the two rows of the edge index, each followed by 0 … 49999 (the self loops); w = the edge weights
               followed by ones,
    deg  = for each node the sum of w over the edges that end in it; dis = deg^(-1/2) where deg > 0, else 0,
    norm = dis[src] · w · dis[dst]                                                  (one number per edge),
    agg H = for each node the sum over the edges ending in it of H[src] · norm       (gather, scale, scatter-add),
    h1   = agg (x' · W1ᵀ) + b1,   h2 = agg (h1 · W2ᵀ) + b2,
    out  = (column sums of h2) / 50000  followed by  (column maxima of h2).
  Every piece is spelt with the host operations of the reference program, so that the reference's run is this term
  as it stands, and the kernel's run is this term once each of its three regions is read as a whole-array function.
-/
import Idealize.ShloMosaic.PureOps.Ideal

noncomputable section

namespace Cert.Spec

open Idealize.ShloMosaic

abbrev S50000x128 : Shape := ⟨2, ![50000, 128]⟩
abbrev S2x800000 : Shape := ⟨2, ![2, 800000]⟩
abbrev S800000 : Shape := ⟨1, ![800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩
abbrev S50000 : Shape := ⟨1, ![50000]⟩
abbrev S1x800000 : Shape := ⟨2, ![1, 800000]⟩
abbrev S850000 : Shape := ⟨1, ![850000]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

theorem bcast_S_S50000x128 : S_.BroadcastsInDim S50000x128 (![] : Fin 0 → Fin S50000x128.rank) := by decide
theorem slices_S2x800000_S1x800000_0_0 : S2x800000.Slices ![0, 0] S1x800000 := by decide
theorem shapeCasts_S1x800000_S800000 : S1x800000.ShapeCasts S800000 := by decide
theorem concatenates_S800000_S50000_S850000_d0 : Shape.Concatenates [S800000, S50000] S850000 0 := by decide
theorem slices_S2x800000_S1x800000_1_0 : S2x800000.Slices ![1, 0] S1x800000 := by decide
theorem bcast_S_S50000 : S_.BroadcastsInDim S50000 (![] : Fin 0 → Fin S50000.rank) := by decide
theorem bcast_S850000_S850000x1_0 : S850000.BroadcastsInDim S850000x1 (![0] : Fin 1 → Fin S850000x1.rank) := by decide
theorem bcast_S_S850000 : S_.BroadcastsInDim S850000 (![] : Fin 0 → Fin S850000.rank) := by decide
theorem transposes_S256x128_S128x256_1_0 : S256x128.Transposes [1, 0] S128x256 := by decide
theorem bcast_S850000x1_S850000x256_0_1 : S850000x1.BroadcastsInDim S850000x256 (![0, 1] : Fin 2 → Fin S850000x256.rank) := by decide
theorem bcast_S_S50000x256 : S_.BroadcastsInDim S50000x256 (![] : Fin 0 → Fin S50000x256.rank) := by decide
theorem bcast_S256_S1x256_1 : S256.BroadcastsInDim S1x256 (![1] : Fin 1 → Fin S1x256.rank) := by decide
theorem bcast_S1x256_S50000x256_0_1 : S1x256.BroadcastsInDim S50000x256 (![0, 1] : Fin 2 → Fin S50000x256.rank) := by decide
theorem transposes_S128x256_S256x128_1_0 : S128x256.Transposes [1, 0] S256x128 := by decide
theorem bcast_S850000x1_S850000x128_0_1 : S850000x1.BroadcastsInDim S850000x128 (![0, 1] : Fin 2 → Fin S850000x128.rank) := by decide
theorem bcast_S128_S1x128_1 : S128.BroadcastsInDim S1x128 (![1] : Fin 1 → Fin S1x128.rank) := by decide
theorem bcast_S1x128_S50000x128_0_1 : S1x128.BroadcastsInDim S50000x128 (![0, 1] : Fin 2 → Fin S50000x128.rank) := by decide
theorem reducesTo_S50000x128_S128_d0 : S50000x128.ReducesTo [0] S128 := by decide
theorem h_S_ : 0 < S_.numel := by decide
theorem bcast_S_S128 : S_.BroadcastsInDim S128 (![] : Fin 0 → Fin S128.rank) := by decide
theorem concatenates_S128_S128_S256_d0 : Shape.Concatenates [S128, S128] S256 0 := by decide
theorem scatter_S50000_S850000x1_S850000_n_0_0_1_wf : ScatterDims.WF S50000 S850000x1 S850000 [] [0] [0] 1 := by decide
theorem gather_S50000_S850000x1_S850000_n_0_n_n_0_1_1_wf : GatherDims.WF S50000 S850000x1 S850000 [] [0] [] [0] [] 1 ![1] := by decide
theorem dot_S50000x128_S128x256_S50000x256_1_0_0_1_n_n_wf : DotDims.WF S50000x128 S128x256 S50000x256 [1] [0] [0] [1] [] [] := by decide
theorem gather_S50000x256_S850000x1_S850000x256_1_0_n_n_0_1_1256_wf : GatherDims.WF S50000x256 S850000x1 S850000x256 [1] [0] [] [0] [] 1 ![1, 256] := by decide
theorem scatter_S50000x256_S850000x1_S850000x256_1_0_0_1_wf : ScatterDims.WF S50000x256 S850000x1 S850000x256 [1] [0] [0] 1 := by decide
theorem dot_S50000x256_S256x128_S50000x128_1_0_0_1_n_n_wf : DotDims.WF S50000x256 S256x128 S50000x128 [1] [0] [0] [1] [] [] := by decide
theorem gather_S50000x128_S850000x1_S850000x128_1_0_n_n_0_1_1128_wf : GatherDims.WF S50000x128 S850000x1 S850000x128 [1] [0] [] [0] [] 1 ![1, 128] := by decide
theorem scatter_S50000x128_S850000x1_S850000x128_1_0_0_1_wf : ScatterDims.WF S50000x128 S850000x1 S850000x128 [1] [0] [0] 1 := by decide

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

variable {F : FTy → Type} [FloatOps F]

/-- A scalar constant spread over a shape. -/
abbrev splat50000x128 (w : BitVec 32) : (⟨S50000x128, .f32⟩ : BufTy).Contents (Elt F) :=
  broadcastInDim S50000x128 ![] bcast_S_S50000x128 (constant (F := F) S_ .f32 w)

/-- x with NaN replaced by 0, +inf by the largest finite number, -inf by the smallest. -/
def cleaned (a0 : (⟨S50000x128, .f32⟩ : BufTy).Contents (Elt F)) : (⟨S50000x128, .f32⟩ : BufTy).Contents (Elt F) :=
  select (cmpf .oeq (select (cmpf .oeq (select (cmpf .une a0 a0) (broadcastInDim S50000x128 ![] bcast_S_S50000x128 (id (constant (F := F) S_ .f32 0x00000000#32))) a0) (splat50000x128 0x7F800000#32)) (splat50000x128 0x7F7FFFFF#32) (select (cmpf .une a0 a0) (broadcastInDim S50000x128 ![] bcast_S_S50000x128 (id (constant (F := F) S_ .f32 0x00000000#32))) a0)) (splat50000x128 0xFF800000#32))
    (splat50000x128 0xFF7FFFFF#32)
    (select (cmpf .oeq (select (cmpf .une a0 a0) (broadcastInDim S50000x128 ![] bcast_S_S50000x128 (id (constant (F := F) S_ .f32 0x00000000#32))) a0) (splat50000x128 0x7F800000#32)) (splat50000x128 0x7F7FFFFF#32) (select (cmpf .une a0 a0) (broadcastInDim S50000x128 ![] bcast_S_S50000x128 (id (constant (F := F) S_ .f32 0x00000000#32))) a0))

/-- Row `k` of the edge index followed by the self loops 0 … 49999. -/
def endsAt (off : Fin 2 → Nat) (h : S2x800000.Slices off S1x800000) (a1 : (⟨S2x800000, .i32⟩ : BufTy).Contents (Elt F)) : (⟨S850000, .i32⟩ : BufTy).Contents (Elt F) :=
  concatenate S850000 0 [⟨S800000, shapeCast S800000 (extractStridedSlice S1x800000 off a1 h) shapeCasts_S1x800000_S800000⟩, ⟨S50000, iotaInDim S50000 32 0⟩] concatenates_S800000_S50000_S850000_d0

/-- The sources of the edges (row 0) and their ends (row 1). -/
def src (a1 : (⟨S2x800000, .i32⟩ : BufTy).Contents (Elt F)) : (⟨S850000, .i32⟩ : BufTy).Contents (Elt F) := endsAt (F := F) ![0, 0] slices_S2x800000_S1x800000_0_0 a1
def dst (a1 : (⟨S2x800000, .i32⟩ : BufTy).Contents (Elt F)) : (⟨S850000, .i32⟩ : BufTy).Contents (Elt F) := endsAt (F := F) ![1, 0] slices_S2x800000_S1x800000_1_0 a1

/-- The edge weights followed by ones for the self loops. -/
def wts (a2 : (⟨S800000, .f32⟩ : BufTy).Contents (Elt F)) : (⟨S850000, .f32⟩ : BufTy).Contents (Elt F) :=
  concatenate S850000 0 [⟨S800000, a2⟩, ⟨S50000, broadcastInDim S50000 ![] bcast_S_S50000 (constant (F := F) S_ .f32 0x3F800000#32)⟩] concatenates_S800000_S50000_S850000_d0

/-- A node list as a column of row numbers for a gather: a negative entry wrapped by 50000. -/
def rowsOf (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The weighted in-degree of each node. -/
def deg (a1 : (⟨S2x800000, .i32⟩ : BufTy).Contents (Elt F)) (a2 : (⟨S800000, .f32⟩ : BufTy).Contents (Elt F)) : (⟨S50000, .f32⟩ : BufTy).Contents (Elt F) :=
  Host.scatterAdd scatter_S50000_S850000x1_S850000_n_0_0_1 (broadcastInDim S50000 ![] bcast_S_S50000 (constant (F := F) S_ .f32 0x00000000#32))
    (broadcastInDim S850000x1 ![0] bcast_S850000_S850000x1_0 (dst (F := F) a1)) (wts a2)

/-- deg^(-1/2) where the degree is positive, 0 elsewhere. -/
def dis (a1 : (⟨S2x800000, .i32⟩ : BufTy).Contents (Elt F)) (a2 : (⟨S800000, .f32⟩ : BufTy).Contents (Elt F)) : (⟨S50000, .f32⟩ : BufTy).Contents (Elt F) :=
  select (cmpf .ogt (deg a1 a2) (broadcastInDim S50000 ![] bcast_S_S50000 (constant (F := F) S_ .f32 0x00000000#32))) (Host.rsqrt (deg a1 a2))
    (broadcastInDim S50000 ![] bcast_S_S50000 (id (constant (F := F) S_ .f32 0x00000000#32)))

/-- The edge's coefficient dis[src] · w · dis[dst]. -/
def norm (a1 : (⟨S2x800000, .i32⟩ : BufTy).Contents (Elt F)) (a2 : (⟨S800000, .f32⟩ : BufTy).Contents (Elt F)) : (⟨S850000, .f32⟩ : BufTy).Contents (Elt F) :=
  mulf (mulf (Host.gather gather_S50000_S850000x1_S850000_n_0_n_n_0_1_1 (dis a1 a2) (rowsOf (F := F) (src (F := F) a1))) (wts a2))
    (Host.gather gather_S50000_S850000x1_S850000_n_0_n_n_0_1_1 (dis a1 a2) (rowsOf (F := F) (dst (F := F) a1)))

/-- Gather the rows at the edges' sources, scale each by its edge's coefficient, add them up at the edges' ends:
    256 columns. -/
def agg256 (H : (⟨S50000x256, .f32⟩ : BufTy).Contents (Elt F)) (a1 : (⟨S2x800000, .i32⟩ : BufTy).Contents (Elt F)) (a2 : (⟨S800000, .f32⟩ : BufTy).Contents (Elt F)) : (⟨S50000x256, .f32⟩ : BufTy).Contents (Elt F) :=
  Host.scatterAdd scatter_S50000x256_S850000x1_S850000x256_1_0_0_1
    (broadcastInDim S50000x256 ![] bcast_S_S50000x256 (constant (F := F) S_ .f32 0x00000000#32))
    (broadcastInDim S850000x1 ![0] bcast_S850000_S850000x1_0 (dst (F := F) a1))
    (mulf (Host.gather gather_S50000x256_S850000x1_S850000x256_1_0_n_n_0_1_1256 H (rowsOf (F := F) (src (F := F) a1)))
      (broadcastInDim S850000x256 ![0, 1] bcast_S850000x1_S850000x256_0_1 (broadcastInDim S850000x1 ![0] bcast_S850000_S850000x1_0 (norm a1 a2))))

/-- The same over 128 columns. -/
def agg128 (H : (⟨S50000x128, .f32⟩ : BufTy).Contents (Elt F)) (a1 : (⟨S2x800000, .i32⟩ : BufTy).Contents (Elt F)) (a2 : (⟨S800000, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant (F := F) S_ .f32 0x00000000#32))
    (broadcastInDim S850000x1 ![0] bcast_S850000_S850000x1_0 (dst (F := F) a1))
    (mulf (Host.gather gather_S50000x128_S850000x1_S850000x128_1_0_n_n_0_1_1128 H (rowsOf (F := F) (src (F := F) a1)))
      (broadcastInDim S850000x128 ![0, 1] bcast_S850000x1_S850000x128_0_1 (broadcastInDim S850000x1 ![0] bcast_S850000_S850000x1_0 (norm a1 a2))))

/-- A bias as one row, and spread over every row. -/
def bias256 (b : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 b)
def bias128 (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

/-- The first layer: agg (x' · W1ᵀ) + b1. -/
def layer1 (a0 : (⟨S50000x128, .f32⟩ : BufTy).Contents (Elt F)) (a1 : (⟨S2x800000, .i32⟩ : BufTy).Contents (Elt F)) (a2 : (⟨S800000, .f32⟩ : BufTy).Contents (Elt F)) (a3 : (⟨S256x128, .f32⟩ : BufTy).Contents (Elt F)) (a4 : (⟨S256, .f32⟩ : BufTy).Contents (Elt F)) : (⟨S50000x256, .f32⟩ : BufTy).Contents (Elt F) :=
  addf (agg256 (Host.dotGeneral dot_S50000x128_S128x256_S50000x256_1_0_0_1_n_n none (cleaned a0) (transpose S128x256 [1, 0] a3 transposes_S256x128_S128x256_1_0)) a1 a2) (bias256 a4)

/-- The second layer: agg (h1 · W2ᵀ) + b2. -/
def layer2 (a0 : (⟨S50000x128, .f32⟩ : BufTy).Contents (Elt F)) (a1 : (⟨S2x800000, .i32⟩ : BufTy).Contents (Elt F)) (a2 : (⟨S800000, .f32⟩ : BufTy).Contents (Elt F)) (a3 : (⟨S256x128, .f32⟩ : BufTy).Contents (Elt F)) (a4 : (⟨S256, .f32⟩ : BufTy).Contents (Elt F))
    (a5 : (⟨S128x256, .f32⟩ : BufTy).Contents (Elt F)) (a6 : (⟨S128, .f32⟩ : BufTy).Contents (Elt F)) : (⟨S50000x128, .f32⟩ : BufTy).Contents (Elt F) :=
  addf (agg128 (Host.dotGeneral dot_S50000x256_S256x128_S50000x128_1_0_0_1_n_n none (layer1 a0 a1 a2 a3 a4) (transpose S256x128 [1, 0] a5 transposes_S128x256_S256x128_1_0)) a1 a2) (bias128 a6)

/-- The pooled result from the column sums and the column maxima: the sums divided by 50000, then the maxima. -/
def pooled (s mx : (⟨S128, .f32⟩ : BufTy).Contents (Elt F)) : (⟨S256, .f32⟩ : BufTy).Contents (Elt F) :=
  concatenate S256 0 [⟨S128, Host.divf s (broadcastInDim S128 ![] bcast_S_S128 (constant (F := F) S_ .f32 0x47435000#32))⟩, ⟨S128, mx⟩] concatenates_S128_S128_S256_d0

/-- The column sums and the column maxima of an array of 50000 rows. -/
def colSum (h : (⟨S50000x128, .f32⟩ : BufTy).Contents (Elt F)) : (⟨S128, .f32⟩ : BufTy).Contents (Elt F) :=
  Host.reduceAdd h (constant (F := F) S_ .f32 0x00000000#32) reducesTo_S50000x128_S128_d0 h_S_
def colMax (h : (⟨S50000x128, .f32⟩ : BufTy).Contents (Elt F)) : (⟨S128, .f32⟩ : BufTy).Contents (Elt F) :=
  Host.reduce FloatOps.maximumf h (constant (F := F) S_ .f32 0xFF800000#32) reducesTo_S50000x128_S128_d0 h_S_

/-- The whole function. -/
def out (a0 : (⟨S50000x128, .f32⟩ : BufTy).Contents (Elt F)) (a1 : (⟨S2x800000, .i32⟩ : BufTy).Contents (Elt F)) (a2 : (⟨S800000, .f32⟩ : BufTy).Contents (Elt F)) (a3 : (⟨S256x128, .f32⟩ : BufTy).Contents (Elt F)) (a4 : (⟨S256, .f32⟩ : BufTy).Contents (Elt F))
    (a5 : (⟨S128x256, .f32⟩ : BufTy).Contents (Elt F)) (a6 : (⟨S128, .f32⟩ : BufTy).Contents (Elt F)) : (⟨S256, .f32⟩ : BufTy).Contents (Elt F) :=
  pooled (colSum (layer2 a0 a1 a2 a3 a4 a5 a6)) (colMax (layer2 a0 a1 a2 a3 a4 a5 a6))

end Cert.Spec

end
-- ==== Proof.KPrefix.lean ====
/-
  The stretches of host operations before the kernel's first region, read at the buffers later segments consume:
  the cleaned x, the two edge lists with their self loops, the weights, the degrees, their inverse square roots where
  positive, the edges' coefficients and W1ᵀ — each the specification's stage of the launch contents of the arguments.
  Also here: a bias reshaped [n] → [1,n] is the bias broadcast along a new leading axis.
-/
import proofs.«130542_j80358838108317_1_alg».proof.Proof.Shapes
import proofs.«130542_j80358838108317_1_alg».proof.Proof.Spec
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Bridge

open Idealize.ShloMosaic Idealize.ShloMosaic.TcCoe Idealize.SL.Sem Idealize.ShloMosaic.StableHlo Idealize.ShloMosaic.ValueIdx
open Cert.KernelIdeal Cert.KernelIdeal.Gen
open Idealize.ShloMosaic.Pipeline (Dat)

/-! ## Two spellings of one array -/

/-- An [a] array reshaped to [1,a] is the array broadcast along a new leading axis: both read entry i at (0,i). -/
theorem reshape_row_eq_broadcast {α : Type} {a : ℕ} (ha : a ≠ 1) (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply _ h' x (ix2 u i) (ix1 i) fun b => ?_).symm
  match b with
  | ⟨0, _⟩ =>
    show i.val = if a = 1 then 0 else i.val
    rw [if_neg ha]

open Idealize.ShloMosaic.StableHlo in
/-- Unrolls a fold of host operations at a literal reference, the helper functions' operations included: each
    operation's result at its own buffer is its function's value, at any other buffer what was there. -/
macro "fold_results" : tactic =>
  `(tactic| (simp (disch := decide) only [TRef.nullary, TRef.unary, TRef.binary, TRef.ternary, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

variable (m : (ℓ : Loc nD τ sig) → Buf (Elt Ideal) ℓ) (ρ : Dev nD → PrngReg) (c : Dev nD)

-- the sums and gathers are compared as they stand, never opened
attribute [local irreducible] Host.scatterAdd Host.gather

theorem W2_v0 : W2 m ρ c (Proc.devRef .tc main_v0) = Cert.Spec.cleaned (F := Ideal) (m ((c.tc : Thread nD τ).loc main_arg0)) := by
  show after hostOps0_1 (after hostOps0 (W0 m ρ c)) _ = _
  fold_results
  first | done | rfl
theorem W2_arg3 : W2 m ρ c (Proc.devRef .tc main_arg3) = (m ((c.tc : Thread nD τ).loc main_arg3)) := by
  show after hostOps0_1 (after hostOps0 (W0 m ρ c)) _ = _
  fold_results
  first | done | rfl
theorem W2_arg4 : W2 m ρ c (Proc.devRef .tc main_arg4) = (m ((c.tc : Thread nD τ).loc main_arg4)) := by
  show after hostOps0_1 (after hostOps0 (W0 m ρ c)) _ = _
  fold_results
  first | done | rfl
theorem W2_arg5 : W2 m ρ c (Proc.devRef .tc main_arg5) = (m ((c.tc : Thread nD τ).loc main_arg5)) := by
  show after hostOps0_1 (after hostOps0 (W0 m ρ c)) _ = _
  fold_results
  first | done | rfl
theorem W2_arg6 : W2 m ρ c (Proc.devRef .tc main_arg6) = (m ((c.tc : Thread nD τ).loc main_arg6)) := by
  show after hostOps0_1 (after hostOps0 (W0 m ρ c)) _ = _
  fold_results
  first | done | rfl
theorem W3_v4 : W3 m ρ c (Proc.devRef .tc main_v4) = Cert.Spec.src (F := Ideal) (m ((c.tc : Thread nD τ).loc main_arg1)) := by
  show after hostOps0_2 (after hostOps0_1 (after hostOps0 (W0 m ρ c))) _ = _
  fold_results
  first | done | rfl
theorem W3_v7 : W3 m ρ c (Proc.devRef .tc main_v7) = Cert.Spec.dst (F := Ideal) (m ((c.tc : Thread nD τ).loc main_arg1)) := by
  show after hostOps0_2 (after hostOps0_1 (after hostOps0 (W0 m ρ c))) _ = _
  fold_results
  first | done | rfl
theorem W3_v9 : W3 m ρ c (Proc.devRef .tc main_v9) = Cert.Spec.wts (F := Ideal) (m ((c.tc : Thread nD τ).loc main_arg2)) := by
  show after hostOps0_2 (after hostOps0_1 (after hostOps0 (W0 m ρ c))) _ = _
  fold_results
  first | done | rfl
theorem W3_v12 : W3 m ρ c (Proc.devRef .tc main_v12) = Cert.Spec.deg (F := Ideal) (m ((c.tc : Thread nD τ).loc main_arg1)) (m ((c.tc : Thread nD τ).loc main_arg2)) := by
  show after hostOps0_2 (after hostOps0_1 (after hostOps0 (W0 m ρ c))) _ = _
  fold_results
  first | done | rfl
theorem W3_v14 : W3 m ρ c (Proc.devRef .tc main_v14) = cmpf .ogt (Cert.Spec.deg (F := Ideal) (m ((c.tc : Thread nD τ).loc main_arg1)) (m ((c.tc : Thread nD τ).loc main_arg2))) (broadcastInDim Cert.Spec.S50000 ![] Cert.Spec.bcast_S_S50000 (constant (F := Ideal) Cert.Spec.S_ .f32 0x00000000#32)) := by
  show after hostOps0_2 (after hostOps0_1 (after hostOps0 (W0 m ρ c))) _ = _
  fold_results
  first | done | rfl
theorem W3_v15 : W3 m ρ c (Proc.devRef .tc main_v15) = (Host.rsqrt (F := Ideal) (φ := .f32) (Cert.Spec.deg (F := Ideal) (m ((c.tc : Thread nD τ).loc main_arg1)) (m ((c.tc : Thread nD τ).loc main_arg2))) : (⟨Cert.Spec.S50000, .f32⟩ : BufTy).Contents (Elt Ideal)) := by
  show after hostOps0_2 (after hostOps0_1 (after hostOps0 (W0 m ρ c))) _ = _
  fold_results
  first | done | rfl
theorem W3_cst_3 : W3 m ρ c (Proc.devRef .tc main_cst_3) = constant (F := Ideal) Cert.Spec.S_ .f32 0x00000000#32 := by
  show after hostOps0_2 (after hostOps0_1 (after hostOps0 (W0 m ρ c))) _ = _
  fold_results
  first | done | rfl
theorem W3_v0 : W3 m ρ c (Proc.devRef .tc main_v0) = Cert.Spec.cleaned (F := Ideal) (m ((c.tc : Thread nD τ).loc main_arg0)) := by
  have e := W2_v0 m ρ c
  show after hostOps0_2 (W2 m ρ c) _ = _
  generalize W2 m ρ c = W at e ⊢
  fold_results
  exact e
theorem W3_arg3 : W3 m ρ c (Proc.devRef .tc main_arg3) = (m ((c.tc : Thread nD τ).loc main_arg3)) := by
  have e := W2_arg3 m ρ c
  show after hostOps0_2 (W2 m ρ c) _ = _
  generalize W2 m ρ c = W at e ⊢
  fold_results
  exact e
theorem W3_arg4 : W3 m ρ c (Proc.devRef .tc main_arg4) = (m ((c.tc : Thread nD τ).loc main_arg4)) := by
  have e := W2_arg4 m ρ c
  show after hostOps0_2 (W2 m ρ c) _ = _
  generalize W2 m ρ c = W at e ⊢
  fold_results
  exact e
theorem W3_arg5 : W3 m ρ c (Proc.devRef .tc main_arg5) = (m ((c.tc : Thread nD τ).loc main_arg5)) := by
  have e := W2_arg5 m ρ c
  show after hostOps0_2 (W2 m ρ c) _ = _
  generalize W2 m ρ c = W at e ⊢
  fold_results
  exact e
theorem W3_arg6 : W3 m ρ c (Proc.devRef .tc main_arg6) = (m ((c.tc : Thread nD τ).loc main_arg6)) := by
  have e := W2_arg6 m ρ c
  show after hostOps0_2 (W2 m ρ c) _ = _
  generalize W2 m ρ c = W at e ⊢
  fold_results
  exact e
theorem W4_v16 : W4 m ρ c (Proc.devRef .tc main_v16) = Cert.Spec.dis (F := Ideal) (m ((c.tc : Thread nD τ).loc main_arg1)) (m ((c.tc : Thread nD τ).loc main_arg2)) := by
  have e14 := W3_v14 m ρ c
  have e15 := W3_v15 m ρ c
  have ec := W3_cst_3 m ρ c
  show after hostOps0_3 (W3 m ρ c) _ = _
  generalize W3 m ρ c = W at e14 e15 ec ⊢
  fold_results
  rw [e14, e15, ec]
  rfl
theorem W4_v0 : W4 m ρ c (Proc.devRef .tc main_v0) = Cert.Spec.cleaned (F := Ideal) (m ((c.tc : Thread nD τ).loc main_arg0)) := by
  have e := W3_v0 m ρ c
  show after hostOps0_3 (W3 m ρ c) _ = _
  generalize W3 m ρ c = W at e ⊢
  fold_results
  exact e
theorem W4_v4 : W4 m ρ c (Proc.devRef .tc main_v4) = Cert.Spec.src (F := Ideal) (m ((c.tc : Thread nD τ).loc main_arg1)) := by
  have e := W3_v4 m ρ c
  show after hostOps0_3 (W3 m ρ c) _ = _
  generalize W3 m ρ c = W at e ⊢
  fold_results
  exact e
theorem W4_v7 : W4 m ρ c (Proc.devRef .tc main_v7) = Cert.Spec.dst (F := Ideal) (m ((c.tc : Thread nD τ).loc main_arg1)) := by
  have e := W3_v7 m ρ c
  show after hostOps0_3 (W3 m ρ c) _ = _
  generalize W3 m ρ c = W at e ⊢
  fold_results
  exact e
theorem W4_v9 : W4 m ρ c (Proc.devRef .tc main_v9) = Cert.Spec.wts (F := Ideal) (m ((c.tc : Thread nD τ).loc main_arg2)) := by
  have e := W3_v9 m ρ c
  show after hostOps0_3 (W3 m ρ c) _ = _
  generalize W3 m ρ c = W at e ⊢
  fold_results
  exact e
theorem W4_arg3 : W4 m ρ c (Proc.devRef .tc main_arg3) = (m ((c.tc : Thread nD τ).loc main_arg3)) := by
  have e := W3_arg3 m ρ c
  show after hostOps0_3 (W3 m ρ c) _ = _
  generalize W3 m ρ c = W at e ⊢
  fold_results
  exact e
theorem W4_arg4 : W4 m ρ c (Proc.devRef .tc main_arg4) = (m ((c.tc : Thread nD τ).loc main_arg4)) := by
  have e := W3_arg4 m ρ c
  show after hostOps0_3 (W3 m ρ c) _ = _
  generalize W3 m ρ c = W at e ⊢
  fold_results
  exact e
theorem W4_arg5 : W4 m ρ c (Proc.devRef .tc main_arg5) = (m ((c.tc : Thread nD τ).loc main_arg5)) := by
  have e := W3_arg5 m ρ c
  show after hostOps0_3 (W3 m ρ c) _ = _
  generalize W3 m ρ c = W at e ⊢
  fold_results
  exact e
theorem W4_arg6 : W4 m ρ c (Proc.devRef .tc main_arg6) = (m ((c.tc : Thread nD τ).loc main_arg6)) := by
  have e := W3_arg6 m ρ c
  show after hostOps0_3 (W3 m ρ c) _ = _
  generalize W3 m ρ c = W at e ⊢
  fold_results
  exact e
theorem W5_v32 : W5 m ρ c (Proc.devRef .tc main_v32) = Cert.Spec.norm (F := Ideal) (m ((c.tc : Thread nD τ).loc main_arg1)) (m ((c.tc : Thread nD τ).loc main_arg2)) := by
  have e16 := W4_v16 m ρ c
  have e4 := W4_v4 m ρ c
  have e7 := W4_v7 m ρ c
  have e9 := W4_v9 m ρ c
  show after hostOps0_4 (W4 m ρ c) _ = _
  generalize W4 m ρ c = W at e16 e4 e7 e9 ⊢
  fold_results
  rw [e16, e4, e7, e9]
  rfl
theorem W5_v33 : W5 m ρ c (Proc.devRef .tc main_v33) = transpose Cert.Spec.S128x256 [1, 0] (m ((c.tc : Thread nD τ).loc main_arg3)) Cert.Spec.transposes_S256x128_S128x256_1_0 := by
  have e := W4_arg3 m ρ c
  show after hostOps0_4 (W4 m ρ c) _ = _
  generalize W4 m ρ c = W at e ⊢
  fold_results
  rw [e]
  first | done | rfl
theorem W5_v0 : W5 m ρ c (Proc.devRef .tc main_v0) = Cert.Spec.cleaned (F := Ideal) (m ((c.tc : Thread nD τ).loc main_arg0)) := by
  have e := W4_v0 m ρ c
  show after hostOps0_4 (W4 m ρ c) _ = _
  generalize W4 m ρ c = W at e ⊢
  fold_results
  exact e
theorem W5_v4 : W5 m ρ c (Proc.devRef .tc main_v4) = Cert.Spec.src (F := Ideal) (m ((c.tc : Thread nD τ).loc main_arg1)) := by
  have e := W4_v4 m ρ c
  show after hostOps0_4 (W4 m ρ c) _ = _
  generalize W4 m ρ c = W at e ⊢
  fold_results
  exact e
theorem W5_v7 : W5 m ρ c (Proc.devRef .tc main_v7) = Cert.Spec.dst (F := Ideal) (m ((c.tc : Thread nD τ).loc main_arg1)) := by
  have e := W4_v7 m ρ c
  show after hostOps0_4 (W4 m ρ c) _ = _
  generalize W4 m ρ c = W at e ⊢
  fold_results
  exact e
theorem W5_arg4 : W5 m ρ c (Proc.devRef .tc main_arg4) = (m ((c.tc : Thread nD τ).loc main_arg4)) := by
  have e := W4_arg4 m ρ c
  show after hostOps0_4 (W4 m ρ c) _ = _
  generalize W4 m ρ c = W at e ⊢
  fold_results
  exact e
theorem W5_arg5 : W5 m ρ c (Proc.devRef .tc main_arg5) = (m ((c.tc : Thread nD τ).loc main_arg5)) := by
  have e := W4_arg5 m ρ c
  show after hostOps0_4 (W4 m ρ c) _ = _
  generalize W4 m ρ c = W at e ⊢
  fold_results
  exact e
theorem W5_arg6 : W5 m ρ c (Proc.devRef .tc main_arg6) = (m ((c.tc : Thread nD τ).loc main_arg6)) := by
  have e := W4_arg6 m ρ c
  show after hostOps0_4 (W4 m ρ c) _ = _
  generalize W4 m ρ c = W at e ⊢
  fold_results
  exact e

end Cert.KernelIdeal.Bridge

end
-- ==== Proof.KVal.lean ====
/-
  The idealized kernel's result as the specification's term of the arguments.

  The kernel's @main is eleven segments: stretches of host operations and three kernel regions (x'·W1ᵀ; (agg + b1)·W2ᵀ;
  the pooling accumulator). The contents of every buffer at each segment boundary are a fold from the launch memory.
  Reading that fold at the buffers each region and each later stretch consumes, one boundary at a time — a host
  stretch's result buffers by unfolding its operations, a region's output arrays by the region's whole-array value
  (hypotheses here: the two products as the host's general product of the whole arrays, the pooling outputs as the
  host's column sum and column maximum, each [1,128]) — gives the result buffer as the specification's term, once
  two spellings are reconciled: a bias reshaped [n] → [1,n] is the bias broadcast along a new leading axis, and a
  [128] array cast to [1,128] and back is itself.
-/
import proofs.«130542_j80358838108317_1_alg».proof.Proof.KPrefix
import proofs.«130542_j80358838108317_1_alg».proof.Proof.Spec
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.Bridge

open Idealize.ShloMosaic Idealize.ShloMosaic.TcCoe Idealize.SL.Sem Idealize.ShloMosaic.StableHlo Idealize.ShloMosaic.ValueIdx
open Cert.KernelIdeal Cert.KernelIdeal.Gen
open Idealize.ShloMosaic.Pipeline (Dat)

/-- The three regions' whole-array values, as the later boundaries use them. -/
abbrev Region0 : Prop := ∀ (V : (c : Dev nD) → (b : Ref sig .tc) → Buf (Elt Ideal) ((c : Thread nD τ).loc b)) (c : Dev nD),
    (dat0 (F := Ideal) V c).arrAt 2 cfg0.N
      = Host.dotGeneral (F := Ideal) (φ₁ := .f32) (φ₂ := .f32) dot0 none (V c main_v0) (V c main_v33)
abbrev Region1 : Prop := ∀ (V : (c : Dev nD) → (b : Ref sig .tc) → Buf (Elt Ideal) ((c : Thread nD τ).loc b)) (c : Dev nD),
    (dat1 (F := Ideal) V c).arrAt 3 cfg1.N
      = Host.dotGeneral (F := Ideal) (φ₁ := .f32) (φ₂ := .f32) dot1 none
          (addf (F := Ideal) (φ := .f32) (V c main_v47) (broadcastInDim (α := Ideal .f32) S50000x256 ![0, 1] bcastRow256 (V c main_v49))) (V c main_v48)
abbrev Region2Sum : Prop := ∀ (V : (c : Dev nD) → (b : Ref sig .tc) → Buf (Elt Ideal) ((c : Thread nD τ).loc b)) (c : Dev nD),
    (dat2 (F := Ideal) V c).arrAt 2 cfg2.N
      = shapeCast S1x128 (Host.reduceAdd (F := Ideal)
          (addf (F := Ideal) (V c main_v63) (broadcastInDim S50000x128 ![0, 1] bcastRow128 (V c main_v64)))
          (constant (F := Ideal) S_ .f32 0x00000000#32) redRows posScalar) cast128
abbrev Region2Max : Prop := ∀ (V : (c : Dev nD) → (b : Ref sig .tc) → Buf (Elt Ideal) ((c : Thread nD τ).loc b)) (c : Dev nD),
    (dat2 (F := Ideal) V c).arrAt 3 cfg2.N
      = shapeCast S1x128 (Host.reduce (FloatOps.maximumf (F := Ideal))
          (addf (F := Ideal) (V c main_v63) (broadcastInDim S50000x128 ![0, 1] bcastRow128 (V c main_v64)))
          (constant (F := Ideal) S_ .f32 0xFF800000#32) redRows posScalar) cast128

variable (m : (ℓ : Loc nD τ sig) → Buf (Elt Ideal) ℓ) (ρ : Dev nD → PrngReg) (c : Dev nD)
variable (h0 : Region0) (h1 : Region1) (h2s : Region2Sum) (h2m : Region2Max)

-- the sums and gathers are compared as they stand, never opened
attribute [local irreducible] Host.scatterAdd Host.gather

/-! ## Region 0 and the stretch after it: x'·W1ᵀ, then the first gather–scale–scatter, W2ᵀ and the first bias as a row -/

include h0 in
theorem W6_v34 : W6 m ρ c (Proc.devRef .tc main_v34) = Host.dotGeneral (F := Ideal) (φ₁ := .f32) (φ₂ := .f32) Cert.Spec.dot_S50000x128_S128x256_S50000x256_1_0_0_1_n_n none (Cert.Spec.cleaned (F := Ideal) (m ((c.tc : Thread nD τ).loc main_arg0))) (transpose Cert.Spec.S128x256 [1, 0] (m ((c.tc : Thread nD τ).loc main_arg3)) Cert.Spec.transposes_S256x128_S128x256_1_0) := by
  refine (W6_arr m ρ c 2).trans ((h0 (V5 m ρ) c).trans ?_)
  show Host.dotGeneral (F := Ideal) (φ₁ := .f32) (φ₂ := .f32) dot0 none (W5 m ρ c (Proc.devRef .tc main_v0)) (W5 m ρ c (Proc.devRef .tc main_v33)) = _
  rw [W5_v0 m ρ c, W5_v33 m ρ c]
  rfl
theorem W6_v4 : W6 m ρ c (Proc.devRef .tc main_v4) = Cert.Spec.src (F := Ideal) (m ((c.tc : Thread nD τ).loc main_arg1)) :=
  (W6_of_ne m ρ c main_v4 (by decide)).trans (W5_v4 m ρ c)
theorem W6_v7 : W6 m ρ c (Proc.devRef .tc main_v7) = Cert.Spec.dst (F := Ideal) (m ((c.tc : Thread nD τ).loc main_arg1)) :=
  (W6_of_ne m ρ c main_v7 (by decide)).trans (W5_v7 m ρ c)
theorem W6_v32 : W6 m ρ c (Proc.devRef .tc main_v32) = Cert.Spec.norm (F := Ideal) (m ((c.tc : Thread nD τ).loc main_arg1)) (m ((c.tc : Thread nD τ).loc main_arg2)) :=
  (W6_of_ne m ρ c main_v32 (by decide)).trans (W5_v32 m ρ c)
theorem W6_arg4 : W6 m ρ c (Proc.devRef .tc main_arg4) = (m ((c.tc : Thread nD τ).loc main_arg4)) :=
  (W6_of_ne m ρ c main_arg4 (by decide)).trans (W5_arg4 m ρ c)
theorem W6_arg5 : W6 m ρ c (Proc.devRef .tc main_arg5) = (m ((c.tc : Thread nD τ).loc main_arg5)) :=
  (W6_of_ne m ρ c main_arg5 (by decide)).trans (W5_arg5 m ρ c)
theorem W6_arg6 : W6 m ρ c (Proc.devRef .tc main_arg6) = (m ((c.tc : Thread nD τ).loc main_arg6)) :=
  (W6_of_ne m ρ c main_arg6 (by decide)).trans (W5_arg6 m ρ c)
include h0 in
theorem W7_v47 : W7 m ρ c (Proc.devRef .tc main_v47) = Cert.Spec.agg256 (F := Ideal) (Host.dotGeneral (F := Ideal) (φ₁ := .f32) (φ₂ := .f32) Cert.Spec.dot_S50000x128_S128x256_S50000x256_1_0_0_1_n_n none (Cert.Spec.cleaned (F := Ideal) (m ((c.tc : Thread nD τ).loc main_arg0))) (transpose Cert.Spec.S128x256 [1, 0] (m ((c.tc : Thread nD τ).loc main_arg3)) Cert.Spec.transposes_S256x128_S128x256_1_0)) (m ((c.tc : Thread nD τ).loc main_arg1)) (m ((c.tc : Thread nD τ).loc main_arg2)) := by
  show after hostOps1 (W6 m ρ c) _ = _
  fold_results
  rw [W6_v34 m ρ c h0, W6_v4 m ρ c, W6_v7 m ρ c, W6_v32 m ρ c]
  rfl
theorem W7_v48 : W7 m ρ c (Proc.devRef .tc main_v48) = transpose Cert.Spec.S256x128 [1, 0] (m ((c.tc : Thread nD τ).loc main_arg5)) Cert.Spec.transposes_S128x256_S256x128_1_0 := by
  show after hostOps1 (W6 m ρ c) _ = _
  fold_results
  rw [W6_arg5 m ρ c]
  first | done | rfl
theorem W7_v49 : W7 m ρ c (Proc.devRef .tc main_v49) = broadcastInDim (α := Ideal .f32) Cert.Spec.S1x256 ![1] Cert.Spec.bcast_S256_S1x256_1 (m ((c.tc : Thread nD τ).loc main_arg4)) := by
  show after hostOps1 (W6 m ρ c) _ = _
  fold_results
  rw [W6_arg4 m ρ c]
  exact reshape_row_eq_broadcast (a := 256) (by decide) _ _ _
theorem W7_v4 : W7 m ρ c (Proc.devRef .tc main_v4) = Cert.Spec.src (F := Ideal) (m ((c.tc : Thread nD τ).loc main_arg1)) := by
  show after hostOps1 (W6 m ρ c) _ = _
  fold_results
  exact W6_v4 m ρ c
theorem W7_v7 : W7 m ρ c (Proc.devRef .tc main_v7) = Cert.Spec.dst (F := Ideal) (m ((c.tc : Thread nD τ).loc main_arg1)) := by
  show after hostOps1 (W6 m ρ c) _ = _
  fold_results
  exact W6_v7 m ρ c
theorem W7_v32 : W7 m ρ c (Proc.devRef .tc main_v32) = Cert.Spec.norm (F := Ideal) (m ((c.tc : Thread nD τ).loc main_arg1)) (m ((c.tc : Thread nD τ).loc main_arg2)) := by
  show after hostOps1 (W6 m ρ c) _ = _
  fold_results
  exact W6_v32 m ρ c
theorem W7_arg6 : W7 m ρ c (Proc.devRef .tc main_arg6) = (m ((c.tc : Thread nD τ).loc main_arg6)) := by
  show after hostOps1 (W6 m ρ c) _ = _
  fold_results
  exact W6_arg6 m ρ c

/-! ## Region 1 and the stretch after it: (agg + b1)·W2ᵀ, then the second gather–scale–scatter and the second bias as a row -/

include h0 h1 in
theorem W8_v50 : W8 m ρ c (Proc.devRef .tc main_v50) = Host.dotGeneral (F := Ideal) (φ₁ := .f32) (φ₂ := .f32) Cert.Spec.dot_S50000x256_S256x128_S50000x128_1_0_0_1_n_n none (Cert.Spec.layer1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (transpose Cert.Spec.S256x128 [1, 0] (m ((c.tc : Thread nD τ).loc main_arg5)) Cert.Spec.transposes_S128x256_S256x128_1_0) := by
  refine (W8_arr m ρ c 3).trans ((h1 (V7 m ρ) c).trans ?_)
  show Host.dotGeneral (F := Ideal) (φ₁ := .f32) (φ₂ := .f32) dot1 none
      (addf (F := Ideal) (φ := .f32) (W7 m ρ c (Proc.devRef .tc main_v47)) (broadcastInDim (α := Ideal .f32) S50000x256 ![0, 1] bcastRow256 (W7 m ρ c (Proc.devRef .tc main_v49))))
      (W7 m ρ c (Proc.devRef .tc main_v48)) = _
  rw [W7_v47 m ρ c h0, W7_v49 m ρ c, W7_v48 m ρ c]
  rfl
theorem W8_v4 : W8 m ρ c (Proc.devRef .tc main_v4) = Cert.Spec.src (F := Ideal) (m ((c.tc : Thread nD τ).loc main_arg1)) :=
  (W8_of_ne m ρ c main_v4 (by decide)).trans (W7_v4 m ρ c)
theorem W8_v7 : W8 m ρ c (Proc.devRef .tc main_v7) = Cert.Spec.dst (F := Ideal) (m ((c.tc : Thread nD τ).loc main_arg1)) :=
  (W8_of_ne m ρ c main_v7 (by decide)).trans (W7_v7 m ρ c)
theorem W8_v32 : W8 m ρ c (Proc.devRef .tc main_v32) = Cert.Spec.norm (F := Ideal) (m ((c.tc : Thread nD τ).loc main_arg1)) (m ((c.tc : Thread nD τ).loc main_arg2)) :=
  (W8_of_ne m ρ c main_v32 (by decide)).trans (W7_v32 m ρ c)
theorem W8_arg6 : W8 m ρ c (Proc.devRef .tc main_arg6) = (m ((c.tc : Thread nD τ).loc main_arg6)) :=
  (W8_of_ne m ρ c main_arg6 (by decide)).trans (W7_arg6 m ρ c)
include h0 h1 in
theorem W9_v63 : W9 m ρ c (Proc.devRef .tc main_v63) = Cert.Spec.agg128 (F := Ideal) (Host.dotGeneral (F := Ideal) (φ₁ := .f32) (φ₂ := .f32) Cert.Spec.dot_S50000x256_S256x128_S50000x128_1_0_0_1_n_n none (Cert.Spec.layer1 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (transpose Cert.Spec.S256x128 [1, 0] (m ((c.tc : Thread nD τ).loc main_arg5)) Cert.Spec.transposes_S128x256_S256x128_1_0)) (m ((c.tc : Thread nD τ).loc main_arg1)) (m ((c.tc : Thread nD τ).loc main_arg2)) := by
  show after hostOps2 (W8 m ρ c) _ = _
  fold_results
  rw [W8_v50 m ρ c h0 h1, W8_v4 m ρ c, W8_v7 m ρ c, W8_v32 m ρ c]
  rfl
theorem W9_v64 : W9 m ρ c (Proc.devRef .tc main_v64) = broadcastInDim (α := Ideal .f32) Cert.Spec.S1x128 ![1] Cert.Spec.bcast_S128_S1x128_1 (m ((c.tc : Thread nD τ).loc main_arg6)) := by
  show after hostOps2 (W8 m ρ c) _ = _
  fold_results
  rw [W8_arg6 m ρ c]
  exact reshape_row_eq_broadcast (a := 128) (by decide) _ _ _

/-! ## Region 2: the column sums and the column maxima, each as one row -/

theorem cast128' : Cert.Spec.S128.ShapeCasts Cert.Spec.S1x128 := by decide
include h0 h1 h2s in
theorem W10_sum : W10 m ρ c (Proc.devRef .tc main_v65_0) = shapeCast Cert.Spec.S1x128 (Cert.Spec.colSum (F := Ideal) (Cert.Spec.layer2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))) cast128' := by
  refine (W10_arr m ρ c 2).trans ((h2s (V9 m ρ) c).trans ?_)
  show shapeCast S1x128 (Host.reduceAdd (F := Ideal)
      (addf (F := Ideal) (φ := .f32) (W9 m ρ c (Proc.devRef .tc main_v63)) (broadcastInDim (α := Ideal .f32) S50000x128 ![0, 1] bcastRow128 (W9 m ρ c (Proc.devRef .tc main_v64))))
      (constant (F := Ideal) S_ .f32 0x00000000#32) redRows posScalar) cast128 = _
  rw [W9_v63 m ρ c h0 h1, W9_v64 m ρ c]
  rfl
include h0 h1 h2m in
theorem W10_max : W10 m ρ c (Proc.devRef .tc main_v65_1) = shapeCast Cert.Spec.S1x128 (Cert.Spec.colMax (F := Ideal) (Cert.Spec.layer2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))) cast128' := by
  refine (W10_arr m ρ c 3).trans ((h2m (V9 m ρ) c).trans ?_)
  show shapeCast S1x128 (Host.reduce (FloatOps.maximumf (F := Ideal))
      (addf (F := Ideal) (φ := .f32) (W9 m ρ c (Proc.devRef .tc main_v63)) (broadcastInDim (α := Ideal .f32) S50000x128 ![0, 1] bcastRow128 (W9 m ρ c (Proc.devRef .tc main_v64))))
      (constant (F := Ideal) S_ .f32 0xFF800000#32) redRows posScalar) cast128 = _
  rw [W9_v63 m ρ c h0 h1, W9_v64 m ρ c]
  rfl

/-! ## The last stretch: the rows back to [128], the sums divided by 50000, the concatenation -/

/-- The last stretch but its concatenation, and the concatenation. -/
abbrev tailA {F : FTy → Type} [FloatOps F] : List (HloOp τ sig (Elt F)) :=
  [ StableHlo.reshape main_v65_0 main_v66 rfl shapeCasts_S1x128_S128,
    StableHlo.reshape main_v65_1 main_v67 rfl shapeCasts_S1x128_S128,
    StableHlo.nullary main_cst_13 (constant S_ .f32 0x47435000#32),
    StableHlo.unary main_cst_13 main_v68 (broadcastInDim S128 ![] bcast_S_S128 : (⟨S_, .f32⟩ : BufTy).Contents (Elt F) → (⟨S128, .f32⟩ : BufTy).Contents (Elt F)),
    StableHlo.binary main_v66 main_v68 main_v69 (Host.divf : (⟨S128, .f32⟩ : BufTy).Contents (Elt F) → (⟨S128, .f32⟩ : BufTy).Contents (Elt F) → (⟨S128, .f32⟩ : BufTy).Contents (Elt F)) ]
abbrev tailB {F : FTy → Type} [FloatOps F] : List (HloOp τ sig (Elt F)) :=
  [ StableHlo.binary main_v69 main_v67 main_v70 ((fun a b => concatenate S256 0 [⟨S128, a⟩, ⟨S128, b⟩] concatenates_S128_S128_S256_d0) : (⟨S128, .f32⟩ : BufTy).Contents (Elt F) → (⟨S128, .f32⟩ : BufTy).Contents (Elt F) → (⟨S256, .f32⟩ : BufTy).Contents (Elt F)) ]
theorem W11_split (W : Valuation τ sig (Elt Ideal)) : after hostOps3 W = after (tailB (F := Ideal)) (after (tailA (F := Ideal)) W) := rfl

theorem castBack : Cert.Spec.S1x128.ShapeCasts Cert.Spec.S128 := by decide

include h0 h1 h2s in
theorem tailA_v69 : after (tailA (F := Ideal)) (W10 m ρ c) (Proc.devRef .tc main_v69)
    = Host.divf (Cert.Spec.colSum (F := Ideal) (Cert.Spec.layer2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))) (broadcastInDim Cert.Spec.S128 ![] Cert.Spec.bcast_S_S128 (constant (F := Ideal) Cert.Spec.S_ .f32 0x47435000#32)) := by
  have key : shapeCast (α := Ideal .f32) Cert.Spec.S128 (shapeCast (α := Ideal .f32) Cert.Spec.S1x128 (Cert.Spec.colSum (F := Ideal) (Cert.Spec.layer2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))) cast128') castBack
      = Cert.Spec.colSum (F := Ideal) (Cert.Spec.layer2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := shapeCast_shapeCast _ _ _
  fold_results
  rw [W10_sum m ρ c h0 h1 h2s]
  exact congrArg₂ (Host.divf (F := Ideal) (φ := .f32)) key rfl
include h0 h1 h2m in
theorem tailA_v67 : after (tailA (F := Ideal)) (W10 m ρ c) (Proc.devRef .tc main_v67) = Cert.Spec.colMax (F := Ideal) (Cert.Spec.layer2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  have key : shapeCast (α := Ideal .f32) Cert.Spec.S128 (shapeCast (α := Ideal .f32) Cert.Spec.S1x128 (Cert.Spec.colMax (F := Ideal) (Cert.Spec.layer2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))) cast128') castBack
      = Cert.Spec.colMax (F := Ideal) (Cert.Spec.layer2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := shapeCast_shapeCast _ _ _
  fold_results
  rw [W10_max m ρ c h0 h1 h2m]
  exact key

include h0 h1 h2s h2m in
/-- THE KERNEL'S RESULT is the specification of the launch contents of the arguments. -/
theorem kernel_value : W11 m ρ c (Proc.devRef .tc main_v70) = Cert.Spec.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have e69 := tailA_v69 m ρ c h0 h1 h2s
  have e67 := tailA_v67 m ρ c h0 h1 h2m
  show after hostOps3 (W10 m ρ c) _ = _
  rw [W11_split]
  generalize after (tailA (F := Ideal)) (W10 m ρ c) = W at e69 e67 ⊢
  fold_results
  rw [e69, e67]
  rfl

end Cert.KernelIdeal.Bridge

end
-- ==== Proof.LibProduct.lean ====
/-
  A matrix product read at an entry, for any sizes.

  For an M by K left factor and a K by N right factor contracted along the left factor's columns and the right
  factor's rows (no batch axis), the operand indices at the output entry (a, b) and the contraction index c are
  (a, c) and (c, b).  So the entry (a, b) of the product is ∑ c, l (a, c) · r (c, b): for the matrix unit's product
  into a zero accumulator and for the host's general product alike.  Row a of the product depends on row a of the
  left factor only.
-/
import Idealize.ShloMosaic.PureOps.Ideal
import Idealize.ShloMosaic.PureOps.Ideal.Laws
import Idealize.ShloMosaic.Lib.ValueIdx

noncomputable section

namespace Cert.LibProduct

open Idealize.ShloMosaic Idealize.ShloMosaic.ValueIdx

variable {M K N : ℕ}

/-- The row-by-column dimension numbers: the left factor's columns against the right factor's rows, no batch axis. -/
abbrev rowCol (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

/-- The left operand's row coordinate at the output entry (a, b) is a, whatever the contraction index. -/
theorem lhs_row (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).lhsIdx i q 0).val = (i 0).val := by
  unfold DotDims.lhsIdx
  rw [dif_neg (by simp), dif_pos (by simp)]
  rfl

/-- The right operand's column coordinate at the output entry (a, b) is b, whatever the contraction index. -/
theorem rhs_col (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).rhsIdx i q 1).val = (i 1).val := by
  unfold DotDims.rhsIdx
  rw [dif_neg (by simp), dif_pos (by simp)]
  rfl

/-- The sum over the contraction index of the products of the operands' entries is the sum over the shared
    coordinate c of l (a, c) · r (c, b). -/
theorem sum_products (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (a : Fin M) (b : Fin N) :
    ∑ k : (rowCol wf).contr.Idx, l ((rowCol wf).lhsIdx (ix2 a b) k) * r ((rowCol wf).rhsIdx (ix2 a b) k)
      = ∑ c : Fin K, l (ix2 a c) * r (ix2 c b) := by
  rw [← Equiv.sum_comp (contrEquiv1 (rowCol wf) K rfl rfl).symm]
  refine Finset.sum_congr rfl fun c _ => ?_
  have hk := contrEquiv1_symm_val (rowCol wf) K rfl rfl c
  have el : (rowCol wf).lhsIdx (ix2 a b) ((contrEquiv1 (rowCol wf) K rfl rfl).symm c) = ix2 a c := funext fun ax => Fin.ext (by
    match ax with
    | ⟨0, _⟩ => exact lhs_row wf _ _
    | ⟨1, _⟩ => exact ((rowCol wf).lhsIdx_val_of_single rfl (ix2 a b) _).trans hk)
  have er : (rowCol wf).rhsIdx (ix2 a b) ((contrEquiv1 (rowCol wf) K rfl rfl).symm c) = ix2 c b := funext fun ax => Fin.ext (by
    match ax with
    | ⟨0, _⟩ => exact ((rowCol wf).rhsIdx_val_of_single rfl (ix2 a b) _).trans hk
    | ⟨1, _⟩ => exact rhs_col wf _ _)
  rw [el, er]

/-- THE MATRIX UNIT'S PRODUCT INTO A ZERO ACCUMULATOR AT AN ENTRY, for any record of dimension numbers with the
    row-by-column axis lists. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 a c) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products wf l r a b

/-- THE HOST'S GENERAL PRODUCT AT AN ENTRY, for any such record. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    Host.dotGeneral d prec l r (ix2 a b) = ∑ c : Fin K, l (ix2 a c) * r (ix2 c b) := by
  obtain ⟨lc, rc, ln, rn, lb, rb, wf⟩ := d
  dsimp only at h1 h2 h3 h4 h5 h6
  subst h1 h2 h3 h4 h5 h6
  simp only [Host.dotGeneral]
  rw [Ideal.dotGeneral_apply]
  exact sum_products wf l r a b

end Cert.LibProduct

end
-- ==== Proof.Regions01.lean ====
/-
  The two matrix-product regions read as whole-array functions.

  Region 0 computes x·W1ᵀ and region 1 computes (h + b1)·W2ᵀ, each over a grid of ten points. At point t the body
  takes rows 5000 t … 5000 t + 4999 of the left array together with the whole right factor (and, in region 1, the
  whole bias row) and writes the block product to rows 5000 t … 5000 t + 4999 of the result. At the ideal instance a
  product into a zero accumulator is the exact sum of products and a change of float format is the identity, so entry
  (p, q) of the block product is ∑ k, l (5000 t + p, k) · r (k, q): this is entry (5000 t + p, q) of the product of the
  whole arrays, because row r of a product depends on row r of the left factor only. The ten blocks tile the 50000
  rows (row r lies in the block of point r / 5000) and every point writes its block back, so after the region the
  result array is the whole-array product.
-/
import proofs.«130542_j80358838108317_1_alg».proof.Proof.Shapes
import proofs.«130542_j80358838108317_1_alg».proof.Proof.LibProduct
import Idealize.ShloMosaic.Lib.Pipeline.Value

noncomputable section
namespace Cert.KernelIdeal.Bridge
open Idealize.ShloMosaic Idealize.ShloMosaic.TcCoe Idealize.SL.Sem Cert.KernelIdeal Cert.KernelIdeal.Gen
open Idealize.ShloMosaic.Pipeline (Dat)
open Idealize.ShloMosaic.ValueIdx

namespace R0

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The block product at an entry: entry (p, q) of the product of a 5000-row block with the whole right factor is
    the sum over the shared coordinate of the products of the block's row p with the factor's column q. -/
theorem pay_apply (x0 : Vec Ideal S5000x128 .f32) (x1 : Vec Ideal S128x256 .f32) (p : Fin 5000) (q : Fin 256) :
    k0_pay1 x0 x1 (ix2 p q) = ∑ k : Fin 128, x0 (ix2 p k) * x1 (ix2 k q) := by
  unfold k0_pay1
  simp only [shapeCast_self]
  exact Cert.LibProduct.matmul_zero_apply dot_S5000x128_S128x256_S5000x256_1_0_0_1_n_n rfl rfl rfl rfl rfl rfl none _ _ p q

/-- The whole-array product at an entry named by its row r and column q. -/
theorem product_apply (x : FVec Ideal S50000x128 .f32) (w : FVec Ideal S128x256 .f32) (i : S50000x256.Idx)
    (r : Fin 50000) (q : Fin 256) (h0 : (i 0).val = r.val) (h1 : (i 1).val = q.val) :
    Host.dotGeneral (F := Ideal) (φ₁ := .f32) (φ₂ := .f32) dot0 none x w i = ∑ k : Fin 128, x (ix2 r k) * w (ix2 k q) := by
  have e : i = ix2 r q := funext fun a => Fin.ext (by
    match a with
    | ⟨0, _⟩ => exact h0
    | ⟨1, _⟩ => exact h1)
  subst e
  exact Cert.LibProduct.dotGeneral_apply dot0 rfl rfl rfl rfl rfl rfl none x w r q

/-- The index maps over the ten grid points: the left factor's window and the result's window move down the rows,
    one block of 5000 rows per point; the right factor's window stays at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left factor's block at point t is rows 5000 t … 5000 t + 4999 of the left array. -/
theorem left_block (t : Fin cfg0.N) (p : Fin 5000) (k : Fin 128) (hr : 5000 * t.val + p.val < 50000) :
    (iblk0 V c 0 t : Vec Ideal S5000x128 .f32) (ix2 p k)
      = (V c main_v0 : S50000x128.Idx → Elt Ideal .f32) (ix2 ⟨5000 * t.val + p.val, hr⟩ k) := by
  obtain ⟨e0, e1, -⟩ := idx_facts t
  unfold iblk0
  rw [View.read_apply]
  show V c main_v0 _ = V c main_v0 _
  refine congrArg _ (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The right factor's block at every point is the whole right array. -/
theorem right_block (t : Fin cfg0.N) (k : Fin 128) (q : Fin 256) :
    (iblk0 V c 1 t : Vec Ideal S128x256 .f32) (ix2 k q)
      = (V c main_v33 : S128x256.Idx → Elt Ideal .f32) (ix2 k q) := by
  obtain ⟨-, -, e2, e3, -⟩ := idx_facts t
  unfold iblk0
  rw [View.read_apply]
  show V c main_v33 _ = V c main_v33 _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 256 + 1 * q.val = q.val; rw [e3]; omega

/-- What point t writes back is block t of the whole-array product: entry (p, q) of the block product is entry
    (5000 t + p, q) of the product of the whole arrays, because row r of a product depends on row r of the left factor only. -/
theorem flushed_eq (t : Fin cfg0.N) :
    (dat0 (F := Ideal) V c).flushed 2 t = ((cfg0.win 2).blk t).view.read (Elt Ideal)
      (Host.dotGeneral (F := Ideal) (φ₁ := .f32) (φ₂ := .f32) dot0 none (V c main_v0) (V c main_v33)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x256) hz]
  obtain ⟨-, -, -, -, e4, e5⟩ := idx_facts t
  have ht : t.val < 10 := lt_of_lt_of_eq t.isLt N_0
  funext j
  obtain ⟨p, q, rfl⟩ : ∃ (p : Fin 5000) (q : Fin 256), j = ix2 p q := ⟨j 0, j 1, eq_ix2 j⟩
  have hr : 5000 * t.val + p.val < 50000 := by have := p.isLt; omega
  show k0_pay1 (iblk0 V c 0 t) (iblk0 V c 1 t) (ix2 p q)
    = Host.dotGeneral (F := Ideal) (φ₁ := .f32) (φ₂ := .f32) dot0 none (V c main_v0) (V c main_v33) (((cfg0.win 2).blk t).view.emb (ix2 p q))
  refine (pay_apply (iblk0 V c 0 t) (iblk0 V c 1 t) p q).trans ?_
  refine Eq.trans ?_ (product_apply (V c main_v0) (V c main_v33) _ ⟨5000 * t.val + p.val, hr⟩ q ?_ ?_).symm
  · refine Finset.sum_congr rfl fun k _ => ?_
    rw [left_block V c t p k hr, right_block V c t k q]
  · show win0_2.index t (0 : Fin 2) * 5000 + 1 * p.val = 5000 * t.val + p.val; rw [e4]; omega
  · show win0_2.index t (1 : Fin 2) * 256 + 1 * q.val = q.val; rw [e5]; omega

/-- An index of the result array is in point t's block iff each coordinate is in the block's range on its axis. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v34).slice (win0_2.rect t)).set ↔ _
  rw [View.set_slice_whole, Rect.mem_set_unit]
  exact Iff.rfl

/-- Row r of the result lies in the block of point r / 5000, and every point writes its block back. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  let t : Fin cfg0.N := ⟨(i 0).val / 5000, by rw [hN]; omega⟩
  obtain ⟨-, -, -, -, e4, e5⟩ := idx_facts t
  have htv : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, htv]; omega
  | ⟨1, _⟩ => show win0_2.index t (1 : Fin 2) * 256 ≤ (i 1).val ∧ (i 1).val < win0_2.index t (1 : Fin 2) * 256 + 256; rw [e5]; omega

end R0

namespace R1

variable (V : (c : Dev nD) → (b : Ref sig .tc) → Buf (Elt Ideal) ((c : Thread nD τ).loc b)) (c : Dev nD)

/-- The block product with the row bias at an entry: entry (p, q) is the sum over the shared coordinate k of
    (row p of the block at k, plus the bias at k) times the right factor's entry (k, q). -/
theorem pay_apply (x0 : Vec Ideal S5000x256 .f32) (x1 : Vec Ideal S1x256 .f32) (x2 : Vec Ideal S256x128 .f32)
    (p : Fin 5000) (q : Fin 128) :
    k1_pay1 x0 x1 x2 (ix2 p q) = ∑ k : Fin 256, (x0 (ix2 p k) + x1 (ix2 (0 : Fin 1) k)) * x2 (ix2 k q) := by
  unfold k1_pay1
  simp only [shapeCast_self]
  refine (Cert.LibProduct.matmul_zero_apply dot_S5000x256_S256x128_S5000x128_1_0_0_1_n_n rfl rfl rfl rfl rfl rfl none _ _ p q).trans ?_
  refine Finset.sum_congr rfl fun k _ => ?_
  refine congrArg₂ (· * ·) ?_ rfl
  show x0 (ix2 p k) + broadcastTo S5000x256 x1 broadcasts_S1x256_S5000x256 (ix2 p k) = _
  rw [broadcastTo_apply x1 broadcasts_S1x256_S5000x256 (ix2 p k) (ix2 (0 : Fin 1) k) (fun a => by
    match a with
    | ⟨0, _⟩ => rfl
    | ⟨1, _⟩ => rfl)]

/-- The whole-array product of (left array plus the bias row broadcast down the rows) with the right array, at an
    entry named by its row r and column q. -/
theorem product_apply (x : FVec Ideal S50000x256 .f32) (b : FVec Ideal S1x256 .f32) (w : FVec Ideal S256x128 .f32)
    (i : S50000x128.Idx) (r : Fin 50000) (q : Fin 128) (h0 : (i 0).val = r.val) (h1 : (i 1).val = q.val) :
    Host.dotGeneral (F := Ideal) (φ₁ := .f32) (φ₂ := .f32) dot1 none
        (addf (F := Ideal) (φ := .f32) x (broadcastInDim (α := Ideal .f32) S50000x256 ![0, 1] bcastRow256 b)) w i
      = ∑ k : Fin 256, (x (ix2 r k) + b (ix2 (0 : Fin 1) k)) * w (ix2 k q) := by
  have e : i = ix2 r q := funext fun a => Fin.ext (by
    match a with
    | ⟨0, _⟩ => exact h0
    | ⟨1, _⟩ => exact h1)
  subst e
  refine (Cert.LibProduct.dotGeneral_apply dot1 rfl rfl rfl rfl rfl rfl none _ w r q).trans ?_
  refine Finset.sum_congr rfl fun k _ => ?_
  refine congrArg₂ (· * ·) ?_ rfl
  show x (ix2 r k) + broadcastInDim (α := Ideal .f32) S50000x256 ![0, 1] bcastRow256 b (ix2 r k) = _
  rw [broadcastInDim_apply ![0, 1] bcastRow256 b (ix2 r k) (ix2 (0 : Fin 1) k) (fun a => by
    match a with
    | ⟨0, _⟩ => rfl
    | ⟨1, _⟩ => rfl)]

/-- The index maps over the ten grid points: the left factor's window and the result's window move down the rows,
    one block of 5000 rows per point; the bias's and the right factor's windows stay at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The left factor's block at point t is rows 5000 t … 5000 t + 4999 of the left array. -/
theorem left_block (t : Fin cfg1.N) (p : Fin 5000) (k : Fin 256) (hr : 5000 * t.val + p.val < 50000) :
    (iblk1 V c 0 t : Vec Ideal S5000x256 .f32) (ix2 p k)
      = (V c main_v47 : S50000x256.Idx → Elt Ideal .f32) (ix2 ⟨5000 * t.val + p.val, hr⟩ k) := by
  obtain ⟨e0, e1, -⟩ := idx_facts t
  unfold iblk1
  rw [View.read_apply]
  show V c main_v47 _ = V c main_v47 _
  refine congrArg _ (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 256 + 1 * k.val = k.val; rw [e1]; omega

/-- The bias's block at every point is the whole bias row. -/
theorem bias_block (t : Fin cfg1.N) (k : Fin 256) :
    (iblk1 V c 1 t : Vec Ideal S1x256 .f32) (ix2 (0 : Fin 1) k)
      = (V c main_v49 : S1x256.Idx → Elt Ideal .f32) (ix2 (0 : Fin 1) k) := by
  obtain ⟨-, -, e2, e3, -⟩ := idx_facts t
  unfold iblk1
  rw [View.read_apply]
  show V c main_v49 _ = V c main_v49 _
  refine congrArg _ (funext fun a => Fin.ext ?_)
  match a with
  | ⟨0, _⟩ => show win1_1.index t (0 : Fin 2) * 1 + 1 * (0 : Fin 1).val = (0 : Fin 1).val; rw [e2]; omega
  | ⟨1, _⟩ => show win1_1.index t (1 : Fin 2) * 256 + 1 * k.val = k.val; rw [e3]; omega

/-- The right factor's block at every point is the whole right array. -/
theorem right_block (t : Fin cfg1.N) (k : Fin 256) (q : Fin 128) :
    (iblk1 V c 2 t : Vec Ideal S256x128 .f32) (ix2 k q)
      = (V c main_v48 : S256x128.Idx → Elt Ideal .f32) (ix2 k q) := by
  obtain ⟨-, -, -, -, e4, e5, -⟩ := idx_facts t
  unfold iblk1
  rw [View.read_apply]
  show V c main_v48 _ = V c main_v48 _
  refine congrArg _ (funext fun a => Fin.ext ?_)
  match a with
  | ⟨0, _⟩ => show win1_2.index t (0 : Fin 2) * 256 + 1 * k.val = k.val; rw [e4]; omega
  | ⟨1, _⟩ => show win1_2.index t (1 : Fin 2) * 128 + 1 * q.val = q.val; rw [e5]; omega

/-- What point t writes back is block t of the whole-array product: entry (p, q) of the block product is entry
    (5000 t + p, q) of the product of the whole arrays, the bias row being the same for every row. -/
theorem flushed_eq (t : Fin cfg1.N) :
    (dat1 (F := Ideal) V c).flushed 3 t = ((cfg1.win 3).blk t).view.read (Elt Ideal)
      (Host.dotGeneral (F := Ideal) (φ₁ := .f32) (φ₂ := .f32) dot1 none
        (addf (F := Ideal) (φ := .f32) (V c main_v47) (broadcastInDim (α := Ideal .f32) S50000x256 ![0, 1] bcastRow256 (V c main_v49)))
        (V c main_v48)) := by
  show (cfg1.win 3).cut (grid1.coords t) ((dat1 V c).after 3 t) = _
  rw [after1_3]
  unfold out1_3
  rw [View.canon_unit_zero R0.hz]
  simp only [View.ld_unit_zero (S := S5000x256) R0.hz, View.ld_unit_zero (S := S1x256) R0.hz, View.ld_unit_zero (S := S256x128) R0.hz]
  obtain ⟨-, -, -, -, -, -, e6, e7⟩ := idx_facts t
  have ht : t.val < 10 := lt_of_lt_of_eq t.isLt N_1
  funext j
  obtain ⟨p, q, rfl⟩ : ∃ (p : Fin 5000) (q : Fin 128), j = ix2 p q := ⟨j 0, j 1, eq_ix2 j⟩
  have hr : 5000 * t.val + p.val < 50000 := by have := p.isLt; omega
  show k1_pay1 (iblk1 V c 0 t) (iblk1 V c 1 t) (iblk1 V c 2 t) (ix2 p q)
    = Host.dotGeneral (F := Ideal) (φ₁ := .f32) (φ₂ := .f32) dot1 none
        (addf (F := Ideal) (φ := .f32) (V c main_v47) (broadcastInDim (α := Ideal .f32) S50000x256 ![0, 1] bcastRow256 (V c main_v49)))
        (V c main_v48) (((cfg1.win 3).blk t).view.emb (ix2 p q))
  refine (pay_apply (iblk1 V c 0 t) (iblk1 V c 1 t) (iblk1 V c 2 t) p q).trans ?_
  refine Eq.trans ?_ (product_apply (V c main_v47) (V c main_v49) (V c main_v48) _ ⟨5000 * t.val + p.val, hr⟩ q ?_ ?_).symm
  · refine Finset.sum_congr rfl fun k _ => ?_
    rw [left_block V c t p k hr, bias_block V c t k, right_block V c t k q]
  · show win1_3.index t (0 : Fin 2) * 5000 + 1 * p.val = 5000 * t.val + p.val; rw [e6]; omega
  · show win1_3.index t (1 : Fin 2) * 128 + 1 * q.val = q.val; rw [e7]; omega

/-- An index of the result array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v50).slice (win1_3.rect t)).set ↔ _
  rw [View.set_slice_whole, Rect.mem_set_unit]
  exact Iff.rfl

/-- Row r of the result lies in the block of point r / 5000, and every point writes its block back. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, e6, e7⟩ := idx_facts t
  have htv : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e6, htv]; omega
  | ⟨1, _⟩ => show win1_3.index t (1 : Fin 2) * 128 ≤ (i 1).val ∧ (i 1).val < win1_3.index t (1 : Fin 2) * 128 + 128; rw [e7]; omega

end R1

variable (V : (c : Dev nD) → (b : Ref sig .tc) → Buf (Elt Ideal) ((c : Thread nD τ).loc b)) (c : Dev nD)

/-- After region 0 the result array is the product of the whole left array with the whole right array. -/
theorem region0_value :
    (dat0 (F := Ideal) V c).arrAt 2 cfg0.N
      = Host.dotGeneral (F := Ideal) (φ₁ := .f32) (φ₂ := .f32) dot0 none (V c main_v0) (V c main_v33) :=
  (dat0 (F := Ideal) V c).arrAt_eq_of_cover 2 _ (fun t _ => R0.flushed_eq V c t) R0.cover

/-- After region 1 the result array is the product of (the whole left array plus the bias row broadcast down its
    rows) with the whole right array. -/
theorem region1_value :
    (dat1 (F := Ideal) V c).arrAt 3 cfg1.N
      = Host.dotGeneral (F := Ideal) (φ₁ := .f32) (φ₂ := .f32) dot1 none
          (addf (F := Ideal) (φ := .f32) (V c main_v47) (broadcastInDim (α := Ideal .f32) S50000x256 ![0, 1] bcastRow256 (V c main_v49))) (V c main_v48) :=
  (dat1 (F := Ideal) V c).arrAt_eq_of_cover 3 _ (fun t _ => R1.flushed_eq V c t) R1.cover

end Cert.KernelIdeal.Bridge
end
-- ==== Proof.LibGroupSum.lean ====
/-
  A sum over `G * R` consecutive positions, read as `G` groups of `R`: when every term outside one group vanishes, the
  sum is the sum over that group. In any additive commutative monoid, for any `G` and `R`.
-/
import Mathlib.Algebra.BigOperators.Fin
import Mathlib.Algebra.BigOperators.Group.Finset.Basic
import Mathlib.Logic.Equiv.Fin.Basic

namespace Cert.LibGroupSum

open Finset

/-- Position `R * g + r` of `G * R`: place `r` of group `g`. -/
def pos {G R : Nat} (g : Fin G) (r : Fin R) : Fin (G * R) := finProdFinEquiv (g, r)

theorem pos_val {G R : Nat} (g : Fin G) (r : Fin R) : (pos g r).val = r.val + R * g.val := rfl

/-- A sum over `G * R` positions is the sum over the groups of the sums over their places. -/
theorem sum_groups {M : Type*} [AddCommMonoid M] {G R : Nat} (f : Fin (G * R) → M) :
    ∑ j : Fin (G * R), f j = ∑ g : Fin G, ∑ r : Fin R, f (pos g r) := by
  rw [← Fintype.sum_prod_type' (fun g r => f (pos g r))]
  exact (Fintype.sum_equiv finProdFinEquiv (fun p => f (pos p.1 p.2)) f (fun _ => rfl)).symm

/-- If every term outside group `g` is zero, the whole sum is the sum over group `g`. -/
theorem sum_one_group {M : Type*} [AddCommMonoid M] {G R : Nat} (f : Fin (G * R) → M) (g : Fin G)
    (h0 : ∀ (g' : Fin G) (r : Fin R), g' ≠ g → f (pos g' r) = 0) :
    ∑ j : Fin (G * R), f j = ∑ r : Fin R, f (pos g r) := by
  rw [sum_groups]
  refine Finset.sum_eq_single_of_mem g (Finset.mem_univ g) fun g' _ hg' => ?_
  exact Finset.sum_eq_zero fun r _ => h0 g' r hg'

end Cert.LibGroupSum
-- ==== Proof.Region2.lean ====
/-
  The pooling stage read as two whole-array functions of its inputs, at the ideal values.

  The stage walks the 50000 rows of `x` (f32[50000,128]) in ten blocks of 5000 rows. It keeps two [1,128] rows that stay
  in place across the ten points and are written back once, after the last: a row of column sums, started at zero at
  the first point, and a row of column maxima, started at `-∞`. At every point it forms the block plus the bias row
  `b` (f32[1,128]) broadcast down the block's rows, adds that block's column sums to the first row and takes the
  maximum of the second row with that block's column maxima.

  So after the last point the first row at column `j` is `((0 + s₀) + s₁) + … + s₉` with
  `s_g = ∑ r < 5000, (x (5000 g + r, j) + b (0, j))`, and the host's `0 + ∑ k < 50000, (x (k, j) + b (0, j))` is the same
  extended real: only associativity and commutativity of addition are used (a sum over 50000 = 10 × 5000 positions is
  the sum over the groups of the sums over their places), so no finiteness is needed. The second row is compared with the
  host's maximum over all rows by the bounds of each side: a number bounds the running maximum after point `n` exactly
  when it bounds `-∞` and every row of groups `0 … n`, and every row `k` is row `k % 5000` of group `k / 5000`.

  Order of the text: what each of the two cases of the body leaves in the two rows, as the body's own arithmetic
  (`out_A_2` … `out_B_3`); the running pair by recursion on the point (`chain`, `outsAt_eq`); the one write-back at
  point 9, whose block is the whole [1,128] array (`final_2`, `final_3`); the arithmetic read at an index
  (`pay3_apply`, `pay4_apply`, `pay5_apply`), a block of `x` as rows of `x` (`blk0_apply`), the closed forms
  (`chain_sum`, `chain_max_le`), the host's two reductions at a column (`host_sum`, `host_max`), and the two results.
-/
import proofs.«130542_j80358838108317_1_alg».proof.Proof.Shapes
import proofs.«130542_j80358838108317_1_alg».proof.Proof.LibGroupSum
import Idealize.ShloMosaic.Lib.Pipeline.Value
import Idealize.ShloMosaic.Lib.IdealHost
import Idealize.ShloMosaic.Lib.ValueLayout
import Idealize.ShloMosaic.Lib.KernelVsHost
import Idealize.ShloMosaic.PureOps.Ideal.Laws
import Idealize.ShloMosaic.Lib.Tactic

noncomputable section

namespace Cert.KernelIdeal.Bridge.R2

open Idealize.ShloMosaic Idealize.ShloMosaic.TcCoe Idealize.SL.Sem Cert.KernelIdeal Cert.KernelIdeal.Gen
open Idealize.ShloMosaic.Pipeline (Dat)

section Pieces

variable {F : FTy → Type} [FloatOps F]

/-- The offsets of an access to a whole block: zero on both axes. -/
theorem hz : (![0, 0] : Fin 2 → Nat) = fun _ => 0 := funext fun a => by fin_cases a <;> rfl

/-- At a point after the first, the row of sums (holding `xo2`) is left at `xo2` plus the block's column sums: the
    body's one store to it, whose loads read the whole buffers. -/
theorem out_B_2 (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond2_0 i)
    (x0 : Vec F S5000x128 .f32) (x1 xo2 xo3 : Vec F S1x128 .f32) :
    out2_B_2 c i a1 h1 a2 h2 a3 h3 a4 h4 hc x0 x1 xo2 xo3 = k2_pay4 x0 x1 xo2 := by
  unfold out2_B_2
  rw [View.read_writes_eq_canon _ _ _ (cover2_B_2 c i a1 h1 a2 h2 a3 h3 a4 h4 hc x0 x1 xo2 xo3)]
  unfold kernelRun2_B
  dsimp only
  rw [View.canon_unit_zero (S := S1x128) hz]
  simp only [View.readAt_eq_ld, h1.read_unread, h2.read_unread, h3.read_unread,
    View.ld_unit_zero (S := S5000x128) hz, View.ld_unit_zero (S := S1x128) hz]

/-- At a point after the first, the row of maxima (holding `xo3`) is left at the maximum of `xo3` and the block's
    column maxima. -/
theorem out_B_3 (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond2_0 i)
    (x0 : Vec F S5000x128 .f32) (x1 xo2 xo3 : Vec F S1x128 .f32) :
    out2_B_3 c i a1 h1 a2 h2 a3 h3 a4 h4 hc x0 x1 xo2 xo3 = k2_pay5 x0 x1 xo3 := by
  unfold out2_B_3
  rw [View.read_writes_eq_canon _ _ _ (cover2_B_3 c i a1 h1 a2 h2 a3 h3 a4 h4 hc x0 x1 xo2 xo3)]
  unfold kernelRun2_B
  dsimp only
  rw [View.canon_unit_zero (S := S1x128) hz]
  simp only [View.readAt_eq_ld, h1.read_unread, h2.read_unread, h4.read_unread,
    View.ld_unit_zero (S := S5000x128) hz, View.ld_unit_zero (S := S1x128) hz]

/-- At the first point the row of sums is first set to zero and read back, then left at zero plus the block's column
    sums: the later of the two stores is what stays. -/
theorem out_A_2 (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond2_0 i)
    (x0 : Vec F S5000x128 .f32) (x1 : Vec F S1x128 .f32) :
    out2_A_2 c i a1 h1 a2 h2 a3 h3 a4 h4 hc x0 x1 = k2_pay4 x0 x1 (k2_pay1 (F := F)) := by
  unfold out2_A_2
  rw [View.read_writes_eq_canon _ _ _ (cover2_A_2 c i a1 h1 a2 h2 a3 h3 a4 h4 hc x0 x1)]
  unfold kernelRun2_A
  dsimp only
  sl_unfold_words
  rw [View.canon_cons_unit_zero (S := S1x128) hz, View.readCov_unit_zero (S := S1x128) _ hz]
  simp only [View.readAt_eq_ld, h1.read_unread, h2.read_unread,
    View.ld_unit_zero (S := S5000x128) hz, View.ld_unit_zero (S := S1x128) hz]

/-- At the first point the row of maxima is first set to `-∞` and read back, then left at the maximum of `-∞` and the
    block's column maxima. -/
theorem out_A_3 (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond2_0 i)
    (x0 : Vec F S5000x128 .f32) (x1 : Vec F S1x128 .f32) :
    out2_A_3 c i a1 h1 a2 h2 a3 h3 a4 h4 hc x0 x1 = k2_pay5 x0 x1 (k2_pay2 (F := F)) := by
  unfold out2_A_3
  rw [View.read_writes_eq_canon _ _ _ (cover2_A_3 c i a1 h1 a2 h2 a3 h3 a4 h4 hc x0 x1)]
  unfold kernelRun2_A
  dsimp only
  sl_unfold_words
  rw [View.canon_cons_unit_zero (S := S1x128) hz, View.readCov_unit_zero (S := S1x128) _ hz]
  simp only [View.readAt_eq_ld, h1.read_unread, h2.read_unread,
    View.ld_unit_zero (S := S5000x128) hz, View.ld_unit_zero (S := S1x128) hz]

end Pieces

section Chain

variable {F : FTy → Type} [FloatOps F]
variable (V : (c : Dev nD) → (b : Ref sig .tc) → Buf (Elt F) ((c : Thread nD τ).loc b))

/-- The running pair (column sums, column maxima) after point `n`: point 0 starts from the zero row and the `-∞` row,
    every later point folds its block into what the point before left. -/
def chain (c : Dev nD) : (n : ℕ) → n < cfg2.N → Vec F S1x128 .f32 × Vec F S1x128 .f32
  | 0, h => (k2_pay4 (iblk2 V c 0 ⟨0, h⟩) (iblk2 V c 1 ⟨0, h⟩) (k2_pay1 (F := F)),
             k2_pay5 (iblk2 V c 0 ⟨0, h⟩) (iblk2 V c 1 ⟨0, h⟩) (k2_pay2 (F := F)))
  | n + 1, h => (k2_pay4 (iblk2 V c 0 ⟨n + 1, h⟩) (iblk2 V c 1 ⟨n + 1, h⟩) (chain c n (Nat.lt_of_succ_lt h)).1,
                 k2_pay5 (iblk2 V c 0 ⟨n + 1, h⟩) (iblk2 V c 1 ⟨n + 1, h⟩) (chain c n (Nat.lt_of_succ_lt h)).2)

/-- What the two rows hold after point `n` is the running pair: by induction on the point, the first point in the
    resetting case, every later one in the accumulating case over what the point before left. -/
theorem outsAt_eq (c : Dev nD) : ∀ (n : ℕ) (h : n < cfg2.N), outsAt2 V c n h = chain V c n h
  | 0, h => by
    rw [outsAt2_A V c ⟨0, h⟩ rfl, out_A_2, out_A_3]
    rfl
  | n + 1, h => by
    have hN : cfg2.N = 10 := N_2
    have hB : ¬(⟨n + 1, h⟩ : Fin cfg2.N).val % 10 = 0 := by dsimp only; omega
    rw [outsAt2_B V c ⟨n + 1, h⟩ hB, out_B_2, out_B_3]
    show (k2_pay4 _ _ (outsAt2 V c n _).1, k2_pay5 _ _ (outsAt2 V c n _).2) = (k2_pay4 _ _ (chain V c n _).1, k2_pay5 _ _ (chain V c n _).2)
    rw [outsAt_eq c n]

end Chain

section Final

variable {F : FTy → Type} [FloatOps F]
variable (V : (c : Dev nD) → (b : Ref sig .tc) → Buf (Elt F) ((c : Thread nD τ).loc b))

/-- The grid has ten points, so point 9 is one of them. -/
theorem lt9 : 9 < cfg2.N := by rw [show cfg2.N = 10 from N_2]; decide

/-- The running pair after the last point. -/
abbrev last (c : Dev nD) : Vec F S1x128 .f32 × Vec F S1x128 .f32 := chain V c 9 lt9

/-- The sums' one write-back, at point 9: block (0, 0) of the [1,128] array read through zero offsets is the array. -/
theorem flushed_eq_2 (c : Dev nD) (t : Fin cfg2.N) (hf : (cfg2.win 2).flush t = true) :
    (dat2 V c).flushed 2 t = ((cfg2.win 2).blk t).view.read (Elt F) ((last V c).1 : Buf (Elt F) ((c : Thread nD τ).loc main_v65_0)) := by
  have hN : cfg2.N = 10 := N_2
  have h9 : t.val = 9 := by have := (flush2_2 t).mp hf; have := t.isLt; omega
  obtain rfl : t = t2_9 := Fin.ext h9
  show (cfg2.win 2).cut (grid2.coords t2_9) ((dat2 V c).after 2 t2_9) = _
  rw [after2_2, outsAt_eq]
  have hz' : (fun a => win2_2.index t2_9 a * main_v65_0.ty.shape.size a) = fun _ => 0 := funext fun a => by fin_cases a <;> decide
  exact (Memref.read_access_unit_zero (Elt F) main_v65_0 hz' (fun a => by rw [congrFun hz' a]; simp) (last V c).1).symm

/-- The maxima's one write-back, at point 9, likewise. -/
theorem flushed_eq_3 (c : Dev nD) (t : Fin cfg2.N) (hf : (cfg2.win 3).flush t = true) :
    (dat2 V c).flushed 3 t = ((cfg2.win 3).blk t).view.read (Elt F) ((last V c).2 : Buf (Elt F) ((c : Thread nD τ).loc main_v65_1)) := by
  have hN : cfg2.N = 10 := N_2
  have h9 : t.val = 9 := by have := (flush2_3 t).mp hf; have := t.isLt; omega
  obtain rfl : t = t2_9 := Fin.ext h9
  show (cfg2.win 3).cut (grid2.coords t2_9) ((dat2 V c).after 3 t2_9) = _
  rw [after2_3, outsAt_eq]
  have hz' : (fun a => win2_3.index t2_9 a * main_v65_1.ty.shape.size a) = fun _ => 0 := funext fun a => by fin_cases a <;> decide
  exact (Memref.read_access_unit_zero (Elt F) main_v65_1 hz' (fun a => by rw [congrFun hz' a]; simp) (last V c).2).symm

/-- So the sums' array ends holding the running sums after point 9: that point's block covers the array. -/
theorem final_2 (c : Dev nD) : (dat2 V c).arrAt 2 cfg2.N = (last V c).1 :=
  (dat2 V c).arrAt_eq_of_cover 2 (last V c).1 (flushed_eq_2 V c) fun i =>
    ⟨t2_9, (flush2_2 t2_9).mpr rfl, by
      show i ∈ ((View.whole main_v65_0).slice (win2_2.rect t2_9)).set
      rw [View.set_slice_whole, Rect.mem_set_unit]
      intro a
      have h0 : (i 0 : Nat) < 1 := (i 0).isLt
      have h1 : (i 1 : Nat) < 128 := (i 1).isLt
      match a with
      | ⟨0, _⟩ => show win2_2.index t2_9 0 * win2_2.size 0 ≤ (i 0 : Nat) ∧ (i 0 : Nat) < win2_2.index t2_9 0 * win2_2.size 0 + win2_2.xsize (grid2.coords t2_9) 0
                  rw [show win2_2.index t2_9 0 * win2_2.size 0 = 0 from by decide +kernel, show win2_2.xsize (grid2.coords t2_9) 0 = 1 from by decide +kernel]; omega
      | ⟨1, _⟩ => show win2_2.index t2_9 1 * win2_2.size 1 ≤ (i 1 : Nat) ∧ (i 1 : Nat) < win2_2.index t2_9 1 * win2_2.size 1 + win2_2.xsize (grid2.coords t2_9) 1
                  rw [show win2_2.index t2_9 1 * win2_2.size 1 = 0 from by decide +kernel, show win2_2.xsize (grid2.coords t2_9) 1 = 128 from by decide +kernel]; omega⟩

/-- And the maxima's array ends holding the running maxima after point 9. -/
theorem final_3 (c : Dev nD) : (dat2 V c).arrAt 3 cfg2.N = (last V c).2 :=
  (dat2 V c).arrAt_eq_of_cover 3 (last V c).2 (flushed_eq_3 V c) fun i =>
    ⟨t2_9, (flush2_3 t2_9).mpr rfl, by
      show i ∈ ((View.whole main_v65_1).slice (win2_3.rect t2_9)).set
      rw [View.set_slice_whole, Rect.mem_set_unit]
      intro a
      have h0 : (i 0 : Nat) < 1 := (i 0).isLt
      have h1 : (i 1 : Nat) < 128 := (i 1).isLt
      match a with
      | ⟨0, _⟩ => show win2_3.index t2_9 0 * win2_3.size 0 ≤ (i 0 : Nat) ∧ (i 0 : Nat) < win2_3.index t2_9 0 * win2_3.size 0 + win2_3.xsize (grid2.coords t2_9) 0
                  rw [show win2_3.index t2_9 0 * win2_3.size 0 = 0 from by decide +kernel, show win2_3.xsize (grid2.coords t2_9) 0 = 1 from by decide +kernel]; omega
      | ⟨1, _⟩ => show win2_3.index t2_9 1 * win2_3.size 1 ≤ (i 1 : Nat) ∧ (i 1 : Nat) < win2_3.index t2_9 1 * win2_3.size 1 + win2_3.xsize (grid2.coords t2_9) 1
                  rw [show win2_3.index t2_9 1 * win2_3.size 1 = 0 from by decide +kernel, show win2_3.xsize (grid2.coords t2_9) 1 = 128 from by decide +kernel]; omega⟩

end Final

section Value

open Idealize.ShloMosaic.ValueIdx Cert.LibGroupSum

/-- Two [1,128] vectors are equal when they agree along their one row. -/
theorem ext_row {α : Type} (a b : (⟨2, ![1, 128]⟩ : Shape).Idx → α)
    (h : ∀ j : Fin 128, a (ix2 (0 : Fin 1) j) = b (ix2 (0 : Fin 1) j)) : a = b := by
  funext i
  obtain ⟨u, j, rfl⟩ : ∃ (u : Fin 1) (j : Fin 128), i = ix2 u j := ⟨i 0, i 1, eq_ix2 i⟩
  obtain rfl : u = 0 := Subsingleton.elim _ _
  exact h j

/-- Inserting row `k` in front of column `j` gives the index `(k, j)`. -/
theorem lift_row {R : ℕ} (h : (⟨2, ![R, 128]⟩ : Shape).Reduces [0] ⟨1, ![128]⟩) (j : Fin 128) (k : Fin R) :
    h.lift (ix1 j) k = ix2 k j := by
  funext a
  apply Fin.ext
  match a with
  | ⟨0, _⟩ => rfl
  | ⟨1, _⟩ => rfl

/-- The block plus the bias row, at row `r` and column `j`. -/
theorem pay3_apply (x0 : Vec Ideal S5000x128 .f32) (x1 : Vec Ideal S1x128 .f32) (r : Fin 5000) (j : Fin 128) :
    k2_pay3 x0 x1 (ix2 r j) = x0 (ix2 r j) + x1 (ix2 (0 : Fin 1) j) := by
  unfold k2_pay3
  refine (addf_apply _ _ _).trans ?_
  refine congrArg₂ (· + ·) (congrFun (shapeCast_self _ _) _) ?_
  refine (broadcastTo_1b_ab_apply _ _ r j).trans ?_
  exact congrFun (shapeCast_self _ _) _

/-- The new column sum at `j`: the old one plus the sum down the block's 5000 rows. -/
theorem pay4_apply (x0 : Vec Ideal S5000x128 .f32) (x1 acc : Vec Ideal S1x128 .f32) (j : Fin 128) :
    k2_pay4 x0 x1 acc (ix2 (0 : Fin 1) j)
      = acc (ix2 (0 : Fin 1) j) + ∑ r : Fin 5000, (x0 (ix2 r j) + x1 (ix2 (0 : Fin 1) j)) := by
  unfold k2_pay4
  refine (addf_apply _ _ _).trans ?_
  refine congrArg₂ (· + ·) (congrFun (shapeCast_self _ _) _) ?_
  refine (shapeCast_a_1a_apply _ _ (0 : Fin 1) j).trans ?_
  refine (Ideal.multiReduction_add_single (k2_pay3 x0 x1) 0x00000000#32 _ _ _ (ix1 j)).trans ?_
  show ∑ r : Fin 5000, _ = _
  refine Finset.sum_congr rfl fun r _ => ?_
  rw [lift_row]
  exact pay3_apply x0 x1 r j

/-- The new column maximum at `j`: the larger of the old one and the maximum down the block's 5000 rows from `-∞`. -/
theorem pay5_apply (x0 : Vec Ideal S5000x128 .f32) (x1 acc : Vec Ideal S1x128 .f32) (j : Fin 128) :
    k2_pay5 x0 x1 acc (ix2 (0 : Fin 1) j)
      = max (acc (ix2 (0 : Fin 1) j))
          ((Finset.univ : Finset (Fin 5000)).fold max (Ideal.ofBits .f32 0xFF800000#32)
            (fun r => x0 (ix2 r j) + x1 (ix2 (0 : Fin 1) j))) := by
  unfold k2_pay5
  refine (maximumf_apply _ _ _).trans ?_
  refine congrArg₂ max (congrFun (shapeCast_self _ _) _) ?_
  refine (shapeCast_a_1a_apply _ _ (0 : Fin 1) j).trans ?_
  refine (Ideal.multiReduction_maximumf_single (k2_pay3 x0 x1) 0xFF800000#32 _ _ _ (ix1 j)).trans ?_
  show (Finset.univ : Finset (Fin 5000)).fold max (Ideal.ofBits .f32 0xFF800000#32) _ = _
  refine Finset.fold_congr fun r _ => ?_
  exact (congrArg (k2_pay3 x0 x1) (lift_row _ j r)).trans (pay3_apply x0 x1 r j)

/-- The same by what bounds it: the old maximum, `-∞`, and every row of the block. -/
theorem pay5_le_iff (x0 : Vec Ideal S5000x128 .f32) (x1 acc : Vec Ideal S1x128 .f32) (j : Fin 128) (y : EReal) :
    k2_pay5 x0 x1 acc (ix2 (0 : Fin 1) j) ≤ y
      ↔ acc (ix2 (0 : Fin 1) j) ≤ y ∧ Ideal.ofBits .f32 0xFF800000#32 ≤ y
          ∧ ∀ r : Fin 5000, x0 (ix2 r j) + x1 (ix2 (0 : Fin 1) j) ≤ y := by
  rw [pay5_apply, max_le_iff, Finset.fold_max_le]
  exact and_congr_right fun _ => and_congr_right fun _ =>
    ⟨fun hh r => hh r (Finset.mem_univ _), fun hh r _ => hh r⟩

variable (V : (c : Dev nD) → (b : Ref sig .tc) → Buf (Elt Ideal) ((c : Thread nD τ).loc b)) (c : Dev nD)

/-- Row `r` of group `g` of the 50000 rows: row `5000 g + r`. -/
def row (g : Fin 10) (r : Fin 5000) : Fin 50000 := ⟨r.val + 5000 * g.val, by omega⟩

/-- Point `t` reads block `(t, 0)` of the 50000-row array, -/
theorem idx0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)

/-- and block `(0, 0)` of the bias row: decided over the ten points. -/
theorem idx1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)

/-- Block `n` of the 50000-row array at `(r, j)` is the array at `(5000 n + r, j)`. -/
theorem blk0_apply (n : ℕ) (h : n < cfg2.N) (h' : n < 10) (r : Fin 5000) (j : Fin 128) :
    (iblk2 V c 0 ⟨n, h⟩ : Vec Ideal S5000x128 .f32) (ix2 r j) = V c main_v63 (ix2 (row ⟨n, h'⟩ r) j) := by
  unfold iblk2
  rw [View.read_apply]
  show V c main_v63 _ = V c main_v63 _
  refine congrArg (V c main_v63) ?_
  funext a
  apply Fin.ext
  match a with
  | ⟨0, _⟩ => show win2_0.index ⟨n, h⟩ 0 * 5000 + 1 * r.val = r.val + 5000 * n
              have e0 : win2_0.index ⟨n, h⟩ 0 = n := (idx0 ⟨n, h⟩).1
              rw [e0]; omega
  | ⟨1, _⟩ => show win2_0.index ⟨n, h⟩ 1 * 128 + 1 * j.val = j.val
              rw [(idx0 ⟨n, h⟩).2]; omega

/-- The bias window's block is the whole bias row at every point. -/
theorem blk1_apply (n : ℕ) (h : n < cfg2.N) (j : Fin 128) :
    (iblk2 V c 1 ⟨n, h⟩ : Vec Ideal S1x128 .f32) (ix2 (0 : Fin 1) j) = V c main_v64 (ix2 (0 : Fin 1) j) := by
  unfold iblk2
  rw [View.read_apply]
  show V c main_v64 _ = V c main_v64 _
  refine congrArg (V c main_v64) ?_
  funext a
  apply Fin.ext
  match a with
  | ⟨0, _⟩ => show win2_1.index ⟨n, h⟩ 0 * 1 + 1 * 0 = 0
              rw [(idx1 ⟨n, h⟩).1]
  | ⟨1, _⟩ => show win2_1.index ⟨n, h⟩ 1 * 128 + 1 * j.val = j.val
              rw [(idx1 ⟨n, h⟩).2]; omega

/-- The pooled entry of an array `X` and a bias row `b` at row `k`, column `j`. -/
def pool (X : Vec Ideal S50000x128 .f32) (b : Vec Ideal S1x128 .f32) (j : Fin 128) (k : Fin 50000) : EReal :=
  X (ix2 k j) + b (ix2 (0 : Fin 1) j)

/-- The same for the region's two input arrays. -/
def term (j : Fin 128) (k : Fin 50000) : EReal := pool (V c main_v63) (V c main_v64) j k

/-- The sum of `f` over the 5000 rows of group `g` (zero past the tenth group). -/
def gsum (f : Fin 50000 → EReal) (g : ℕ) : EReal := if hg : g < 10 then ∑ r : Fin 5000, f (row ⟨g, hg⟩ r) else 0

/-- A sum over the 50000 rows, regrouped as ten groups of 5000 consecutive rows. -/
theorem sum_rows (f : Fin 50000 → EReal) : ∑ k : Fin 50000, f k = ∑ g ∈ Finset.range 10, gsum f g := by
  refine (sum_groups (G := 10) (R := 5000) (f : Fin (10 * 5000) → EReal)).trans ?_
  rw [← Fin.sum_univ_eq_sum_range (gsum f) 10]
  refine Finset.sum_congr rfl fun g _ => ?_
  rw [gsum, dif_pos g.isLt]
  exact Finset.sum_congr rfl fun r _ => congrArg f (Fin.ext (pos_val g r))

/-- The running column sum after point `n`: zero plus the sums of the groups met so far, in order. -/
theorem chain_sum (j : Fin 128) : ∀ (n : ℕ) (h : n < cfg2.N),
    (chain V c n h).1 (ix2 (0 : Fin 1) j)
      = Ideal.ofBits .f32 0x00000000#32 + ∑ g ∈ Finset.range (n + 1), gsum (term V c j) g
  | 0, h => by
    have h' : 0 < 10 := by decide
    show k2_pay4 (iblk2 V c 0 ⟨0, h⟩) (iblk2 V c 1 ⟨0, h⟩) (k2_pay1 (F := Ideal)) (ix2 (0 : Fin 1) j) = _
    refine (pay4_apply (iblk2 V c 0 ⟨0, h⟩) (iblk2 V c 1 ⟨0, h⟩) (k2_pay1 (F := Ideal)) j).trans ?_
    rw [Finset.sum_range_one, gsum, dif_pos h']
    refine congrArg₂ (· + ·) rfl ?_
    refine Finset.sum_congr rfl fun r _ => ?_
    exact congrArg₂ (fun a b : EReal => a + b) (blk0_apply V c 0 h h' r j) (blk1_apply V c 0 h j)
  | n + 1, h => by
    have hN : cfg2.N = 10 := N_2
    have h' : n + 1 < 10 := by omega
    show k2_pay4 (iblk2 V c 0 ⟨n + 1, h⟩) (iblk2 V c 1 ⟨n + 1, h⟩) (chain V c n (Nat.lt_of_succ_lt h)).1 (ix2 (0 : Fin 1) j) = _
    refine (pay4_apply (iblk2 V c 0 ⟨n + 1, h⟩) (iblk2 V c 1 ⟨n + 1, h⟩) (chain V c n (Nat.lt_of_succ_lt h)).1 j).trans ?_
    rw [chain_sum j n (Nat.lt_of_succ_lt h), Finset.sum_range_succ (gsum (term V c j)) (n + 1), add_assoc]
    refine congrArg₂ (· + ·) rfl (congrArg₂ (· + ·) rfl ?_)
    rw [gsum, dif_pos h']
    refine Finset.sum_congr rfl fun r _ => ?_
    exact congrArg₂ (fun a b : EReal => a + b) (blk0_apply V c (n + 1) h h' r j) (blk1_apply V c (n + 1) h j)

/-- Dropping axis 0 of [50000,128] leaves [128]. -/
theorem redRows' : S50000x128.Reduces [0] S128 := by decide

/-- The host's operand at `(k, j)`: the array plus the bias row broadcast down the rows. -/
theorem host_term (j : Fin 128) (k : Fin 50000) :
    addf (F := Ideal) (φ := .f32) (V c main_v63)
        (broadcastInDim (α := Ideal .f32) S50000x128 ![0, 1] bcastRow128 (V c main_v64)) (ix2 k j)
      = term V c j k := by
  refine (addf_apply _ _ _).trans ?_
  exact congrArg₂ (· + ·) rfl (broadcastInDim_oneRow_apply bcastRow128 (V c main_v64) k j)

/-- The host's column sum at `j`: zero plus the sum over all 50000 rows. -/
theorem host_sum (j : Fin 128) :
    shapeCast S1x128 (Host.reduceAdd (F := Ideal)
        (addf (F := Ideal) (V c main_v63) (broadcastInDim S50000x128 ![0, 1] bcastRow128 (V c main_v64)))
        (constant (F := Ideal) S_ .f32 0x00000000#32) redRows posScalar) cast128 (ix2 (0 : Fin 1) j)
      = Ideal.ofBits .f32 0x00000000#32 + ∑ k : Fin 50000, term V c j k := by
  refine (shapeCast_a_1a_apply _ _ (0 : Fin 1) j).trans ?_
  refine (hostReduceAdd_apply _ _ _ _ _).trans ?_
  refine (Ideal.hostReduceAdd_single redRows redRows' _ _ (ix1 j)).trans ?_
  refine congrArg₂ (· + ·) rfl ?_
  show ∑ k : Fin 50000, _ = _
  refine Finset.sum_congr rfl fun k _ => ?_
  exact (congrArg _ (lift_row _ j k)).trans (host_term V c j k)

/-- The host's column maximum at `j`: the maximum from `-∞` over all 50000 rows. -/
theorem host_max (j : Fin 128) :
    shapeCast S1x128 (Host.reduce (FloatOps.maximumf (F := Ideal))
        (addf (F := Ideal) (V c main_v63) (broadcastInDim S50000x128 ![0, 1] bcastRow128 (V c main_v64)))
        (constant (F := Ideal) S_ .f32 0xFF800000#32) redRows posScalar) cast128 (ix2 (0 : Fin 1) j)
      = (Finset.univ : Finset (Fin 50000)).fold max (Ideal.ofBits .f32 0xFF800000#32) (fun k => term V c j k) := by
  refine (shapeCast_a_1a_apply _ _ (0 : Fin 1) j).trans ?_
  refine (Host.reduce_eq_fold_single _ _ _ redRows redRows' posScalar (ix1 j)).trans ?_
  show (Finset.univ : Finset (Fin 50000)).fold max (Ideal.ofBits .f32 0xFF800000#32) _ = _
  refine Finset.fold_congr fun k _ => ?_
  exact (congrArg _ (lift_row _ j k)).trans (host_term V c j k)

/-- The running column maximum after point `n`, by what bounds it: `-∞` and every row of the groups met so far. -/
theorem chain_max_le (j : Fin 128) (y : EReal) : ∀ (n : ℕ) (h : n < cfg2.N),
    (chain V c n h).2 (ix2 (0 : Fin 1) j) ≤ y
      ↔ Ideal.ofBits .f32 0xFF800000#32 ≤ y ∧ ∀ g : Fin 10, g.val ≤ n → ∀ r : Fin 5000, term V c j (row g r) ≤ y
  | 0, h => by
    have h' : 0 < 10 := by decide
    show k2_pay5 (iblk2 V c 0 ⟨0, h⟩) (iblk2 V c 1 ⟨0, h⟩) (k2_pay2 (F := Ideal)) (ix2 (0 : Fin 1) j) ≤ y ↔ _
    refine (pay5_le_iff (iblk2 V c 0 ⟨0, h⟩) (iblk2 V c 1 ⟨0, h⟩) (k2_pay2 (F := Ideal)) j y).trans ?_
    constructor
    · rintro ⟨_, hNI, hr⟩
      refine ⟨hNI, fun g hg r => ?_⟩
      obtain rfl : g = ⟨0, h'⟩ := Fin.ext (show g.val = 0 by omega)
      have hh := hr r
      rw [blk0_apply V c 0 h h' r j, blk1_apply V c 0 h j] at hh
      exact hh
    · rintro ⟨hNI, hr⟩
      refine ⟨hNI, hNI, fun r => ?_⟩
      rw [blk0_apply V c 0 h h' r j, blk1_apply V c 0 h j]
      exact hr ⟨0, h'⟩ (le_refl _) r
  | n + 1, h => by
    have hN : cfg2.N = 10 := N_2
    have h' : n + 1 < 10 := by omega
    show k2_pay5 (iblk2 V c 0 ⟨n + 1, h⟩) (iblk2 V c 1 ⟨n + 1, h⟩) (chain V c n (Nat.lt_of_succ_lt h)).2 (ix2 (0 : Fin 1) j) ≤ y ↔ _
    refine (pay5_le_iff (iblk2 V c 0 ⟨n + 1, h⟩) (iblk2 V c 1 ⟨n + 1, h⟩) (chain V c n (Nat.lt_of_succ_lt h)).2 j y).trans ?_
    rw [chain_max_le j y n (Nat.lt_of_succ_lt h)]
    constructor
    · rintro ⟨⟨hNI, hprev⟩, _, hr⟩
      refine ⟨hNI, fun g hg r => ?_⟩
      by_cases hgn : g.val ≤ n
      · exact hprev g hgn r
      · obtain rfl : g = ⟨n + 1, h'⟩ := Fin.ext (show g.val = n + 1 by omega)
        have hh := hr r
        rw [blk0_apply V c (n + 1) h h' r j, blk1_apply V c (n + 1) h j] at hh
        exact hh
    · rintro ⟨hNI, hall⟩
      refine ⟨⟨hNI, fun g hg r => hall g (by omega) r⟩, hNI, fun r => ?_⟩
      rw [blk0_apply V c (n + 1) h h' r j, blk1_apply V c (n + 1) h j]
      exact hall ⟨n + 1, h'⟩ (le_refl _) r

end Value

end Cert.KernelIdeal.Bridge.R2

namespace Cert.KernelIdeal.Bridge

open Idealize.ShloMosaic Idealize.ShloMosaic.TcCoe Idealize.SL.Sem Cert.KernelIdeal Cert.KernelIdeal.Gen
open Idealize.ShloMosaic.Pipeline (Dat)
open Idealize.ShloMosaic.ValueIdx

variable (V : (c : Dev nD) → (b : Ref sig .tc) → Buf (Elt Ideal) ((c : Thread nD τ).loc b)) (c : Dev nD)

/-- The pooling region's first result: the [1,128] row of column sums of the array plus the bias row, over all 50000
    rows. The ten points add their blocks' column sums to a running row started at zero; over the extended reals the
    ordered chain is the one sum over all rows, by associativity and commutativity of addition alone. -/
theorem region2_sum :
    (dat2 (F := Ideal) V c).arrAt 2 cfg2.N
      = shapeCast S1x128 (Host.reduceAdd (F := Ideal)
          (addf (F := Ideal) (V c main_v63) (broadcastInDim S50000x128 ![0, 1] bcastRow128 (V c main_v64)))
          (constant (F := Ideal) S_ .f32 0x00000000#32) redRows posScalar) cast128 := by
  rw [R2.final_2 (F := Ideal) V c]
  refine R2.ext_row _ _ fun j => ?_
  rw [R2.host_sum V c j, R2.sum_rows]
  exact R2.chain_sum V c j 9 R2.lt9

/-- The pooling region's second result: the [1,128] row of column maxima of the array plus the bias row, over all
    50000 rows, from `-∞`. A number bounds the running maximum after the last point exactly when it bounds `-∞` and
    every row of every group, which is exactly when it bounds the maximum over all rows. -/
theorem region2_max :
    (dat2 (F := Ideal) V c).arrAt 3 cfg2.N
      = shapeCast S1x128 (Host.reduce (FloatOps.maximumf (F := Ideal))
          (addf (F := Ideal) (V c main_v63) (broadcastInDim S50000x128 ![0, 1] bcastRow128 (V c main_v64)))
          (constant (F := Ideal) S_ .f32 0xFF800000#32) redRows posScalar) cast128 := by
  rw [R2.final_3 (F := Ideal) V c]
  refine R2.ext_row _ _ fun j => eq_of_forall_ge_iff fun y => ?_
  rw [R2.chain_max_le V c j y 9 R2.lt9, R2.host_max V c j, Finset.fold_max_le]
  refine and_congr_right fun _ => ⟨fun hh k _ => ?_, fun hh g _ r => hh (R2.row g r) (Finset.mem_univ _)⟩
  have hk : k.val < 50000 := k.isLt
  have hq : k.val / 5000 < 10 := by omega
  have e : R2.row ⟨k.val / 5000, hq⟩ ⟨k.val % 5000, Nat.mod_lt _ (by decide)⟩ = k :=
    Fin.ext (show k.val % 5000 + 5000 * (k.val / 5000) = k.val by omega)
  have := hh ⟨k.val / 5000, hq⟩ (show k.val / 5000 ≤ 9 by omega) ⟨k.val % 5000, Nat.mod_lt _ (by decide)⟩
  rw [e] at this
  exact this

end Cert.KernelIdeal.Bridge

end
-- ==== Proof.RefRun.lean ====
/-
  The reference program's run, read back. Its @main is a straight line of 141 host operations once the three
  helper functions it calls (the NaN/infinity clean-up with its three selects, and the two "where the degree is
  positive" selects) are laid out at their call sites over each call's own buffers. Every weakly fair execution
  terminates with each buffer at the fold of those operations over the launch contents; at the result buffer
  that fold is the specification's term of the seven arguments, and no operation writes an argument.
-/
import proofs.«130542_j80358838108317_1_alg».proof.Proof.Gen.ReferenceIdeal
import proofs.«130542_j80358838108317_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first 60 statements of @main: the clean-up of x, the edge lists with self loops, the degrees, their inverse
    square roots, the edges' coefficients, x'·W1ᵀ, and the first gather–scale–scatter. -/
abbrev ops0 : List (HloOp τ sig (Elt F)) :=
  [ StableHlo.nullary main_cst (constant S_ .f32 0x00000000#32),
    TRef.binary (.of main_arg0) (.of main_arg0) main_call0.v0 (cmpf .une),
    TRef.unary (.of main_cst) main_call0.v1 id,
    TRef.unary main_call0.v1 main_call0.call0.v0 (broadcastInDim S50000x128 ![] bcast_S_S50000x128),
    TRef.ternary main_call0.v0 main_call0.call0.v0 (.of main_arg0) main_call0.call0.v1 select,
    TRef.nullary main_call0.cst (constant S_ .f32 0x7F800000#32),
    TRef.unary main_call0.cst main_call0.v3 (broadcastInDim S50000x128 ![] bcast_S_S50000x128),
    TRef.binary main_call0.call0.v1 main_call0.v3 main_call0.v4 (cmpf .oeq),
    TRef.nullary main_call0.cst_0 (constant S_ .f32 0x7F7FFFFF#32),
    TRef.unary main_call0.cst_0 main_call0.call1.v0 (broadcastInDim S50000x128 ![] bcast_S_S50000x128),
    TRef.ternary main_call0.v4 main_call0.call1.v0 main_call0.call0.v1 main_call0.call1.v1 select,
    TRef.nullary main_call0.cst_1 (constant S_ .f32 0xFF800000#32),
    TRef.unary main_call0.cst_1 main_call0.v6 (broadcastInDim S50000x128 ![] bcast_S_S50000x128),
    TRef.binary main_call0.call1.v1 main_call0.v6 main_call0.v7 (cmpf .oeq),
    TRef.nullary main_call0.cst_2 (constant S_ .f32 0xFF7FFFFF#32),
    TRef.unary main_call0.cst_2 main_call0.call2.v0 (broadcastInDim S50000x128 ![] bcast_S_S50000x128),
    TRef.ternary main_call0.v7 main_call0.call2.v0 main_call0.call1.v1 main_call0.call2.v1 select,
    StableHlo.nullary main_v1 (iotaInDim S50000 32 0),
    StableHlo.unary main_arg1 main_v2 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v2 main_v3 rfl shapeCasts_S1x800000_S800000,
    StableHlo.binary main_v3 main_v1 main_v4 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v5 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v5 main_v6 rfl shapeCasts_S1x800000_S800000,
    StableHlo.binary main_v6 main_v1 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_0 (constant S_ .f32 0x3F800000#32),
    StableHlo.unary main_cst_0 main_v8 (broadcastInDim S50000 ![] bcast_S_S50000 : (⟨S_, .f32⟩ : BufTy).Contents (Elt F) → (⟨S50000, .f32⟩ : BufTy).Contents (Elt F)),
    StableHlo.binary main_arg2 main_v8 main_v9 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_1 (constant S_ .f32 0x00000000#32),
    StableHlo.unary main_cst_1 main_v10 (broadcastInDim S50000 ![] bcast_S_S50000 : (⟨S_, .f32⟩ : BufTy).Contents (Elt F) → (⟨S50000, .f32⟩ : BufTy).Contents (Elt F)),
    StableHlo.unary main_v7 main_v11 (broadcastInDim S850000x1 ![0] bcast_S850000_S850000x1_0 : (⟨S850000, .i32⟩ : BufTy).Contents (Elt F) → (⟨S850000x1, .i32⟩ : BufTy).Contents (Elt F)),
    StableHlo.ternary main_v10 main_v11 main_v9 main_v12 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_2 (constant S_ .f32 0x00000000#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v12 main_v13 main_v14 (cmpf .ogt : (⟨S50000, .f32⟩ : BufTy).Contents (Elt F) → (⟨S50000, .f32⟩ : BufTy).Contents (Elt F) → (⟨S50000, .i1⟩ : BufTy).Contents (Elt F)),
    StableHlo.unary main_v12 main_v15 (Host.rsqrt : (⟨S50000, .f32⟩ : BufTy).Contents (Elt F) → (⟨S50000, .f32⟩ : BufTy).Contents (Elt F)),
    StableHlo.nullary main_cst_3 (constant S_ .f32 0x00000000#32),
    TRef.unary (.of main_cst_3) main_call1.v0 id,
    TRef.unary main_call1.v0 main_call1.v1 (broadcastInDim S50000 ![] bcast_S_S50000),
    TRef.ternary (.of main_v14) (.of main_v15) main_call1.v1 main_call1.v2 select,
    StableHlo.nullary main_c (constantI S_ 32 0#32),
    StableHlo.unary main_c main_v17 (broadcastInDim S850000 ![] bcast_S_S850000 : (⟨S_, .i32⟩ : BufTy).Contents (Elt F) → (⟨S850000, .i32⟩ : BufTy).Contents (Elt F)),
    StableHlo.binary main_v4 main_v17 main_v18 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v19 (broadcastInDim S850000 ![] bcast_S_S850000 : (⟨S_, .i32⟩ : BufTy).Contents (Elt F) → (⟨S850000, .i32⟩ : BufTy).Contents (Elt F)),
    StableHlo.binary main_v4 main_v19 main_v20 (addi : (⟨S850000, .i32⟩ : BufTy).Contents (Elt F) → (⟨S850000, .i32⟩ : BufTy).Contents (Elt F) → (⟨S850000, .i32⟩ : BufTy).Contents (Elt F)),
    StableHlo.ternary main_v18 main_v20 main_v4 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v21 main_v22 (broadcastInDim S850000x1 ![0] bcast_S850000_S850000x1_0 : (⟨S850000, .i32⟩ : BufTy).Contents (Elt F) → (⟨S850000x1, .i32⟩ : BufTy).Contents (Elt F)),
    StableHlo.binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v23 main_v9 main_v24 (mulf : (⟨S850000, .f32⟩ : BufTy).Contents (Elt F) → (⟨S850000, .f32⟩ : BufTy).Contents (Elt F) → (⟨S850000, .f32⟩ : BufTy).Contents (Elt F)),
    StableHlo.nullary main_c_5 (constantI S_ 32 0#32),
    StableHlo.unary main_c_5 main_v25 (broadcastInDim S850000 ![] bcast_S_S850000 : (⟨S_, .i32⟩ : BufTy).Contents (Elt F) → (⟨S850000, .i32⟩ : BufTy).Contents (Elt F)),
    StableHlo.binary main_v7 main_v25 main_v26 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v27 (broadcastInDim S850000 ![] bcast_S_S850000 : (⟨S_, .i32⟩ : BufTy).Contents (Elt F) → (⟨S850000, .i32⟩ : BufTy).Contents (Elt F)),
    StableHlo.binary main_v7 main_v27 main_v28 (addi : (⟨S850000, .i32⟩ : BufTy).Contents (Elt F) → (⟨S850000, .i32⟩ : BufTy).Contents (Elt F) → (⟨S850000, .i32⟩ : BufTy).Contents (Elt F)),
    StableHlo.ternary main_v26 main_v28 main_v7 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v29 main_v30 (broadcastInDim S850000x1 ![0] bcast_S850000_S850000x1_0 : (⟨S850000, .i32⟩ : BufTy).Contents (Elt F) → (⟨S850000x1, .i32⟩ : BufTy).Contents (Elt F)),
    StableHlo.binary main_v16 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v24 main_v31 main_v32 (mulf : (⟨S850000, .f32⟩ : BufTy).Contents (Elt F) → (⟨S850000, .f32⟩ : BufTy).Contents (Elt F) → (⟨S850000, .f32⟩ : BufTy).Contents (Elt F)),
    StableHlo.unary main_arg3 main_v33 ((transpose S128x256 [1, 0] · transposes_S256x128_S128x256_1_0) : (⟨S256x128, .f32⟩ : BufTy).Contents (Elt F) → (⟨S128x256, .f32⟩ : BufTy).Contents (Elt F)),
    StableHlo.binary main_v0 main_v33 main_v34 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.nullary main_c_7 (constantI S_ 32 0#32),
    StableHlo.unary main_c_7 main_v35 (broadcastInDim S850000 ![] bcast_S_S850000 : (⟨S_, .i32⟩ : BufTy).Contents (Elt F) → (⟨S850000, .i32⟩ : BufTy).Contents (Elt F)),
    StableHlo.binary main_v4 main_v35 main_v36 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v37 (broadcastInDim S850000 ![] bcast_S_S850000 : (⟨S_, .i32⟩ : BufTy).Contents (Elt F) → (⟨S850000, .i32⟩ : BufTy).Contents (Elt F)),
    StableHlo.binary main_v4 main_v37 main_v38 (addi : (⟨S850000, .i32⟩ : BufTy).Contents (Elt F) → (⟨S850000, .i32⟩ : BufTy).Contents (Elt F) → (⟨S850000, .i32⟩ : BufTy).Contents (Elt F)),
    StableHlo.ternary main_v36 main_v38 main_v4 main_v39 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v39 main_v40 (broadcastInDim S850000x1 ![0] bcast_S850000_S850000x1_0 : (⟨S850000, .i32⟩ : BufTy).Contents (Elt F) → (⟨S850000x1, .i32⟩ : BufTy).Contents (Elt F)),
    StableHlo.binary main_v34 main_v40 main_v41 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v32 main_v42 (broadcastInDim S850000x1 ![0] bcast_S850000_S850000x1_0 : (⟨S850000, .f32⟩ : BufTy).Contents (Elt F) → (⟨S850000x1, .f32⟩ : BufTy).Contents (Elt F)),
    StableHlo.unary main_v42 main_v43 (broadcastInDim S850000x256 ![0, 1] bcast_S850000x1_S850000x256_0_1 : (⟨S850000x1, .f32⟩ : BufTy).Contents (Elt F) → (⟨S850000x256, .f32⟩ : BufTy).Contents (Elt F)),
    StableHlo.binary main_v41 main_v43 main_v44 (mulf : (⟨S850000x256, .f32⟩ : BufTy).Contents (Elt F) → (⟨S850000x256, .f32⟩ : BufTy).Contents (Elt F) → (⟨S850000x256, .f32⟩ : BufTy).Contents (Elt F)),
    StableHlo.nullary main_cst_9 (constant S_ .f32 0x00000000#32),
    StableHlo.unary main_cst_9 main_v45 (broadcastInDim S50000x256 ![] bcast_S_S50000x256 : (⟨S_, .f32⟩ : BufTy).Contents (Elt F) → (⟨S50000x256, .f32⟩ : BufTy).Contents (Elt F)),
    StableHlo.unary main_v7 main_v46 (broadcastInDim S850000x1 ![0] bcast_S850000_S850000x1_0 : (⟨S850000, .i32⟩ : BufTy).Contents (Elt F) → (⟨S850000x1, .i32⟩ : BufTy).Contents (Elt F)),
    StableHlo.ternary main_v45 main_v46 main_v44 main_v47 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

/-- Statements 61 … 120: the first bias, the coefficients once more, h1·W2ᵀ, the second gather–scale–scatter, the second
    bias, the column sums and their division by 50000. -/
abbrev ops1 : List (HloOp τ sig (Elt F)) :=
  [ StableHlo.unary main_arg4 main_v48 (broadcastInDim S1x256 ![1] bcast_S256_S1x256_1 : (⟨S256, .f32⟩ : BufTy).Contents (Elt F) → (⟨S1x256, .f32⟩ : BufTy).Contents (Elt F)),
    StableHlo.unary main_v48 main_v49 (broadcastInDim S50000x256 ![0, 1] bcast_S1x256_S50000x256_0_1 : (⟨S1x256, .f32⟩ : BufTy).Contents (Elt F) → (⟨S50000x256, .f32⟩ : BufTy).Contents (Elt F)),
    StableHlo.binary main_v47 main_v49 main_v50 (addf : (⟨S50000x256, .f32⟩ : BufTy).Contents (Elt F) → (⟨S50000x256, .f32⟩ : BufTy).Contents (Elt F) → (⟨S50000x256, .f32⟩ : BufTy).Contents (Elt F)),
    StableHlo.nullary main_cst_10 (constant S_ .f32 0x00000000#32),
    StableHlo.unary main_cst_10 main_v51 (broadcastInDim S50000 ![] bcast_S_S50000 : (⟨S_, .f32⟩ : BufTy).Contents (Elt F) → (⟨S50000, .f32⟩ : BufTy).Contents (Elt F)),
    StableHlo.unary main_v7 main_v52 (broadcastInDim S850000x1 ![0] bcast_S850000_S850000x1_0 : (⟨S850000, .i32⟩ : BufTy).Contents (Elt F) → (⟨S850000x1, .i32⟩ : BufTy).Contents (Elt F)),
    StableHlo.ternary main_v51 main_v52 main_v9 main_v53 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_11 (constant S_ .f32 0x00000000#32),
    StableHlo.unary main_cst_11 main_v54 (broadcastInDim S50000 ![] bcast_S_S50000 : (⟨S_, .f32⟩ : BufTy).Contents (Elt F) → (⟨S50000, .f32⟩ : BufTy).Contents (Elt F)),
    StableHlo.binary main_v53 main_v54 main_v55 (cmpf .ogt : (⟨S50000, .f32⟩ : BufTy).Contents (Elt F) → (⟨S50000, .f32⟩ : BufTy).Contents (Elt F) → (⟨S50000, .i1⟩ : BufTy).Contents (Elt F)),
    StableHlo.unary main_v53 main_v56 (Host.rsqrt : (⟨S50000, .f32⟩ : BufTy).Contents (Elt F) → (⟨S50000, .f32⟩ : BufTy).Contents (Elt F)),
    StableHlo.nullary main_cst_12 (constant S_ .f32 0x00000000#32),
    TRef.unary (.of main_cst_12) main_call2.v0 id,
    TRef.unary main_call2.v0 main_call2.v1 (broadcastInDim S50000 ![] bcast_S_S50000),
    TRef.ternary (.of main_v55) (.of main_v56) main_call2.v1 main_call2.v2 select,
    StableHlo.nullary main_c_13 (constantI S_ 32 0#32),
    StableHlo.unary main_c_13 main_v58 (broadcastInDim S850000 ![] bcast_S_S850000 : (⟨S_, .i32⟩ : BufTy).Contents (Elt F) → (⟨S850000, .i32⟩ : BufTy).Contents (Elt F)),
    StableHlo.binary main_v4 main_v58 main_v59 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v60 (broadcastInDim S850000 ![] bcast_S_S850000 : (⟨S_, .i32⟩ : BufTy).Contents (Elt F) → (⟨S850000, .i32⟩ : BufTy).Contents (Elt F)),
    StableHlo.binary main_v4 main_v60 main_v61 (addi : (⟨S850000, .i32⟩ : BufTy).Contents (Elt F) → (⟨S850000, .i32⟩ : BufTy).Contents (Elt F) → (⟨S850000, .i32⟩ : BufTy).Contents (Elt F)),
    StableHlo.ternary main_v59 main_v61 main_v4 main_v62 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v62 main_v63 (broadcastInDim S850000x1 ![0] bcast_S850000_S850000x1_0 : (⟨S850000, .i32⟩ : BufTy).Contents (Elt F) → (⟨S850000x1, .i32⟩ : BufTy).Contents (Elt F)),
    StableHlo.binary main_v57 main_v63 main_v64 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v64 main_v9 main_v65 (mulf : (⟨S850000, .f32⟩ : BufTy).Contents (Elt F) → (⟨S850000, .f32⟩ : BufTy).Contents (Elt F) → (⟨S850000, .f32⟩ : BufTy).Contents (Elt F)),
    StableHlo.nullary main_c_15 (constantI S_ 32 0#32),
    StableHlo.unary main_c_15 main_v66 (broadcastInDim S850000 ![] bcast_S_S850000 : (⟨S_, .i32⟩ : BufTy).Contents (Elt F) → (⟨S850000, .i32⟩ : BufTy).Contents (Elt F)),
    StableHlo.binary main_v7 main_v66 main_v67 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v68 (broadcastInDim S850000 ![] bcast_S_S850000 : (⟨S_, .i32⟩ : BufTy).Contents (Elt F) → (⟨S850000, .i32⟩ : BufTy).Contents (Elt F)),
    StableHlo.binary main_v7 main_v68 main_v69 (addi : (⟨S850000, .i32⟩ : BufTy).Contents (Elt F) → (⟨S850000, .i32⟩ : BufTy).Contents (Elt F) → (⟨S850000, .i32⟩ : BufTy).Contents (Elt F)),
    StableHlo.ternary main_v67 main_v69 main_v7 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v70 main_v71 (broadcastInDim S850000x1 ![0] bcast_S850000_S850000x1_0 : (⟨S850000, .i32⟩ : BufTy).Contents (Elt F) → (⟨S850000x1, .i32⟩ : BufTy).Contents (Elt F)),
    StableHlo.binary main_v57 main_v71 main_v72 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v65 main_v72 main_v73 (mulf : (⟨S850000, .f32⟩ : BufTy).Contents (Elt F) → (⟨S850000, .f32⟩ : BufTy).Contents (Elt F) → (⟨S850000, .f32⟩ : BufTy).Contents (Elt F)),
    StableHlo.unary main_arg5 main_v74 ((transpose S256x128 [1, 0] · transposes_S128x256_S256x128_1_0) : (⟨S128x256, .f32⟩ : BufTy).Contents (Elt F) → (⟨S256x128, .f32⟩ : BufTy).Contents (Elt F)),
    StableHlo.binary main_v50 main_v74 main_v75 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_c_17 (constantI S_ 32 0#32),
    StableHlo.unary main_c_17 main_v76 (broadcastInDim S850000 ![] bcast_S_S850000 : (⟨S_, .i32⟩ : BufTy).Contents (Elt F) → (⟨S850000, .i32⟩ : BufTy).Contents (Elt F)),
    StableHlo.binary main_v4 main_v76 main_v77 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v78 (broadcastInDim S850000 ![] bcast_S_S850000 : (⟨S_, .i32⟩ : BufTy).Contents (Elt F) → (⟨S850000, .i32⟩ : BufTy).Contents (Elt F)),
    StableHlo.binary main_v4 main_v78 main_v79 (addi : (⟨S850000, .i32⟩ : BufTy).Contents (Elt F) → (⟨S850000, .i32⟩ : BufTy).Contents (Elt F) → (⟨S850000, .i32⟩ : BufTy).Contents (Elt F)),
    StableHlo.ternary main_v77 main_v79 main_v4 main_v80 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v80 main_v81 (broadcastInDim S850000x1 ![0] bcast_S850000_S850000x1_0 : (⟨S850000, .i32⟩ : BufTy).Contents (Elt F) → (⟨S850000x1, .i32⟩ : BufTy).Contents (Elt F)),
    StableHlo.binary main_v75 main_v81 main_v82 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v73 main_v83 (broadcastInDim S850000x1 ![0] bcast_S850000_S850000x1_0 : (⟨S850000, .f32⟩ : BufTy).Contents (Elt F) → (⟨S850000x1, .f32⟩ : BufTy).Contents (Elt F)),
    StableHlo.unary main_v83 main_v84 (broadcastInDim S850000x128 ![0, 1] bcast_S850000x1_S850000x128_0_1 : (⟨S850000x1, .f32⟩ : BufTy).Contents (Elt F) → (⟨S850000x128, .f32⟩ : BufTy).Contents (Elt F)),
    StableHlo.binary main_v82 main_v84 main_v85 (mulf : (⟨S850000x128, .f32⟩ : BufTy).Contents (Elt F) → (⟨S850000x128, .f32⟩ : BufTy).Contents (Elt F) → (⟨S850000x128, .f32⟩ : BufTy).Contents (Elt F)),
    StableHlo.nullary main_cst_19 (constant S_ .f32 0x00000000#32),
    StableHlo.unary main_cst_19 main_v86 (broadcastInDim S50000x128 ![] bcast_S_S50000x128 : (⟨S_, .f32⟩ : BufTy).Contents (Elt F) → (⟨S50000x128, .f32⟩ : BufTy).Contents (Elt F)),
    StableHlo.unary main_v7 main_v87 (broadcastInDim S850000x1 ![0] bcast_S850000_S850000x1_0 : (⟨S850000, .i32⟩ : BufTy).Contents (Elt F) → (⟨S850000x1, .i32⟩ : BufTy).Contents (Elt F)),
    StableHlo.ternary main_v86 main_v87 main_v85 main_v88 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg6 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S50000x128 ![0, 1] bcast_S1x128_S50000x128_0_1 : (⟨S1x128, .f32⟩ : BufTy).Contents (Elt F) → (⟨S50000x128, .f32⟩ : BufTy).Contents (Elt F)),
    StableHlo.binary main_v88 main_v90 main_v91 (addf : (⟨S50000x128, .f32⟩ : BufTy).Contents (Elt F) → (⟨S50000x128, .f32⟩ : BufTy).Contents (Elt F) → (⟨S50000x128, .f32⟩ : BufTy).Contents (Elt F)),
    StableHlo.nullary main_cst_20 (constant S_ .f32 0x00000000#32),
    StableHlo.binary main_v91 main_cst_20 main_v92 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_21 (constant S_ .f32 0x47435000#32),
    StableHlo.unary main_cst_21 main_v93 (broadcastInDim S128 ![] bcast_S_S128 : (⟨S_, .f32⟩ : BufTy).Contents (Elt F) → (⟨S128, .f32⟩ : BufTy).Contents (Elt F)),
    StableHlo.binary main_v92 main_v93 main_v94 (Host.divf : (⟨S128, .f32⟩ : BufTy).Contents (Elt F) → (⟨S128, .f32⟩ : BufTy).Contents (Elt F) → (⟨S128, .f32⟩ : BufTy).Contents (Elt F)),
    StableHlo.nullary main_cst_22 (constant S_ .f32 0xFF800000#32) ]

/-- The last statements: the column maxima and the concatenation. -/
abbrev ops2 : List (HloOp τ sig (Elt F)) :=
  [ StableHlo.binary main_v91 main_cst_22 main_v95 ((fun x v => Host.reduce FloatOps.maximumf x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.binary main_v94 main_v95 main_v96 ((fun a b => concatenate S256 0 [⟨S128, a⟩, ⟨S128, b⟩] concatenates_S128_S128_S256_d0) : (⟨S128, .f32⟩ : BufTy).Contents (Elt F) → (⟨S128, .f32⟩ : BufTy).Contents (Elt F) → (⟨S256, .f32⟩ : BufTy).Contents (Elt F)) ]

-- one bind per statement is re-associated: the rewrite recurses once per statement
set_option maxRecDepth 4096 in
theorem part0_eq (c : Dev nD) : main_part0 (F := F) c = seq ops0 := by
  simp only [main_part0, fn_nan_to_num.body, fn_where.body, fn_where_0.body, fn_where_1.body, seq, bind_assoc, pure_bind]
  rfl

set_option maxRecDepth 4096 in
theorem part1_eq (c : Dev nD) : main_part1 (F := F) c = seq ops1 := by
  simp only [main_part1, fn_where_1.body, seq, bind_assoc, pure_bind]
  rfl

theorem part2_eq (c : Dev nD) : main_part2 (F := F) c = seq ops2 := by
  simp only [main_part2, seq, bind_assoc, pure_bind]

/-- @main is the three stretches one after the other. -/
theorem main_eq (c : Dev nD) : main (F := F) c = seq (ops0 ++ (ops1 ++ ops2)) := by
  rw [seq_append, seq_append]
  unfold main
  rw [part0_eq, part1_eq, part2_eq]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., binary_bufs_sub .., unary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem ops1_sub : (ops1 : List (HloOp τ sig (Elt F))).Forall fun op => op.bufs ⊆ tcRefs τ sig :=
  ⟨unary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub ..⟩
theorem ops2_sub : (ops2 : List (HloOp τ sig (Elt F))).Forall fun op => op.bufs ⊆ tcRefs τ sig :=
  ⟨binary_bufs_sub .., binary_bufs_sub ..⟩

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor

/-- A property of every operation of the three stretches is a property of every operation of the whole line. -/
theorem forall_ops {p : HloOp τ sig (Elt F) → Prop} (h0 : (ops0 : List (HloOp τ sig (Elt F))).Forall p)
    (h1 : (ops1 : List (HloOp τ sig (Elt F))).Forall p) (h2 : (ops2 : List (HloOp τ sig (Elt F))).Forall p) :
    ∀ op ∈ (ops0 ++ (ops1 ++ ops2) : List (HloOp τ sig (Elt F))), p op := fun op h => by
  rcases List.mem_append.mp h with h | h
  · exact List.forall_iff_forall_mem.mp h0 op h
  rcases List.mem_append.mp h with h | h
  · exact List.forall_iff_forall_mem.mp h1 op h
  · exact List.forall_iff_forall_mem.mp h2 op h

/-- Running two lines one after the other folds the second over the fold of the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The whole line's fold from the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after ops2 (after ops1 (after ops0 (launchContents m c))) (Proc.devRef .tc b) :=
  (θ_run defs _ _).mono (fun _ h c b => (h c b).trans (by rw [after_append, after_append]))
    (run_seq scopedRefs_eq scopedSems_eq defs main (fun _ => ops0 ++ (ops1 ++ ops2)) main_eq
      (fun _ => List.forall_iff_forall_mem.mpr (forall_ops ops0_sub ops1_sub ops2_sub)) m ρ
      (fun _ => forall_ops ops0_fresh ops1_fresh ops2_fresh))

end Cert.ReferenceIdeal.RefRun

end
-- ==== Proof.RefVal.lean ====
/-
  The reference program's result is the specification's term of its seven arguments, and its run leaves the
  arguments as launched.

  The fold of the 141 host operations is read in eight stages, each from arbitrary contents W of the buffers: the
  clean-up of x (NaN, +inf, -inf replaced); the two edge lists and the weights with the self loops appended; the
  weighted in-degrees, where they are positive, and their inverse square roots; the edges' coefficients
  dis[src] · w · dis[dst], x'·W1ᵀ and the first gather, scale and scatter-add; the second layer (the first bias, the
  same coefficients computed once more from the same edge lists and weights, h1·W2ᵀ, the second aggregation, the
  second bias); the column sums divided by 50000; the column maxima; their concatenation. A stage's lemma says what
  it leaves at the buffers later stages read, given what W holds at the buffers it reads, each operation's result
  being its function's value of its operands' contents and every other buffer keeping what it held (the helper
  functions' typed buffers carry their contents unchanged). Chained, the stages give the specification at the result
  buffer; and no operation writes an argument's buffer.
-/
import proofs.«130542_j80358838108317_1_alg».proof.Proof.RefRun

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

open Idealize.ShloMosaic.StableHlo in
/-- Unrolls a fold of host operations at a literal reference, the helper functions' operations included: each
    operation's result at its own buffer is its function's value, at any other buffer what was there. -/
macro "fold_results" : tactic =>
  `(tactic| (simp (disch := decide) only [TRef.nullary, TRef.unary, TRef.binary, TRef.ternary, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

/-- The zero constant and the clean-up of x: NaN, +inf and -inf replaced, by three selects. -/
abbrev opsA : List (HloOp τ sig (Elt F)) :=
  [ StableHlo.nullary main_cst (constant S_ .f32 0x00000000#32),
    TRef.binary (.of main_arg0) (.of main_arg0) main_call0.v0 (cmpf .une),
    TRef.unary (.of main_cst) main_call0.v1 id,
    TRef.unary main_call0.v1 main_call0.call0.v0 (broadcastInDim S50000x128 ![] bcast_S_S50000x128),
    TRef.ternary main_call0.v0 main_call0.call0.v0 (.of main_arg0) main_call0.call0.v1 select,
    TRef.nullary main_call0.cst (constant S_ .f32 0x7F800000#32),
    TRef.unary main_call0.cst main_call0.v3 (broadcastInDim S50000x128 ![] bcast_S_S50000x128),
    TRef.binary main_call0.call0.v1 main_call0.v3 main_call0.v4 (cmpf .oeq),
    TRef.nullary main_call0.cst_0 (constant S_ .f32 0x7F7FFFFF#32),
    TRef.unary main_call0.cst_0 main_call0.call1.v0 (broadcastInDim S50000x128 ![] bcast_S_S50000x128),
    TRef.ternary main_call0.v4 main_call0.call1.v0 main_call0.call0.v1 main_call0.call1.v1 select,
    TRef.nullary main_call0.cst_1 (constant S_ .f32 0xFF800000#32),
    TRef.unary main_call0.cst_1 main_call0.v6 (broadcastInDim S50000x128 ![] bcast_S_S50000x128),
    TRef.binary main_call0.call1.v1 main_call0.v6 main_call0.v7 (cmpf .oeq),
    TRef.nullary main_call0.cst_2 (constant S_ .f32 0xFF7FFFFF#32),
    TRef.unary main_call0.cst_2 main_call0.call2.v0 (broadcastInDim S50000x128 ![] bcast_S_S50000x128),
    TRef.ternary main_call0.v7 main_call0.call2.v0 main_call0.call1.v1 main_call0.call2.v1 select ]

/-- The two edge lists and the weights, each extended by the self loops. -/
abbrev opsB1 : List (HloOp τ sig (Elt F)) :=
  [ StableHlo.nullary main_v1 (iotaInDim S50000 32 0),
    StableHlo.unary main_arg1 main_v2 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v2 main_v3 rfl shapeCasts_S1x800000_S800000,
    StableHlo.binary main_v3 main_v1 main_v4 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v5 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v5 main_v6 rfl shapeCasts_S1x800000_S800000,
    StableHlo.binary main_v6 main_v1 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_0 (constant S_ .f32 0x3F800000#32),
    StableHlo.unary main_cst_0 main_v8 (broadcastInDim S50000 ![] bcast_S_S50000 : (⟨S_, .f32⟩ : BufTy).Contents (Elt F) → (⟨S50000, .f32⟩ : BufTy).Contents (Elt F)),
    StableHlo.binary main_arg2 main_v8 main_v9 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)) ]

/-- The weighted in-degrees, where they are positive, and their inverse square roots. -/
abbrev opsB2 : List (HloOp τ sig (Elt F)) :=
  [ StableHlo.nullary main_cst_1 (constant S_ .f32 0x00000000#32),
    StableHlo.unary main_cst_1 main_v10 (broadcastInDim S50000 ![] bcast_S_S50000 : (⟨S_, .f32⟩ : BufTy).Contents (Elt F) → (⟨S50000, .f32⟩ : BufTy).Contents (Elt F)),
    StableHlo.unary main_v7 main_v11 (broadcastInDim S850000x1 ![0] bcast_S850000_S850000x1_0 : (⟨S850000, .i32⟩ : BufTy).Contents (Elt F) → (⟨S850000x1, .i32⟩ : BufTy).Contents (Elt F)),
    StableHlo.ternary main_v10 main_v11 main_v9 main_v12 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_2 (constant S_ .f32 0x00000000#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v12 main_v13 main_v14 (cmpf .ogt : (⟨S50000, .f32⟩ : BufTy).Contents (Elt F) → (⟨S50000, .f32⟩ : BufTy).Contents (Elt F) → (⟨S50000, .i1⟩ : BufTy).Contents (Elt F)),
    StableHlo.unary main_v12 main_v15 (Host.rsqrt : (⟨S50000, .f32⟩ : BufTy).Contents (Elt F) → (⟨S50000, .f32⟩ : BufTy).Contents (Elt F)),
    StableHlo.nullary main_cst_3 (constant S_ .f32 0x00000000#32) ]

/-- The inverse square roots where the degree is positive, the edges' coefficients, x'·W1ᵀ, and the first gather, scale and scatter-add. -/
abbrev opsC : List (HloOp τ sig (Elt F)) :=
  [ TRef.unary (.of main_cst_3) main_call1.v0 id,
    TRef.unary main_call1.v0 main_call1.v1 (broadcastInDim S50000 ![] bcast_S_S50000),
    TRef.ternary (.of main_v14) (.of main_v15) main_call1.v1 main_call1.v2 select,
    StableHlo.nullary main_c (constantI S_ 32 0#32),
    StableHlo.unary main_c main_v17 (broadcastInDim S850000 ![] bcast_S_S850000 : (⟨S_, .i32⟩ : BufTy).Contents (Elt F) → (⟨S850000, .i32⟩ : BufTy).Contents (Elt F)),
    StableHlo.binary main_v4 main_v17 main_v18 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v19 (broadcastInDim S850000 ![] bcast_S_S850000 : (⟨S_, .i32⟩ : BufTy).Contents (Elt F) → (⟨S850000, .i32⟩ : BufTy).Contents (Elt F)),
    StableHlo.binary main_v4 main_v19 main_v20 (addi : (⟨S850000, .i32⟩ : BufTy).Contents (Elt F) → (⟨S850000, .i32⟩ : BufTy).Contents (Elt F) → (⟨S850000, .i32⟩ : BufTy).Contents (Elt F)),
    StableHlo.ternary main_v18 main_v20 main_v4 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v21 main_v22 (broadcastInDim S850000x1 ![0] bcast_S850000_S850000x1_0 : (⟨S850000, .i32⟩ : BufTy).Contents (Elt F) → (⟨S850000x1, .i32⟩ : BufTy).Contents (Elt F)),
    StableHlo.binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v23 main_v9 main_v24 (mulf : (⟨S850000, .f32⟩ : BufTy).Contents (Elt F) → (⟨S850000, .f32⟩ : BufTy).Contents (Elt F) → (⟨S850000, .f32⟩ : BufTy).Contents (Elt F)),
    StableHlo.nullary main_c_5 (constantI S_ 32 0#32),
    StableHlo.unary main_c_5 main_v25 (broadcastInDim S850000 ![] bcast_S_S850000 : (⟨S_, .i32⟩ : BufTy).Contents (Elt F) → (⟨S850000, .i32⟩ : BufTy).Contents (Elt F)),
    StableHlo.binary main_v7 main_v25 main_v26 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v27 (broadcastInDim S850000 ![] bcast_S_S850000 : (⟨S_, .i32⟩ : BufTy).Contents (Elt F) → (⟨S850000, .i32⟩ : BufTy).Contents (Elt F)),
    StableHlo.binary main_v7 main_v27 main_v28 (addi : (⟨S850000, .i32⟩ : BufTy).Contents (Elt F) → (⟨S850000, .i32⟩ : BufTy).Contents (Elt F) → (⟨S850000, .i32⟩ : BufTy).Contents (Elt F)),
    StableHlo.ternary main_v26 main_v28 main_v7 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v29 main_v30 (broadcastInDim S850000x1 ![0] bcast_S850000_S850000x1_0 : (⟨S850000, .i32⟩ : BufTy).Contents (Elt F) → (⟨S850000x1, .i32⟩ : BufTy).Contents (Elt F)),
    StableHlo.binary main_v16 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v24 main_v31 main_v32 (mulf : (⟨S850000, .f32⟩ : BufTy).Contents (Elt F) → (⟨S850000, .f32⟩ : BufTy).Contents (Elt F) → (⟨S850000, .f32⟩ : BufTy).Contents (Elt F)),
    StableHlo.unary main_arg3 main_v33 ((transpose S128x256 [1, 0] · transposes_S256x128_S128x256_1_0) : (⟨S256x128, .f32⟩ : BufTy).Contents (Elt F) → (⟨S128x256, .f32⟩ : BufTy).Contents (Elt F)),
    StableHlo.binary main_v0 main_v33 main_v34 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.nullary main_c_7 (constantI S_ 32 0#32),
    StableHlo.unary main_c_7 main_v35 (broadcastInDim S850000 ![] bcast_S_S850000 : (⟨S_, .i32⟩ : BufTy).Contents (Elt F) → (⟨S850000, .i32⟩ : BufTy).Contents (Elt F)),
    StableHlo.binary main_v4 main_v35 main_v36 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v37 (broadcastInDim S850000 ![] bcast_S_S850000 : (⟨S_, .i32⟩ : BufTy).Contents (Elt F) → (⟨S850000, .i32⟩ : BufTy).Contents (Elt F)),
    StableHlo.binary main_v4 main_v37 main_v38 (addi : (⟨S850000, .i32⟩ : BufTy).Contents (Elt F) → (⟨S850000, .i32⟩ : BufTy).Contents (Elt F) → (⟨S850000, .i32⟩ : BufTy).Contents (Elt F)),
    StableHlo.ternary main_v36 main_v38 main_v4 main_v39 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v39 main_v40 (broadcastInDim S850000x1 ![0] bcast_S850000_S850000x1_0 : (⟨S850000, .i32⟩ : BufTy).Contents (Elt F) → (⟨S850000x1, .i32⟩ : BufTy).Contents (Elt F)),
    StableHlo.binary main_v34 main_v40 main_v41 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v32 main_v42 (broadcastInDim S850000x1 ![0] bcast_S850000_S850000x1_0 : (⟨S850000, .f32⟩ : BufTy).Contents (Elt F) → (⟨S850000x1, .f32⟩ : BufTy).Contents (Elt F)),
    StableHlo.unary main_v42 main_v43 (broadcastInDim S850000x256 ![0, 1] bcast_S850000x1_S850000x256_0_1 : (⟨S850000x1, .f32⟩ : BufTy).Contents (Elt F) → (⟨S850000x256, .f32⟩ : BufTy).Contents (Elt F)),
    StableHlo.binary main_v41 main_v43 main_v44 (mulf : (⟨S850000x256, .f32⟩ : BufTy).Contents (Elt F) → (⟨S850000x256, .f32⟩ : BufTy).Contents (Elt F) → (⟨S850000x256, .f32⟩ : BufTy).Contents (Elt F)),
    StableHlo.nullary main_cst_9 (constant S_ .f32 0x00000000#32),
    StableHlo.unary main_cst_9 main_v45 (broadcastInDim S50000x256 ![] bcast_S_S50000x256 : (⟨S_, .f32⟩ : BufTy).Contents (Elt F) → (⟨S50000x256, .f32⟩ : BufTy).Contents (Elt F)),
    StableHlo.unary main_v7 main_v46 (broadcastInDim S850000x1 ![0] bcast_S850000_S850000x1_0 : (⟨S850000, .i32⟩ : BufTy).Contents (Elt F) → (⟨S850000x1, .i32⟩ : BufTy).Contents (Elt F)),
    StableHlo.ternary main_v45 main_v46 main_v44 main_v47 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)) ]

/-- The first bias, the coefficients once more, h1·W2ᵀ, the second gather, scale and scatter-add, the second bias. -/
abbrev opsL : List (HloOp τ sig (Elt F)) :=
  [ StableHlo.unary main_arg4 main_v48 (broadcastInDim S1x256 ![1] bcast_S256_S1x256_1 : (⟨S256, .f32⟩ : BufTy).Contents (Elt F) → (⟨S1x256, .f32⟩ : BufTy).Contents (Elt F)),
    StableHlo.unary main_v48 main_v49 (broadcastInDim S50000x256 ![0, 1] bcast_S1x256_S50000x256_0_1 : (⟨S1x256, .f32⟩ : BufTy).Contents (Elt F) → (⟨S50000x256, .f32⟩ : BufTy).Contents (Elt F)),
    StableHlo.binary main_v47 main_v49 main_v50 (addf : (⟨S50000x256, .f32⟩ : BufTy).Contents (Elt F) → (⟨S50000x256, .f32⟩ : BufTy).Contents (Elt F) → (⟨S50000x256, .f32⟩ : BufTy).Contents (Elt F)),
    StableHlo.nullary main_cst_10 (constant S_ .f32 0x00000000#32),
    StableHlo.unary main_cst_10 main_v51 (broadcastInDim S50000 ![] bcast_S_S50000 : (⟨S_, .f32⟩ : BufTy).Contents (Elt F) → (⟨S50000, .f32⟩ : BufTy).Contents (Elt F)),
    StableHlo.unary main_v7 main_v52 (broadcastInDim S850000x1 ![0] bcast_S850000_S850000x1_0 : (⟨S850000, .i32⟩ : BufTy).Contents (Elt F) → (⟨S850000x1, .i32⟩ : BufTy).Contents (Elt F)),
    StableHlo.ternary main_v51 main_v52 main_v9 main_v53 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_11 (constant S_ .f32 0x00000000#32),
    StableHlo.unary main_cst_11 main_v54 (broadcastInDim S50000 ![] bcast_S_S50000 : (⟨S_, .f32⟩ : BufTy).Contents (Elt F) → (⟨S50000, .f32⟩ : BufTy).Contents (Elt F)),
    StableHlo.binary main_v53 main_v54 main_v55 (cmpf .ogt : (⟨S50000, .f32⟩ : BufTy).Contents (Elt F) → (⟨S50000, .f32⟩ : BufTy).Contents (Elt F) → (⟨S50000, .i1⟩ : BufTy).Contents (Elt F)),
    StableHlo.unary main_v53 main_v56 (Host.rsqrt : (⟨S50000, .f32⟩ : BufTy).Contents (Elt F) → (⟨S50000, .f32⟩ : BufTy).Contents (Elt F)),
    StableHlo.nullary main_cst_12 (constant S_ .f32 0x00000000#32),
    TRef.unary (.of main_cst_12) main_call2.v0 id,
    TRef.unary main_call2.v0 main_call2.v1 (broadcastInDim S50000 ![] bcast_S_S50000),
    TRef.ternary (.of main_v55) (.of main_v56) main_call2.v1 main_call2.v2 select,
    StableHlo.nullary main_c_13 (constantI S_ 32 0#32),
    StableHlo.unary main_c_13 main_v58 (broadcastInDim S850000 ![] bcast_S_S850000 : (⟨S_, .i32⟩ : BufTy).Contents (Elt F) → (⟨S850000, .i32⟩ : BufTy).Contents (Elt F)),
    StableHlo.binary main_v4 main_v58 main_v59 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v60 (broadcastInDim S850000 ![] bcast_S_S850000 : (⟨S_, .i32⟩ : BufTy).Contents (Elt F) → (⟨S850000, .i32⟩ : BufTy).Contents (Elt F)),
    StableHlo.binary main_v4 main_v60 main_v61 (addi : (⟨S850000, .i32⟩ : BufTy).Contents (Elt F) → (⟨S850000, .i32⟩ : BufTy).Contents (Elt F) → (⟨S850000, .i32⟩ : BufTy).Contents (Elt F)),
    StableHlo.ternary main_v59 main_v61 main_v4 main_v62 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v62 main_v63 (broadcastInDim S850000x1 ![0] bcast_S850000_S850000x1_0 : (⟨S850000, .i32⟩ : BufTy).Contents (Elt F) → (⟨S850000x1, .i32⟩ : BufTy).Contents (Elt F)),
    StableHlo.binary main_v57 main_v63 main_v64 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v64 main_v9 main_v65 (mulf : (⟨S850000, .f32⟩ : BufTy).Contents (Elt F) → (⟨S850000, .f32⟩ : BufTy).Contents (Elt F) → (⟨S850000, .f32⟩ : BufTy).Contents (Elt F)),
    StableHlo.nullary main_c_15 (constantI S_ 32 0#32),
    StableHlo.unary main_c_15 main_v66 (broadcastInDim S850000 ![] bcast_S_S850000 : (⟨S_, .i32⟩ : BufTy).Contents (Elt F) → (⟨S850000, .i32⟩ : BufTy).Contents (Elt F)),
    StableHlo.binary main_v7 main_v66 main_v67 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v68 (broadcastInDim S850000 ![] bcast_S_S850000 : (⟨S_, .i32⟩ : BufTy).Contents (Elt F) → (⟨S850000, .i32⟩ : BufTy).Contents (Elt F)),
    StableHlo.binary main_v7 main_v68 main_v69 (addi : (⟨S850000, .i32⟩ : BufTy).Contents (Elt F) → (⟨S850000, .i32⟩ : BufTy).Contents (Elt F) → (⟨S850000, .i32⟩ : BufTy).Contents (Elt F)),
    StableHlo.ternary main_v67 main_v69 main_v7 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v70 main_v71 (broadcastInDim S850000x1 ![0] bcast_S850000_S850000x1_0 : (⟨S850000, .i32⟩ : BufTy).Contents (Elt F) → (⟨S850000x1, .i32⟩ : BufTy).Contents (Elt F)),
    StableHlo.binary main_v57 main_v71 main_v72 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v65 main_v72 main_v73 (mulf : (⟨S850000, .f32⟩ : BufTy).Contents (Elt F) → (⟨S850000, .f32⟩ : BufTy).Contents (Elt F) → (⟨S850000, .f32⟩ : BufTy).Contents (Elt F)),
    StableHlo.unary main_arg5 main_v74 ((transpose S256x128 [1, 0] · transposes_S128x256_S256x128_1_0) : (⟨S128x256, .f32⟩ : BufTy).Contents (Elt F) → (⟨S256x128, .f32⟩ : BufTy).Contents (Elt F)),
    StableHlo.binary main_v50 main_v74 main_v75 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_c_17 (constantI S_ 32 0#32),
    StableHlo.unary main_c_17 main_v76 (broadcastInDim S850000 ![] bcast_S_S850000 : (⟨S_, .i32⟩ : BufTy).Contents (Elt F) → (⟨S850000, .i32⟩ : BufTy).Contents (Elt F)),
    StableHlo.binary main_v4 main_v76 main_v77 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v78 (broadcastInDim S850000 ![] bcast_S_S850000 : (⟨S_, .i32⟩ : BufTy).Contents (Elt F) → (⟨S850000, .i32⟩ : BufTy).Contents (Elt F)),
    StableHlo.binary main_v4 main_v78 main_v79 (addi : (⟨S850000, .i32⟩ : BufTy).Contents (Elt F) → (⟨S850000, .i32⟩ : BufTy).Contents (Elt F) → (⟨S850000, .i32⟩ : BufTy).Contents (Elt F)),
    StableHlo.ternary main_v77 main_v79 main_v4 main_v80 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v80 main_v81 (broadcastInDim S850000x1 ![0] bcast_S850000_S850000x1_0 : (⟨S850000, .i32⟩ : BufTy).Contents (Elt F) → (⟨S850000x1, .i32⟩ : BufTy).Contents (Elt F)),
    StableHlo.binary main_v75 main_v81 main_v82 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v73 main_v83 (broadcastInDim S850000x1 ![0] bcast_S850000_S850000x1_0 : (⟨S850000, .f32⟩ : BufTy).Contents (Elt F) → (⟨S850000x1, .f32⟩ : BufTy).Contents (Elt F)),
    StableHlo.unary main_v83 main_v84 (broadcastInDim S850000x128 ![0, 1] bcast_S850000x1_S850000x128_0_1 : (⟨S850000x1, .f32⟩ : BufTy).Contents (Elt F) → (⟨S850000x128, .f32⟩ : BufTy).Contents (Elt F)),
    StableHlo.binary main_v82 main_v84 main_v85 (mulf : (⟨S850000x128, .f32⟩ : BufTy).Contents (Elt F) → (⟨S850000x128, .f32⟩ : BufTy).Contents (Elt F) → (⟨S850000x128, .f32⟩ : BufTy).Contents (Elt F)),
    StableHlo.nullary main_cst_19 (constant S_ .f32 0x00000000#32),
    StableHlo.unary main_cst_19 main_v86 (broadcastInDim S50000x128 ![] bcast_S_S50000x128 : (⟨S_, .f32⟩ : BufTy).Contents (Elt F) → (⟨S50000x128, .f32⟩ : BufTy).Contents (Elt F)),
    StableHlo.unary main_v7 main_v87 (broadcastInDim S850000x1 ![0] bcast_S850000_S850000x1_0 : (⟨S850000, .i32⟩ : BufTy).Contents (Elt F) → (⟨S850000x1, .i32⟩ : BufTy).Contents (Elt F)),
    StableHlo.ternary main_v86 main_v87 main_v85 main_v88 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg6 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S50000x128 ![0, 1] bcast_S1x128_S50000x128_0_1 : (⟨S1x128, .f32⟩ : BufTy).Contents (Elt F) → (⟨S50000x128, .f32⟩ : BufTy).Contents (Elt F)),
    StableHlo.binary main_v88 main_v90 main_v91 (addf : (⟨S50000x128, .f32⟩ : BufTy).Contents (Elt F) → (⟨S50000x128, .f32⟩ : BufTy).Contents (Elt F) → (⟨S50000x128, .f32⟩ : BufTy).Contents (Elt F)) ]

/-- The column sums and their division by 50000. -/
abbrev opsM : List (HloOp τ sig (Elt F)) :=
  [ StableHlo.nullary main_cst_20 (constant S_ .f32 0x00000000#32),
    StableHlo.binary main_v91 main_cst_20 main_v92 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_21 (constant S_ .f32 0x47435000#32),
    StableHlo.unary main_cst_21 main_v93 (broadcastInDim S128 ![] bcast_S_S128 : (⟨S_, .f32⟩ : BufTy).Contents (Elt F) → (⟨S128, .f32⟩ : BufTy).Contents (Elt F)),
    StableHlo.binary main_v92 main_v93 main_v94 (Host.divf : (⟨S128, .f32⟩ : BufTy).Contents (Elt F) → (⟨S128, .f32⟩ : BufTy).Contents (Elt F) → (⟨S128, .f32⟩ : BufTy).Contents (Elt F)),
    StableHlo.nullary main_cst_22 (constant S_ .f32 0xFF800000#32) ]

/-- The column maxima. -/
abbrev opsD : List (HloOp τ sig (Elt F)) :=
  [ StableHlo.binary main_v91 main_cst_22 main_v95 ((fun x v => Host.reduce FloatOps.maximumf x v reducesTo_S50000x128_S128_d0 h_S_) : (⟨S50000x128, .f32⟩ : BufTy).Contents (Elt F) → (⟨S_, .f32⟩ : BufTy).Contents (Elt F) → (⟨S128, .f32⟩ : BufTy).Contents (Elt F)) ]

/-- The sums' quotients followed by the maxima. -/
abbrev opsE : List (HloOp τ sig (Elt F)) :=
  [ StableHlo.binary main_v94 main_v95 main_v96 ((fun a b => concatenate S256 0 [⟨S128, a⟩, ⟨S128, b⟩] concatenates_S128_S128_S256_d0) : (⟨S128, .f32⟩ : BufTy).Contents (Elt F) → (⟨S128, .f32⟩ : BufTy).Contents (Elt F) → (⟨S256, .f32⟩ : BufTy).Contents (Elt F)) ]

/-- The three stretches of the program cut into the eight stages read below. -/
theorem ops0_split : (ops0 : List (HloOp τ sig (Elt F))) = opsA ++ (opsB1 ++ (opsB2 ++ opsC)) := rfl
theorem ops1_split : (ops1 : List (HloOp τ sig (Elt F))) = opsL ++ opsM := rfl
theorem ops2_split : (ops2 : List (HloOp τ sig (Elt F))) = opsD ++ opsE := rfl

/-! ## Each stage, from any contents W: what it leaves at the buffers later stages read, in terms of what W holds at
the buffers it reads; the sums, gathers and reductions are compared as they stand, never opened. -/

/-- The clean-up leaves x' at its result buffer. -/
theorem A_v0 (W : Valuation τ sig (Elt F)) :
    after opsA W (Proc.devRef .tc main_v0) = Cert.Spec.cleaned (F := F) (W (Proc.devRef .tc main_arg0)) := by
  fold_results
  rfl
theorem A_keep_main_arg1 (W : Valuation τ sig (Elt F)) :
    after opsA W (Proc.devRef .tc main_arg1) = W (Proc.devRef .tc main_arg1) := by
  fold_results
theorem A_keep_main_arg2 (W : Valuation τ sig (Elt F)) :
    after opsA W (Proc.devRef .tc main_arg2) = W (Proc.devRef .tc main_arg2) := by
  fold_results
theorem A_keep_main_arg3 (W : Valuation τ sig (Elt F)) :
    after opsA W (Proc.devRef .tc main_arg3) = W (Proc.devRef .tc main_arg3) := by
  fold_results
theorem A_keep_main_arg4 (W : Valuation τ sig (Elt F)) :
    after opsA W (Proc.devRef .tc main_arg4) = W (Proc.devRef .tc main_arg4) := by
  fold_results
theorem A_keep_main_arg5 (W : Valuation τ sig (Elt F)) :
    after opsA W (Proc.devRef .tc main_arg5) = W (Proc.devRef .tc main_arg5) := by
  fold_results
theorem A_keep_main_arg6 (W : Valuation τ sig (Elt F)) :
    after opsA W (Proc.devRef .tc main_arg6) = W (Proc.devRef .tc main_arg6) := by
  fold_results

/-- The sources, the ends and the weights with the self loops appended. -/
theorem B1_v4 (W : Valuation τ sig (Elt F)) :
    after opsB1 W (Proc.devRef .tc main_v4) = Cert.Spec.src (F := F) (W (Proc.devRef .tc main_arg1)) := by
  fold_results
  rfl
theorem B1_v7 (W : Valuation τ sig (Elt F)) :
    after opsB1 W (Proc.devRef .tc main_v7) = Cert.Spec.dst (F := F) (W (Proc.devRef .tc main_arg1)) := by
  fold_results
  rfl
theorem B1_v9 (W : Valuation τ sig (Elt F)) :
    after opsB1 W (Proc.devRef .tc main_v9) = Cert.Spec.wts (F := F) (W (Proc.devRef .tc main_arg2)) := by
  fold_results
  rfl
theorem B1_keep_main_v0 (W : Valuation τ sig (Elt F)) :
    after opsB1 W (Proc.devRef .tc main_v0) = W (Proc.devRef .tc main_v0) := by
  fold_results
theorem B1_keep_main_arg3 (W : Valuation τ sig (Elt F)) :
    after opsB1 W (Proc.devRef .tc main_arg3) = W (Proc.devRef .tc main_arg3) := by
  fold_results
theorem B1_keep_main_arg4 (W : Valuation τ sig (Elt F)) :
    after opsB1 W (Proc.devRef .tc main_arg4) = W (Proc.devRef .tc main_arg4) := by
  fold_results
theorem B1_keep_main_arg5 (W : Valuation τ sig (Elt F)) :
    after opsB1 W (Proc.devRef .tc main_arg5) = W (Proc.devRef .tc main_arg5) := by
  fold_results
theorem B1_keep_main_arg6 (W : Valuation τ sig (Elt F)) :
    after opsB1 W (Proc.devRef .tc main_arg6) = W (Proc.devRef .tc main_arg6) := by
  fold_results

attribute [local irreducible] Host.scatterAdd Host.gather Host.reduceAdd Host.reduce in
/-- Where the weighted in-degree is positive, and its inverse square root. -/
theorem B2_v14 (W : Valuation τ sig (Elt F)) (a1 : (⟨S2x800000, .i32⟩ : BufTy).Contents (Elt F)) (a2 : (⟨S800000, .f32⟩ : BufTy).Contents (Elt F))
    (e7 : W (Proc.devRef .tc main_v7) = Cert.Spec.dst (F := F) a1) (e9 : W (Proc.devRef .tc main_v9) = Cert.Spec.wts a2) :
    after opsB2 W (Proc.devRef .tc main_v14) = cmpf .ogt (Cert.Spec.deg a1 a2) (broadcastInDim S50000 ![] bcast_S_S50000 (constant (F := F) S_ .f32 0x00000000#32)) := by
  fold_results
  rw [e7, e9]
  rfl
attribute [local irreducible] Host.scatterAdd Host.gather Host.reduceAdd Host.reduce in
theorem B2_v15 (W : Valuation τ sig (Elt F)) (a1 : (⟨S2x800000, .i32⟩ : BufTy).Contents (Elt F)) (a2 : (⟨S800000, .f32⟩ : BufTy).Contents (Elt F))
    (e7 : W (Proc.devRef .tc main_v7) = Cert.Spec.dst (F := F) a1) (e9 : W (Proc.devRef .tc main_v9) = Cert.Spec.wts a2) :
    after opsB2 W (Proc.devRef .tc main_v15) = Host.rsqrt (Cert.Spec.deg a1 a2) := by
  fold_results
  rw [e7, e9]
  rfl
theorem B2_cst3 (W : Valuation τ sig (Elt F)) :
    after opsB2 W (Proc.devRef .tc main_cst_3) = constant (F := F) S_ .f32 0x00000000#32 := by
  fold_results
theorem B2_keep_main_v0 (W : Valuation τ sig (Elt F)) :
    after opsB2 W (Proc.devRef .tc main_v0) = W (Proc.devRef .tc main_v0) := by
  fold_results
theorem B2_keep_main_v4 (W : Valuation τ sig (Elt F)) :
    after opsB2 W (Proc.devRef .tc main_v4) = W (Proc.devRef .tc main_v4) := by
  fold_results
theorem B2_keep_main_v7 (W : Valuation τ sig (Elt F)) :
    after opsB2 W (Proc.devRef .tc main_v7) = W (Proc.devRef .tc main_v7) := by
  fold_results
theorem B2_keep_main_v9 (W : Valuation τ sig (Elt F)) :
    after opsB2 W (Proc.devRef .tc main_v9) = W (Proc.devRef .tc main_v9) := by
  fold_results
theorem B2_keep_main_arg3 (W : Valuation τ sig (Elt F)) :
    after opsB2 W (Proc.devRef .tc main_arg3) = W (Proc.devRef .tc main_arg3) := by
  fold_results
theorem B2_keep_main_arg4 (W : Valuation τ sig (Elt F)) :
    after opsB2 W (Proc.devRef .tc main_arg4) = W (Proc.devRef .tc main_arg4) := by
  fold_results
theorem B2_keep_main_arg5 (W : Valuation τ sig (Elt F)) :
    after opsB2 W (Proc.devRef .tc main_arg5) = W (Proc.devRef .tc main_arg5) := by
  fold_results
theorem B2_keep_main_arg6 (W : Valuation τ sig (Elt F)) :
    after opsB2 W (Proc.devRef .tc main_arg6) = W (Proc.devRef .tc main_arg6) := by
  fold_results

attribute [local irreducible] Host.scatterAdd Host.gather Host.reduceAdd Host.reduce in
/-- The first aggregation: x'·W1ᵀ gathered at the edges' sources, scaled by the edges' coefficients, added up at the
    edges' ends. -/
theorem C_v47 (W : Valuation τ sig (Elt F)) (a0 : (⟨S50000x128, .f32⟩ : BufTy).Contents (Elt F)) (a1 : (⟨S2x800000, .i32⟩ : BufTy).Contents (Elt F)) (a2 : (⟨S800000, .f32⟩ : BufTy).Contents (Elt F)) (a3 : (⟨S256x128, .f32⟩ : BufTy).Contents (Elt F))
    (e0 : W (Proc.devRef .tc main_v0) = Cert.Spec.cleaned a0) (e4 : W (Proc.devRef .tc main_v4) = Cert.Spec.src (F := F) a1)
    (e7 : W (Proc.devRef .tc main_v7) = Cert.Spec.dst (F := F) a1) (e9 : W (Proc.devRef .tc main_v9) = Cert.Spec.wts a2)
    (e14 : W (Proc.devRef .tc main_v14) = cmpf .ogt (Cert.Spec.deg a1 a2) (broadcastInDim S50000 ![] bcast_S_S50000 (constant (F := F) S_ .f32 0x00000000#32)))
    (e15 : W (Proc.devRef .tc main_v15) = Host.rsqrt (Cert.Spec.deg a1 a2))
    (e3 : W (Proc.devRef .tc main_cst_3) = constant (F := F) S_ .f32 0x00000000#32) (ea3 : W (Proc.devRef .tc main_arg3) = a3) :
    after opsC W (Proc.devRef .tc main_v47) = Cert.Spec.agg256 (Host.dotGeneral dot_S50000x128_S128x256_S50000x256_1_0_0_1_n_n none (Cert.Spec.cleaned a0) (transpose S128x256 [1, 0] a3 transposes_S256x128_S128x256_1_0)) a1 a2 := by
  fold_results
  rw [e0, e4, e7, e9, e14, e15, e3, ea3]
  rfl
theorem C_keep_main_v4 (W : Valuation τ sig (Elt F)) :
    after opsC W (Proc.devRef .tc main_v4) = W (Proc.devRef .tc main_v4) := by
  fold_results
theorem C_keep_main_v7 (W : Valuation τ sig (Elt F)) :
    after opsC W (Proc.devRef .tc main_v7) = W (Proc.devRef .tc main_v7) := by
  fold_results
theorem C_keep_main_v9 (W : Valuation τ sig (Elt F)) :
    after opsC W (Proc.devRef .tc main_v9) = W (Proc.devRef .tc main_v9) := by
  fold_results
theorem C_keep_main_arg4 (W : Valuation τ sig (Elt F)) :
    after opsC W (Proc.devRef .tc main_arg4) = W (Proc.devRef .tc main_arg4) := by
  fold_results
theorem C_keep_main_arg5 (W : Valuation τ sig (Elt F)) :
    after opsC W (Proc.devRef .tc main_arg5) = W (Proc.devRef .tc main_arg5) := by
  fold_results
theorem C_keep_main_arg6 (W : Valuation τ sig (Elt F)) :
    after opsC W (Proc.devRef .tc main_arg6) = W (Proc.devRef .tc main_arg6) := by
  fold_results

attribute [local irreducible] Host.scatterAdd Host.gather Host.reduceAdd Host.reduce in
/-- The second layer: the first aggregation plus its bias, times W2ᵀ, aggregated again with the same coefficients
    (recomputed from the same edge lists and weights), plus the second bias. -/
theorem L_v91 (W : Valuation τ sig (Elt F)) (a0 : (⟨S50000x128, .f32⟩ : BufTy).Contents (Elt F)) (a1 : (⟨S2x800000, .i32⟩ : BufTy).Contents (Elt F)) (a2 : (⟨S800000, .f32⟩ : BufTy).Contents (Elt F)) (a3 : (⟨S256x128, .f32⟩ : BufTy).Contents (Elt F)) (a4 : (⟨S256, .f32⟩ : BufTy).Contents (Elt F)) (a5 : (⟨S128x256, .f32⟩ : BufTy).Contents (Elt F)) (a6 : (⟨S128, .f32⟩ : BufTy).Contents (Elt F))
    (e47 : W (Proc.devRef .tc main_v47) = Cert.Spec.agg256 (Host.dotGeneral dot_S50000x128_S128x256_S50000x256_1_0_0_1_n_n none (Cert.Spec.cleaned a0) (transpose S128x256 [1, 0] a3 transposes_S256x128_S128x256_1_0)) a1 a2) (e4 : W (Proc.devRef .tc main_v4) = Cert.Spec.src (F := F) a1)
    (e7 : W (Proc.devRef .tc main_v7) = Cert.Spec.dst (F := F) a1) (e9 : W (Proc.devRef .tc main_v9) = Cert.Spec.wts a2)
    (ea4 : W (Proc.devRef .tc main_arg4) = a4) (ea5 : W (Proc.devRef .tc main_arg5) = a5) (ea6 : W (Proc.devRef .tc main_arg6) = a6) :
    after opsL W (Proc.devRef .tc main_v91) = (Cert.Spec.layer2 a0 a1 a2 a3 a4 a5 a6) := by
  fold_results
  rw [e47, e4, e7, e9, ea4, ea5, ea6]
  rfl

attribute [local irreducible] Host.scatterAdd Host.gather Host.reduceAdd Host.reduce in
/-- The column sums divided by 50000, and the least float for the maxima to start from. -/
theorem M_v94 (W : Valuation τ sig (Elt F)) (h : (⟨S50000x128, .f32⟩ : BufTy).Contents (Elt F)) (e91 : W (Proc.devRef .tc main_v91) = h) :
    after opsM W (Proc.devRef .tc main_v94) = Host.divf (Cert.Spec.colSum h) (broadcastInDim S128 ![] bcast_S_S128 (constant (F := F) S_ .f32 0x47435000#32)) := by
  fold_results
  rw [e91]
  rfl
theorem M_cst22 (W : Valuation τ sig (Elt F)) :
    after opsM W (Proc.devRef .tc main_cst_22) = constant (F := F) S_ .f32 0xFF800000#32 := by
  fold_results
theorem M_keep_main_v91 (W : Valuation τ sig (Elt F)) :
    after opsM W (Proc.devRef .tc main_v91) = W (Proc.devRef .tc main_v91) := by
  fold_results

attribute [local irreducible] Host.scatterAdd Host.gather Host.reduceAdd Host.reduce in
/-- The column maxima. -/
theorem D_v95 (W : Valuation τ sig (Elt F)) (h : (⟨S50000x128, .f32⟩ : BufTy).Contents (Elt F)) (e91 : W (Proc.devRef .tc main_v91) = h)
    (e22 : W (Proc.devRef .tc main_cst_22) = constant (F := F) S_ .f32 0xFF800000#32) :
    after opsD W (Proc.devRef .tc main_v95) = Cert.Spec.colMax h := by
  fold_results
  rw [e91, e22]
  rfl
theorem D_keep_main_v94 (W : Valuation τ sig (Elt F)) :
    after opsD W (Proc.devRef .tc main_v94) = W (Proc.devRef .tc main_v94) := by
  fold_results

/-- The result: the quotients followed by the maxima. -/
theorem E_v96 (W : Valuation τ sig (Elt F)) (s mx : (⟨S128, .f32⟩ : BufTy).Contents (Elt F))
    (e94 : W (Proc.devRef .tc main_v94) = Host.divf s (broadcastInDim S128 ![] bcast_S_S128 (constant (F := F) S_ .f32 0x47435000#32))) (e95 : W (Proc.devRef .tc main_v95) = mx) :
    after opsE W (Proc.devRef .tc main_v96) = Cert.Spec.pooled s mx := by
  fold_results
  rw [e94, e95]
  rfl

/-! ## The stages one after the other -/

set_option maxHeartbeats 1600000 in
/-- The fold at the result buffer is the specification of the argument buffers' contents. -/
theorem out_eq (V : Valuation τ sig (Elt F)) :
    after ops2 (after ops1 (after ops0 V)) (Proc.devRef .tc main_v96)
      = Cert.Spec.out (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [ops0_split, ops1_split, ops2_split, after_append, after_append, after_append, after_append, after_append]
  -- the clean-up
  have hA0 := A_v0 V
  have hA1 := A_keep_main_arg1 V
  have hA2 := A_keep_main_arg2 V
  have hA3 := A_keep_main_arg3 V
  have hA4 := A_keep_main_arg4 V
  have hA5 := A_keep_main_arg5 V
  have hA6 := A_keep_main_arg6 V
  generalize after opsA V = W1 at hA0 hA1 hA2 hA3 hA4 hA5 hA6 ⊢
  -- the edge lists and weights
  have hB4 := B1_v4 W1
  have hB7 := B1_v7 W1
  have hB9 := B1_v9 W1
  rw [hA1] at hB4 hB7
  rw [hA2] at hB9
  have hB0 := (B1_keep_main_v0 W1).trans hA0
  have hBa3 := (B1_keep_main_arg3 W1).trans hA3
  have hBa4 := (B1_keep_main_arg4 W1).trans hA4
  have hBa5 := (B1_keep_main_arg5 W1).trans hA5
  have hBa6 := (B1_keep_main_arg6 W1).trans hA6
  generalize after opsB1 W1 = W2 at hB4 hB7 hB9 hB0 hBa3 hBa4 hBa5 hBa6 ⊢
  -- the degrees
  have hC14 := B2_v14 W2 _ _ hB7 hB9
  have hC15 := B2_v15 W2 _ _ hB7 hB9
  have hC3 := B2_cst3 W2
  have hC0 := (B2_keep_main_v0 W2).trans hB0
  have hC4 := (B2_keep_main_v4 W2).trans hB4
  have hC7 := (B2_keep_main_v7 W2).trans hB7
  have hC9 := (B2_keep_main_v9 W2).trans hB9
  have hCa3 := (B2_keep_main_arg3 W2).trans hBa3
  have hCa4 := (B2_keep_main_arg4 W2).trans hBa4
  have hCa5 := (B2_keep_main_arg5 W2).trans hBa5
  have hCa6 := (B2_keep_main_arg6 W2).trans hBa6
  generalize after opsB2 W2 = W3 at hC14 hC15 hC3 hC0 hC4 hC7 hC9 hCa3 hCa4 hCa5 hCa6 ⊢
  -- the first aggregation
  have hD47 := C_v47 W3 _ _ _ _ hC0 hC4 hC7 hC9 hC14 hC15 hC3 hCa3
  have hD4 := (C_keep_main_v4 W3).trans hC4
  have hD7 := (C_keep_main_v7 W3).trans hC7
  have hD9 := (C_keep_main_v9 W3).trans hC9
  have hDa4 := (C_keep_main_arg4 W3).trans hCa4
  have hDa5 := (C_keep_main_arg5 W3).trans hCa5
  have hDa6 := (C_keep_main_arg6 W3).trans hCa6
  generalize after opsC W3 = W4 at hD47 hD4 hD7 hD9 hDa4 hDa5 hDa6 ⊢
  -- the second layer
  have hE91 := L_v91 W4 _ _ _ _ _ _ _ hD47 hD4 hD7 hD9 hDa4 hDa5 hDa6
  generalize after opsL W4 = W5 at hE91 ⊢
  -- the column sums
  have hF94 := M_v94 W5 _ hE91
  have hF22 := M_cst22 W5
  have hF91 := (M_keep_main_v91 W5).trans hE91
  generalize after opsM W5 = W6 at hF94 hF22 hF91 ⊢
  -- the column maxima
  have hG95 := D_v95 W6 _ hF91 hF22
  have hG94 := (D_keep_main_v94 W6).trans hF94
  generalize after opsD W6 = W7 at hG95 hG94 ⊢
  exact E_v96 W7 _ _ hG94 hG95

set_option maxHeartbeats 1600000 in
/-- No operation writes argument 0's buffer. -/
theorem arg0_eq (V : Valuation τ sig (Elt F)) :
    after ops2 (after ops1 (after ops0 V)) (Proc.devRef .tc main_arg0) = V (Proc.devRef .tc main_arg0) := by
  fold_results

set_option maxHeartbeats 1600000 in
/-- No operation writes argument 1's buffer. -/
theorem arg1_eq (V : Valuation τ sig (Elt F)) :
    after ops2 (after ops1 (after ops0 V)) (Proc.devRef .tc main_arg1) = V (Proc.devRef .tc main_arg1) := by
  fold_results

set_option maxHeartbeats 1600000 in
/-- No operation writes argument 2's buffer. -/
theorem arg2_eq (V : Valuation τ sig (Elt F)) :
    after ops2 (after ops1 (after ops0 V)) (Proc.devRef .tc main_arg2) = V (Proc.devRef .tc main_arg2) := by
  fold_results

set_option maxHeartbeats 1600000 in
/-- No operation writes argument 3's buffer. -/
theorem arg3_eq (V : Valuation τ sig (Elt F)) :
    after ops2 (after ops1 (after ops0 V)) (Proc.devRef .tc main_arg3) = V (Proc.devRef .tc main_arg3) := by
  fold_results

set_option maxHeartbeats 1600000 in
/-- No operation writes argument 4's buffer. -/
theorem arg4_eq (V : Valuation τ sig (Elt F)) :
    after ops2 (after ops1 (after ops0 V)) (Proc.devRef .tc main_arg4) = V (Proc.devRef .tc main_arg4) := by
  fold_results

set_option maxHeartbeats 1600000 in
/-- No operation writes argument 5's buffer. -/
theorem arg5_eq (V : Valuation τ sig (Elt F)) :
    after ops2 (after ops1 (after ops0 V)) (Proc.devRef .tc main_arg5) = V (Proc.devRef .tc main_arg5) := by
  fold_results

set_option maxHeartbeats 1600000 in
/-- No operation writes argument 6's buffer. -/
theorem arg6_eq (V : Valuation τ sig (Elt F)) :
    after ops2 (after ops1 (after ops0 V)) (Proc.devRef .tc main_arg6) = V (Proc.devRef .tc main_arg6) := by
  fold_results

/-- The reference's run: every weakly fair execution terminates with the result buffer at the specification of
    the launch contents of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96)
        = Cert.Spec.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c main_v96).trans (out_eq _), (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _)⟩)
    (run_fold m ρ)

end Cert.ReferenceIdeal.RefRun

end
-- ==== Proof.lean ====
/-
  The certificate of a two-layer graph convolution with pooling, kernel against reference, over the extended reals.

  Both programs compute ONE function of the seven arguments (Proof/Spec.lean): clean x of NaN and infinities; add the
  self loops to the edge list; degrees, their inverse square roots, the edges' coefficients; twice "multiply by the
  transposed weight, gather the rows at the edges' sources, scale, add up at the edges' ends, add the bias"; then the
  column means and the column maxima. The reference does every step with host operations. The kernel does the two
  matrix products and the pooling in three kernel regions over ten blocks of 5000 rows and everything else with the
  same host operations. Where the two differ:
    · a product computed block of rows by block of rows is the product of the whole arrays, row by row
      (Proof/Regions01.lean); the second region adds the bias before multiplying, exactly as the reference does, so
      no distributivity is used;
    · the pooling region accumulates the ten blocks' column sums (and maxima) in order; over the extended reals a
      sum regrouped in ten consecutive blocks is the same sum, and a maximum likewise (Proof/Region2.lean) — only
      associativity and commutativity, so the finiteness of the inputs is never used;
    · a bias reshaped to one row is the bias broadcast along a new leading axis, and a row cast back to a vector is the
      vector (Proof/KVal.lean).
  The kernel's run with its result named is Proof/KRun.lean; the reference's run is Proof/RefRun.lean and
  Proof/RefVal.lean. The ideal pass rewrote nothing, so the idealization claim is trivial.
-/
import proofs.«130542_j80358838108317_1_alg».proof.Defs
import proofs.«130542_j80358838108317_1_alg».proof.Proof.Gen.Kernel
import proofs.«130542_j80358838108317_1_alg».proof.Proof.Gen.Kernel.Skeleton
import proofs.«130542_j80358838108317_1_alg».proof.Proof.Gen.Kernel.Launch
import proofs.«130542_j80358838108317_1_alg».proof.Proof.Gen.Kernel.Points
import proofs.«130542_j80358838108317_1_alg».proof.Proof.Gen.Kernel.Frame
import proofs.«130542_j80358838108317_1_alg».proof.Proof.Gen.KernelIdeal
import proofs.«130542_j80358838108317_1_alg».proof.Proof.Gen.KernelIdeal.Skeleton
import proofs.«130542_j80358838108317_1_alg».proof.Proof.Gen.KernelIdeal.Launch
import proofs.«130542_j80358838108317_1_alg».proof.Proof.Gen.KernelIdeal.Points
import proofs.«130542_j80358838108317_1_alg».proof.Proof.Gen.KernelIdeal.Frame
import proofs.«130542_j80358838108317_1_alg».proof.Proof.Gen.ReferenceIdeal
import proofs.«130542_j80358838108317_1_alg».proof.Proof.Gen.Pre_finite_inputs
import proofs.«130542_j80358838108317_1_alg».proof.Proof.KRun
import proofs.«130542_j80358838108317_1_alg».proof.Proof.KVal
import proofs.«130542_j80358838108317_1_alg».proof.Proof.Regions01
import proofs.«130542_j80358838108317_1_alg».proof.Proof.Region2
import proofs.«130542_j80358838108317_1_alg».proof.Proof.RefVal
import Idealize.ShloMosaic.Adequacy
import Idealize.ShloMosaic.Init

noncomputable section

namespace Cert.Proof

open Idealize.ShloMosaic Idealize.ShloMosaic.TcCoe Idealize.SL.Sem

/-- The three frames: the kernel's and its idealization's are the whole generated frame certificates; the reference's
    is its run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both idealized programs end with the specification of the (agreeing) arguments in their result buffers. -/
theorem algebraic : Cert.algebraic_KernelIdeal_ReferenceIdeal := by
  intro m ρ m' ρ' _ hagree
  refine ⟨fun c => Cert.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Bridge.kernel_value m ρ c Cert.KernelIdeal.Bridge.region0_value
        Cert.KernelIdeal.Bridge.region1_value Cert.KernelIdeal.Bridge.region2_sum Cert.KernelIdeal.Bridge.region2_max), (h c).2⟩)
      (Cert.KernelIdeal.Bridge.run_value (F := Ideal) m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
